-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S512x256 : Shape := ⟨2, ![512, 256]⟩
abbrev S1x256 : Shape := ⟨2, ![1, 256]⟩
abbrev S256x256 : Shape := ⟨2, ![256, 256]⟩
abbrev S256x128 : Shape := ⟨2, ![256, 128]⟩
abbrev S1x128 : Shape := ⟨2, ![1, 128]⟩
abbrev S_ : Shape := ⟨0, ![]⟩

class Facts : Prop where
  bitsLt_bf16_f32 : FTy.bits .bf16 < FTy.bits .f32
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x256 : S_.BroadcastsInDim S512x256 (![] : Fin 0 → Fin S512x256.rank)
  reducesTo_S512x256_S_d0_1 : S512x256.ReducesTo [0, 1] S_
  bcast_S_S1x256 : S_.BroadcastsInDim S1x256 (![] : Fin 0 → Fin S1x256.rank)
  reducesTo_S1x256_S_d0_1 : S1x256.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg7 : FVec F S1x128 .f32) (main_v29 : IVec S_ 1) (main_v33 : IVec S_ 1) : IVec S_ 1 :=
  let main_v34 : IVec S_ 1 := andi main_v29 main_v33
  let main_v35 : FVec F S1x128 .f32 := Host.absf main_arg7
  let main_cst_12 : FVec F S_ .f32 := constant S_ .f32 0x7F800000#32
  let main_v36 : FVec F S1x128 .f32 := broadcastInDim S1x128 ![] bcast_S_S1x128 main_cst_12
  let main_v37 : IVec S1x128 1 := cmpf .olt main_v35 main_v36
  let main_c_13 : IVec S_ 1 := constantI S_ 1 1#1
  let main_v38 : IVec S_ 1 := (fun x v => Host.reduce IntOp.andi x v reducesTo_S1x128_S_d0_1 h_S_) main_v37 main_c_13
  let main_v39 : IVec S_ 1 := andi main_v34 main_v38
  main_v39

def fn_part1 {F : FTy → Type} [FloatOps F] (main_arg4 : FVec F S256x256 .f32) (main_arg5 : FVec F S1x256 .f32) (main_arg6 : FVec F S256x128 .f32) (main_arg7 : FVec F S1x128 .f32) (main_v14 : IVec S_ 1) (main_v15 : FVec F S1x256 .f32) (main_v16 : FVec F S1x256 .f32) : IVec S_ 1 :=
  let main_v17 : IVec S1x256 1 := cmpf .olt main_v15 main_v16
  let main_c_5 : IVec S_ 1 := constantI S_ 1 1#1
  let main_v18 : IVec S_ 1 := (fun x v => Host.reduce IntOp.andi x v reducesTo_S1x256_S_d0_1 h_S_) main_v17 main_c_5
  let main_v19 : IVec S_ 1 := andi main_v14 main_v18
  let main_v20 : FVec F S256x256 .f32 := Host.absf main_arg4
  let main_cst_6 : FVec F S_ .f32 := constant S_ .f32 0x7F800000#32
  let main_v21 : FVec F S256x256 .f32 := broadcastInDim S256x256 ![] bcast_S_S256x256 main_cst_6
  let main_v22 : IVec S256x256 1 := cmpf .olt main_v20 main_v21
  let main_c_7 : IVec S_ 1 := constantI S_ 1 1#1
  let main_v23 : IVec S_ 1 := (fun x v => Host.reduce IntOp.andi x v reducesTo_S256x256_S_d0_1 h_S_) main_v22 main_c_7
  let main_v24 : IVec S_ 1 := andi main_v19 main_v23
  let main_v25 : FVec F S1x256 .f32 := Host.absf main_arg5
  let main_cst_8 : FVec F S_ .f32 := constant S_ .f32 0x7F800000#32
  let main_v26 : FVec F S1x256 .f32 := broadcastInDim S1x256 ![] bcast_S_S1x256 main_cst_8
  let main_v27 : IVec S1x256 1 := cmpf .olt main_v25 main_v26
  let main_c_9 : IVec S_ 1 := constantI S_ 1 1#1
  let main_v28 : IVec S_ 1 := (fun x v => Host.reduce IntOp.andi x v reducesTo_S1x256_S_d0_1 h_S_) main_v27 main_c_9
  let main_v29 : IVec S_ 1 := andi main_v24 main_v28
  let main_v30 : FVec F S256x128 .f32 := Host.absf main_arg6
  let main_cst_10 : FVec F S_ .f32 := constant S_ .f32 0x7F800000#32
  let main_v31 : FVec F S256x128 .f32 := broadcastInDim S256x128 ![] bcast_S_S256x128 main_cst_10
  let main_v32 : IVec S256x128 1 := cmpf .olt main_v30 main_v31
  let main_c_11 : IVec S_ 1 := constantI S_ 1 1#1
  let main_v33 : IVec S_ 1 := (fun x v => Host.reduce IntOp.andi x v reducesTo_S256x128_S_d0_1 h_S_) main_v32 main_c_11
  fn_part2 (F := F) main_arg7 main_v29 main_v33

def fn {F : FTy → Type} [FloatOps F] (main_arg0 : FVec F S8192x8192 .bf16) (main_arg1 : FVec F S8192x512 .f32) (main_arg2 : FVec F S512x256 .f32) (main_arg3 : FVec F S1x256 .f32) (main_arg4 : FVec F S256x256 .f32) (main_arg5 : FVec F S1x256 .f32) (main_arg6 : FVec F S256x128 .f32) (main_arg7 : FVec F S1x128 .f32) : IVec S_ 1 :=
  let main_v0 : FVec F S8192x8192 .f32 := (extf .f32 · bitsLt_bf16_f32) main_arg0
  let main_v1 : FVec F S8192x8192 .f32 := Host.absf main_v0
  let main_cst : FVec F S_ .f32 := constant S_ .f32 0x7F800000#32
  let main_v2 : FVec F S8192x8192 .f32 := broadcastInDim S8192x8192 ![] bcast_S_S8192x8192 main_cst
  let main_v3 : IVec S8192x8192 1 := cmpf .olt main_v1 main_v2
  let main_c : IVec S_ 1 := constantI S_ 1 1#1
  let main_v4 : IVec S_ 1 := (fun x v => Host.reduce IntOp.andi x v reducesTo_S8192x8192_S_d0_1 h_S_) main_v3 main_c
  let main_v5 : FVec F S8192x512 .f32 := Host.absf main_arg1
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_c_1 : IVec S_ 1 := constantI S_ 1 1#1
  let main_v8 : IVec S_ 1 := (fun x v => Host.reduce IntOp.andi x v reducesTo_S8192x512_S_d0_1 h_S_) main_v7 main_c_1
  let main_v9 : IVec S_ 1 := andi main_v4 main_v8
  let main_v10 : FVec F S512x256 .f32 := Host.absf main_arg2
  let main_cst_2 : FVec F S_ .f32 := constant S_ .f32 0x7F800000#32
  let main_v11 : FVec F S512x256 .f32 := broadcastInDim S512x256 ![] bcast_S_S512x256 main_cst_2
  let main_v12 : IVec S512x256 1 := cmpf .olt main_v10 main_v11
  let main_c_3 : IVec S_ 1 := constantI S_ 1 1#1
  let main_v13 : IVec S_ 1 := (fun x v => Host.reduce IntOp.andi x v reducesTo_S512x256_S_d0_1 h_S_) main_v12 main_c_3
  let main_v14 : IVec S_ 1 := andi main_v9 main_v13
  let main_v15 : FVec F S1x256 .f32 := Host.absf main_arg3
  let main_cst_4 : FVec F S_ .f32 := constant S_ .f32 0x7F800000#32
  let main_v16 : FVec F S1x256 .f32 := broadcastInDim S1x256 ![] bcast_S_S1x256 main_cst_4
  fn_part1 (F := F) main_arg4 main_arg5 main_arg6 main_arg7 main_v14 main_v15 main_v16
-- ==== Kernel.lean ====
abbrev S8192x8192 : Shape := ⟨2, ![8192, 8192]⟩
abbrev S8192x512 : Shape := ⟨2, ![8192, 512]⟩
abbrev S512x256 : Shape := ⟨2, ![512, 256]⟩
abbrev S1x256 : Shape := ⟨2, ![1, 256]⟩
abbrev S256x256 : Shape := ⟨2, ![256, 256]⟩
abbrev S256x128 : Shape := ⟨2, ![256, 128]⟩
abbrev S1x128 : Shape := ⟨2, ![1, 128]⟩
abbrev S8192x256 : Shape := ⟨2, ![8192, 256]⟩
abbrev S8192x128 : Shape := ⟨2, ![8192, 128]⟩
abbrev S1024x512 : Shape := ⟨2, ![1024, 512]⟩
abbrev S1024x256 : Shape := ⟨2, ![1024, 256]⟩
abbrev S512x8192 : Shape := ⟨2, ![512, 8192]⟩
abbrev S512x128 : Shape := ⟨2, ![512, 128]⟩

abbrev nBuf : Space → Nat
  | .hbm => 13
  | .vmem => 16
  | .smem => 0
  | _ => 0

abbrev bufTy : (tb : Table) → Fin (tcTables nBuf tb) → BufTy
  | .hbm, ⟨0, _⟩ => ⟨S8192x8192, .bf16⟩
  | .hbm, ⟨1, _⟩ => ⟨S8192x512, .f32⟩
  | .hbm, ⟨2, _⟩ => ⟨S512x256, .f32⟩
  | .hbm, ⟨3, _⟩ => ⟨S1x256, .f32⟩
  | .hbm, ⟨4, _⟩ => ⟨S256x256, .f32⟩
  | .hbm, ⟨5, _⟩ => ⟨S1x256, .f32⟩
  | .hbm, ⟨6, _⟩ => ⟨S256x128, .f32⟩
  | .hbm, ⟨7, _⟩ => ⟨S1x128, .f32⟩
  | .hbm, ⟨8, _⟩ => ⟨S512x256, .bf16⟩
  | .hbm, ⟨9, _⟩ => ⟨S256x256, .bf16⟩
  | .hbm, ⟨10, _⟩ => ⟨S256x128, .bf16⟩
  | .hbm, ⟨11, _⟩ => ⟨S8192x256, .bf16⟩
  | .hbm, ⟨12, _⟩ => ⟨S8192x128, .f32⟩
  | .local _ .vmem, ⟨0, _⟩ => ⟨S1024x512, .f32⟩
  | .local _ .vmem, ⟨1, _⟩ => ⟨S1024x512, .f32⟩
  | .local _ .vmem, ⟨2, _⟩ => ⟨S512x256, .bf16⟩
  | .local _ .vmem, ⟨3, _⟩ => ⟨S1024x256, .bf16⟩
  | .local _ .vmem, ⟨4, _⟩ => ⟨S1024x256, .bf16⟩
  | .local _ .vmem, ⟨5, _⟩ => ⟨S512x8192, .bf16⟩
  | .local _ .vmem, ⟨6, _⟩ => ⟨S512x8192, .bf16⟩
  | .local _ .vmem, ⟨7, _⟩ => ⟨S8192x256, .bf16⟩
  | .local _ .vmem, ⟨8, _⟩ => ⟨S1x256, .f32⟩
  | .local _ .vmem, ⟨9, _⟩ => ⟨S256x256, .bf16⟩
  | .local _ .vmem, ⟨10, _⟩ => ⟨S1x256, .f32⟩
  | .local _ .vmem, ⟨11, _⟩ => ⟨S256x128, .bf16⟩
  | .local _ .vmem, ⟨12, _⟩ => ⟨S1x128, .f32⟩
  | .local _ .vmem, ⟨13, _⟩ => ⟨S512x128, .f32⟩
  | .local _ .vmem, ⟨14, _⟩ => ⟨S512x128, .f32⟩
  | .local _ .vmem, ⟨15, _⟩ => ⟨S8192x256, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_mult1 (i : grid1.Coords) : BitVec 32 :=
  let arg1 : BitVec 32 := BitVec.ofNat 32 (i 1).val
  let c512_i32 : BitVec 32 := 512#32
  let v20 : BitVec 32 := Scalar.muli arg1 c512_i32
  v20
def k1_off1 (i : grid1.Coords) : Fin 2 → Nat :=
  let arg1 : BitVec 32 := BitVec.ofNat 32 (i 1).val
  let c512_i32 : BitVec 32 := 512#32
  let v20 : BitVec 32 := Scalar.muli arg1 c512_i32
  let v21 : BitVec 32 := v20
  let v22 : Index := Scalar.indexCast v21
  let c0_11 : Index := 0#32
  ![v22.toNat, 0]
def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage1_0 : Fin 2 → Memref sig .tc .vmem S512x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S512x8192_S512x8192_0_0 : ∀ a, (![0, 0] : Fin 2 → Nat) a + S512x8192.size a ≤ S512x8192.size a
  h_S512x8192 : 0 < S512x8192.numel
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S1x256_S1x256_0_0 : ∀ a, (![0, 0] : Fin 2 → Nat) a + S1x256.size a ≤ S1x256.size a
  h_S1x256 : 0 < S1x256.numel
  broadcasts_S1x256_S512x256 : S1x256.Broadcasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S1024x512_S512x256_S1024x256_1_0_0_1_n_n_wf : DotDims.WF S1024x512 S512x256 S1024x256 [1] [0] [0] [1] [] []
  dot_S512x8192_S8192x256_S512x256_1_0_0_1_n_n_wf : DotDims.WF S512x8192 S8192x256 S512x256 [1] [0] [0] [1] [] []
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .bf16 = 32 ∨ (Rect.block (s := S8192x256) S1024x256.size (cc0_transform_2 i) (hinb0_2 i)).WholeWords (EltTy.packing .bf16)
  hrank1 : 0 < grid1.rank
  k1_mult1_dvd : ∀ i : grid1.Coords, ∀ (k1_h1 : k1_cond1 i = 1#1), 128 ∣ (k1_mult1 i).toNat
  k1_off1_inb : ∀ i : grid1.Coords, ∀ (k1_h1 : k1_cond1 i = 1#1), ∀ a, (k1_off1 i) a + S512x256.size a ≤ S8192x256.size a
  k1_off1_packedbf16 : ∀ i : grid1.Coords, ∀ (k1_h1 : k1_cond1 i = 1#1), (Rect.unit (s := S8192x256) (k1_off1 i) S512x256.size (k1_off1_inb i k1_h1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S8192x8192.size a
  hwx1_0 : ∀ i : grid1.Coords, EltTy.bits .bf16 = 32 ∨ (Rect.block (s := S8192x8192) S512x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .bf16 = 32 ∨ (Rect.block (s := S256x128) S256x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x128.size a ≤ S8192x128.size a
  hwx1_7 : ∀ i : grid1.Coords, EltTy.bits .f32 = 32 ∨ (Rect.block (s := S8192x128) S512x128.size (cc1_transform_7 i) (hinb1_7 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S512x8192_S8192x256_S512x256_1_0_0_1_n_n : DotDims S512x8192 S8192x256 S512x256 where
  lhsContracting := [1]
  rhsContracting := [0]
  lhsNonContracting := [0]
  rhsNonContracting := [1]
  lhsBatch := []
  rhsBatch := []
  wf := dot_S512x8192_S8192x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v2) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v0) S512x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x512 : Shape := ⟨2, ![8192, 512]⟩
abbrev S512x256 : Shape := ⟨2, ![512, 256]⟩
abbrev S1x256 : Shape := ⟨2, ![1, 256]⟩
abbrev S256x256 : Shape := ⟨2, ![256, 256]⟩
abbrev S256x128 : Shape := ⟨2, ![256, 128]⟩
abbrev S1x128 : Shape := ⟨2, ![1, 128]⟩
abbrev S_ : Shape := ⟨0, ![]⟩
abbrev S8192x256 : Shape := ⟨2, ![8192, 256]⟩
abbrev S8192x128 : Shape := ⟨2, ![8192, 128]⟩
abbrev S512x512 : Shape := ⟨2, ![512, 512]⟩
abbrev S512x2048 : Shape := ⟨2, ![512, 2048]⟩
abbrev S2048x256 : Shape := ⟨2, ![2048, 256]⟩
abbrev S512x128 : Shape := ⟨2, ![512, 128]⟩

abbrev nBuf : Space → Nat
  | .hbm => 38
  | .vmem => 24
  | .smem => 0
  | _ => 0

abbrev bufTy : (tb : Table) → Fin (tcTables nBuf tb) → BufTy
  | .hbm, ⟨0, _⟩ => ⟨S8192x8192, .bf16⟩
  | .hbm, ⟨1, _⟩ => ⟨S8192x512, .f32⟩
  | .hbm, ⟨2, _⟩ => ⟨S512x256, .f32⟩
  | .hbm, ⟨3, _⟩ => ⟨S1x256, .f32⟩
  | .hbm, ⟨4, _⟩ => ⟨S256x256, .f32⟩
  | .hbm, ⟨5, _⟩ => ⟨S1x256, .f32⟩
  | .hbm, ⟨6, _⟩ => ⟨S256x128, .f32⟩
  | .hbm, ⟨7, _⟩ => ⟨S1x128, .f32⟩
  | .hbm, ⟨8, _⟩ => ⟨S_, .i32⟩
  | .hbm, ⟨9, _⟩ => ⟨S_, .f32⟩
  | .hbm, ⟨10, _⟩ => ⟨S8192x512, .f32⟩
  | .hbm, ⟨11, _⟩ => ⟨S8192x512, .bf16⟩
  | .hbm, ⟨12, _⟩ => ⟨S_, .i32⟩
  | .hbm, ⟨13, _⟩ => ⟨S_, .f32⟩
  | .hbm, ⟨14, _⟩ => ⟨S512x256, .f32⟩
  | .hbm, ⟨15, _⟩ => ⟨S512x256, .bf16⟩
  | .hbm, ⟨16, _⟩ => ⟨S_, .i32⟩
  | .hbm, ⟨17, _⟩ => ⟨S_, .f32⟩
  | .hbm, ⟨18, _⟩ => ⟨S1x256, .f32⟩
  | .hbm, ⟨19, _⟩ => ⟨S_, .i32⟩
  | .hbm, ⟨20, _⟩ => ⟨S_, .f32⟩
  | .hbm, ⟨21, _⟩ => ⟨S256x256, .f32⟩
  | .hbm, ⟨22, _⟩ => ⟨S256x256, .bf16⟩
  | .hbm, ⟨23, _⟩ => ⟨S_, .i32⟩
  | .hbm, ⟨24, _⟩ => ⟨S_, .f32⟩
  | .hbm, ⟨25, _⟩ => ⟨S1x256, .f32⟩
  | .hbm, ⟨26, _⟩ => ⟨S_, .i32⟩
  | .hbm, ⟨27, _⟩ => ⟨S_, .f32⟩
  | .hbm, ⟨28, _⟩ => ⟨S256x128, .f32⟩
  | .hbm, ⟨29, _⟩ => ⟨S256x128, .bf16⟩
  | .hbm, ⟨30, _⟩ => ⟨S_, .i32⟩
  | .hbm, ⟨31, _⟩ => ⟨S_, .f32⟩
  | .hbm, ⟨32, _⟩ => ⟨S1x128, .f32⟩
  | .hbm, ⟨33, _⟩ => ⟨S8192x256, .bf16⟩
  | .hbm, ⟨34, _⟩ => ⟨S_, .f32⟩
  | .hbm, ⟨35, _⟩ => ⟨S1x256, .f32⟩
  | .hbm, ⟨36, _⟩ => ⟨S8192x256, .bf16⟩
  | .hbm, ⟨37, _⟩ => ⟨S8192x128, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .f32⟩
  | .local _ .vmem, ⟨6, _⟩ => ⟨S512x2048, .bf16⟩
  | .local _ .vmem, ⟨7, _⟩ => ⟨S512x2048, .bf16⟩
  | .local _ .vmem, ⟨8, _⟩ => ⟨S8192x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S512x256, .bf16⟩
  | .local _ .vmem, ⟨13, _⟩ => ⟨S512x256, .bf16⟩
  | .local _ .vmem, ⟨14, _⟩ => ⟨S512x256, .f32⟩
  | .local _ .vmem, ⟨15, _⟩ => ⟨S512x2048, .bf16⟩
  | .local _ .vmem, ⟨16, _⟩ => ⟨S512x2048, .bf16⟩
  | .local _ .vmem, ⟨17, _⟩ => ⟨S8192x256, .bf16⟩
  | .local _ .vmem, ⟨18, _⟩ => ⟨S1x256, .f32⟩
  | .local _ .vmem, ⟨19, _⟩ => ⟨S256x128, .bf16⟩
  | .local _ .vmem, ⟨20, _⟩ => ⟨S1x128, .f32⟩
  | .local _ .vmem, ⟨21, _⟩ => ⟨S512x128, .f32⟩
  | .local _ .vmem, ⟨22, _⟩ => ⟨S512x128, .f32⟩
  | .local _ .vmem, ⟨23, _⟩ => ⟨S512x256, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_call0_v0 : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_call1_v0 : Ref sig .tc := ⟨.hbm, 13, rfl⟩
abbrev main_call0_v2 : Ref sig .tc := ⟨.hbm, 14, rfl⟩
abbrev main_call0_v3 : Ref sig .tc := ⟨.hbm, 15, rfl⟩
abbrev main_call0_c_1 : Ref sig .tc := ⟨.hbm, 16, rfl⟩
abbrev main_call0_call2_v0 : Ref sig .tc := ⟨.hbm, 17, rfl⟩
abbrev main_call0_v4 : Ref sig .tc := ⟨.hbm, 18, rfl⟩
abbrev main_call0_c_2 : Ref sig .tc := ⟨.hbm, 19, rfl⟩
abbrev main_call0_call3_v0 : Ref sig .tc := ⟨.hbm, 20, rfl⟩
abbrev main_call0_v5 : Ref sig .tc := ⟨.hbm, 21, rfl⟩
abbrev main_call0_v6 : Ref sig .tc := ⟨.hbm, 22, rfl⟩
abbrev main_call0_c_3 : Ref sig .tc := ⟨.hbm, 23, rfl⟩
abbrev main_call0_call4_v0 : Ref sig .tc := ⟨.hbm, 24, rfl⟩
abbrev main_call0_v7 : Ref sig .tc := ⟨.hbm, 25, rfl⟩
abbrev main_call0_c_4 : Ref sig .tc := ⟨.hbm, 26, rfl⟩
abbrev main_call0_call5_v0 : Ref sig .tc := ⟨.hbm, 27, rfl⟩
abbrev main_call0_v8 : Ref sig .tc := ⟨.hbm, 28, rfl⟩
abbrev main_call0_v9 : Ref sig .tc := ⟨.hbm, 29, rfl⟩
abbrev main_call0_c_5 : Ref sig .tc := ⟨.hbm, 30, rfl⟩
abbrev main_call0_call6_v0 : Ref sig .tc := ⟨.hbm, 31, rfl⟩
abbrev main_call0_v10 : Ref sig .tc := ⟨.hbm, 32, rfl⟩
abbrev main_call0_v11 : Ref sig .tc := ⟨.hbm, 33, rfl⟩
abbrev main_call0_cst : Ref sig .tc := ⟨.hbm, 34, rfl⟩
abbrev main_call0_v12 : Ref sig .tc := ⟨.hbm, 35, rfl⟩
abbrev main_call0_v13 : Ref sig .tc := ⟨.hbm, 36, rfl⟩
abbrev main_v0 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 4], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_7 : BitVec 32 := 0#32
  let v17 : BitVec 1 := Scalar.cmpi .ne v16 c0_i32_7
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![16, 4], ![false, false]⟩

def k2_mult1 (i : grid2.Coords) : BitVec 32 :=
  let arg1 : BitVec 32 := BitVec.ofNat 32 (i 1).val
  let c2048_i32 : BitVec 32 := 2048#32
  let v3 : BitVec 32 := Scalar.muli arg1 c2048_i32
  v3
def k2_off1 (i : grid2.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_7 : BitVec 32 := 0#32
  let v17 : BitVec 1 := Scalar.cmpi .ne v16 c0_i32_7
  v17

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S512x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  pads_S8192x512_S8192x512_000_000 : S8192x512.Pads (![0, 0] : Fin 2 → Nat) ![0, 0] ![0, 0] S8192x512
  h_S_ : 0 < S_.numel
  bitsLt_bf16_f32 : FTy.bits .bf16 < FTy.bits .f32
  pads_S512x256_S512x256_000_000 : S512x256.Pads (![0, 0] : Fin 2 → Nat) ![0, 0] ![0, 0] S512x256
  pads_S1x256_S1x256_000_000 : S1x256.Pads (![0, 0] : Fin 2 → Nat) ![0, 0] ![0, 0] S1x256
  pads_S256x256_S256x256_000_000 : S256x256.Pads (![0, 0] : Fin 2 → Nat) ![0, 0] ![0, 0] S256x256
  pads_S256x128_S256x128_000_000 : S256x128.Pads (![0, 0] : Fin 2 → Nat) ![0, 0] ![0, 0] S256x128
  pads_S1x128_S1x128_000_000 : S1x128.Pads (![0, 0] : Fin 2 → Nat) ![0, 0] ![0, 0] S1x128
  bcast_S_S1x256 : S_.BroadcastsInDim S1x256 (![] : Fin 0 → Fin S1x256.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x256_S512x256_0_0 : (Rect.unit (s := S512x256) ![0, 0] S512x256.size inb_S512x256_S512x256_0_0).PackedRows (EltTy.packing .bf16)
  h_S2048x256 : 0 < S2048x256.numel
  shapeCasts_S2048x256_S2048x256 : S2048x256.ShapeCasts S2048x256
  inb_S512x2048_S512x2048_0_0 : ∀ a, (![0, 0] : Fin 2 → Nat) a + S512x2048.size a ≤ S512x2048.size a
  h_S512x2048 : 0 < S512x2048.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S512x512_S512x256_S512x256_1_0_0_1_n_n_wf : DotDims.WF S512x512 S512x256 S512x256 [1] [0] [0] [1] [] []
  dot_S512x2048_S2048x256_S512x256_1_0_0_1_n_n_wf : DotDims.WF S512x2048 S2048x256 S512x256 [1] [0] [0] [1] [] []
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .bf16 = 32 ∨ (Rect.block (s := S8192x512) S512x512.size (cc0_transform_0 i) (hinb0_0 i)).WholeWords (EltTy.packing .bf16)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .bf16 = 32 ∨ (Rect.block (s := S8192x256) S512x256.size (cc0_transform_2 i) (hinb0_2 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S2048x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x8192.size a
  hwx1_0 : ∀ i : grid1.Coords, EltTy.bits .bf16 = 32 ∨ (Rect.block (s := S8192x8192) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S8192x256.size a
  hwx1_5 : ∀ i : grid1.Coords, EltTy.bits .bf16 = 32 ∨ (Rect.block (s := S8192x256) S512x256.size (cc1_transform_5 i) (hinb1_5 i)).WholeWords (EltTy.packing .bf16)
  hrank2 : 0 < grid2.rank
  k2_mult1_dvd : ∀ i : grid2.Coords, 128 ∣ (k2_mult1 i).toNat
  k2_off1_inb : ∀ i : grid2.Coords, ∀ a, (k2_off1 i) a + S2048x256.size a ≤ S8192x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x8192.size a
  hwx2_0 : ∀ i : grid2.Coords, EltTy.bits .bf16 = 32 ∨ (Rect.block (s := S8192x8192) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .bf16 = 32 ∨ (Rect.block (s := S8192x256) S8192x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .bf16 = 32 ∨ (Rect.block (s := S256x128) S256x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S8192x128.size a
  hwx2_5 : ∀ i : grid2.Coords, EltTy.bits .f32 = 32 ∨ (Rect.block (s := S8192x128) S512x128.size (cc2_transform_5 i) (hinb2_5 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_call0_v1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S512x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v11) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v11) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v12) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v13) S512x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_arg0) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v13) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v7) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v9) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v10) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v0) S512x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== Proof.BFeature.lean ====
/- The frame of the feature-transform region (custom_call 0): the region keeps nothing between grid
   points, so the invariant is the class's (the scoped rest and the generator register, untouched), the
   inputs' staging buffers hold their blocks, and the output's staging buffer after the body holds the one
   whole store of the payload over the two input blocks. -/
import proofs.«171818_g2000203955041256_pallasbulk_1331_5_alg».proof.Proof.Gen.Kernel.Launch
import proofs.«171818_g2000203955041256_pallasbulk_1331_5_alg».proof.Proof.Gen.Kernel.Skeleton
import proofs.«171818_g2000203955041256_pallasbulk_1331_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KFeature

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (fetched at the first point only: its block index never moves) likewise. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole block of the first input: the rectangle of its load. -/
abbrev rX : Rect S1024x512 := Rect.unit (s := S1024x512) ![0, 0] S1024x512.size inb_S1024x512_S1024x512_0_0
/-- The whole block of the second input: the rectangle of its load. -/
abbrev rW : Rect S512x256 := Rect.unit (s := S512x256) ![0, 0] S512x256.size inb_S512x256_S512x256_0_0
/-- The whole output block: the rectangle of the body's one store. -/
abbrev rOut : Rect S1024x256 := Rect.unit (s := S1024x256) ![0, 0] S1024x256.size inb_S1024x256_S1024x256_0_0

/-! ## What the body leaves in the output window's buffer -/

/-- The output window's staging buffer after the body, from the two input blocks: its one store. -/
def out2 (x0 : Vec F S1024x512 .f32) (x1 : Vec F S512x256 .bf16) : Vec F S1024x256 .bf16 :=
  View.canon [⟨rOut, k0_pay1 (View.ld x0 rX) (View.ld x1 rW)⟩]

/-- The one store is of the whole block, so it covers it. -/
theorem cover2 (p0 : Vec F S1024x256 .bf16) (y : S1024x256.Idx) :
    ∃ pc ∈ ([⟨rOut, p0⟩] : List (View.Piece (Elt F) S1024x256 .bf16)), y ∈ pc.1.set :=
  View.cover_of_tiled [⟨rOut, p0⟩] S1024x256.size (by rfl) y

/-! ## The body's triple -/

set_option maxHeartbeats 1000000 in
/-- The kernel body on whole staging memrefs, the inputs' at read contents `x0`, `x1` and the output's at anything,
    runs to the continuation holding the inputs' as they were and the output's at `out2` of the inputs'. The load of
    the output buffer before the store is dead. -/
theorem sound_kernel (c : Dev nD) (E : Set ℕ) (i : grid0.Coords)
    (arg1 : Memref sig .tc .vmem S1024x512 .f32) (harg1 : arg1.IsWhole)
    (arg2 : Memref sig .tc .vmem S512x256 .bf16) (harg2 : arg2.IsWhole)
    (arg3 : Memref sig .tc .vmem S1024x256 .bf16) (harg3 : arg3.IsWhole)
    (x0 : Vec F S1024x512 .f32) (x1 : Vec F S512x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__z1_kernel i arg1 harg1 arg2 harg2 arg3 harg3) K := by
  simp only [cc0__z1_kernel_eq_skeleton]; unfold cc0__z1_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data of the region on core `c`: the arrays as the region finds them; after the body at point
    `t` each input's buffer at its block and the output's at `out2` of the input blocks; the class's
    invariant; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = out2 (iblk V c 0 t) (iblk V c 1 t) := by dsimp only [dat]

/-- Each input's current staging buffer holds its block at every point, fetched there or not. -/
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).Φ t.succ = (dat V c).Φ t.castSucc from rfl,
    show (dat V c).owesAt () t.succ = (dat V c).owesAt () t.castSucc from rfl,
    after0, after1, after2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

/-- The invariant before the first point is the class's. -/
theorem hin (c : Dev nD) : Pipeline.ΦA spec0 c ⊢ (dat V c).Φ 0 := by
  dsimp only [dat]; exact BI.Entails.refl _

/-- The invariant after the last point is the class's. -/
theorem hout (c : Dev nD) : (dat V c).Φ (Fin.last cfg0.N) ⊢ Pipeline.ΦA spec0 c := by
  dsimp only [dat]; exact BI.Entails.refl _

end Cert.Kernel.KFeature

end
-- ==== Proof.BAggregateRunA.lean ====
import proofs.«171818_g2000203955041256_pallasbulk_1331_5_alg».proof.Proof.Gen.Kernel.Launch
import proofs.«171818_g2000203955041256_pallasbulk_1331_5_alg».proof.Proof.Gen.Kernel.Skeleton
import proofs.«171818_g2000203955041256_pallasbulk_1331_5_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.ValueIdx
import Idealize.ShloMosaic.Lib.Tactic

/-! # The aggregation kernel's body in phase 0

At a point of phase 0 (first conditional taken, second not) the body reads the row slab of window 0 and the
blocks of windows 1, 2, 3 and stores one 512-row slice of the intermediate into the scratch, leaving every other
row of the scratch as it was. -/

set_option maxRecDepth 16384

noncomputable section

namespace Cert.Kernel.KAggregateRunA

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The rectangle of the scratch that the phase-0 store writes: 512 rows at the row offset of the point. -/
abbrev sliceR (i : grid1.Coords) (hc1 : k1_cond1 i = 1#1) : Rect S8192x256 :=
  Rect.unit (s := S8192x256) (k1_off1 i) S512x256.size (k1_off1_inb i hc1)

set_option maxHeartbeats 1000000 in
/-- The body in phase 0, on whole memrefs: windows 0..3 at contents x0..x3 and the scratch at contents xs are
    handed back, the scratch at contents that are the payload on the slice and xs off it. -/
theorem sound_kernel_A (c : Dev nD) (E : Set ℕ) (i : grid1.Coords) (arg2 : Memref sig .tc .vmem S512x8192 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x128 .bf16) (harg7 : arg7.IsWhole) (arg8 : Memref sig .tc .vmem S1x128 .f32) (harg8 : arg8.IsWhole) (arg9 : Memref sig .tc .vmem S512x128 .f32) (harg9 : arg9.IsWhole) (arg10 : Memref sig .tc .vmem S8192x256 .bf16) (harg10 : arg10.IsWhole)
    (hc1 : k1_cond1 i = 1#1) (hc2 : ¬ k1_cond2 i = 1#1)
    (x0 : Vec F S512x8192 .bf16) (x1 : Vec F S8192x256 .bf16) (x2 : Vec F S1x256 .f32) (x3 : Vec F S256x256 .bf16)
    (xs : Vec F S8192x256 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg10 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ (∃ X' : Vec F S8192x256 .bf16, ⌜(∀ x, X' ((sliceR i hc1).emb x) = k1_pay1 x0 x1 x2 x3 x) ∧ (∀ y, y ∉ (sliceR i hc1).set → X' y = xs y)⌝
                ∗ owns (c : Thread nD τ) arg10 fullShare X')) -∗ K ⟨⟩))
      ⊢ wp frame (wpE (defs₀ (F := F)) Variants.none c none) E (cc1__agg_kernel i arg2 harg2 arg3 harg3 arg4 harg4 arg5 harg5 arg6 harg6 arg7 harg7 arg8 harg8 arg9 harg9 arg10 harg10) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg10.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap
  · iexists _; isplitr
    swap; · iexact HS
    ipureintro; rfl
  ipureintro
  refine ⟨fun x => ?_, fun y hy => ?_⟩
  · refine (View.read_writes_cons_emb _ _ _ _ _ x).trans ?_
    simp only [View.readAt_eq_ld, hf0, hf1, hf2, hf3, View.ld_unit_zero (S := S512x8192) hz, View.ld_unit_zero (S := S8192x256) hz,
      View.ld_unit_zero (S := S1x256) hz, View.ld_unit_zero (S := S256x256) hz]
  · refine (View.read_writes_apply_of_forall_not_mem _ _ y _ ?_).trans (congrFun hfs y)
    intro p hp
    rw [List.mem_singleton] at hp
    subst hp
    exact hy

end Cert.Kernel.KAggregateRunA

end
-- ==== Proof.BAggregateRunB.lean ====
import proofs.«171818_g2000203955041256_pallasbulk_1331_5_alg».proof.Proof.Gen.Kernel.Launch
import proofs.«171818_g2000203955041256_pallasbulk_1331_5_alg».proof.Proof.Gen.Kernel.Skeleton
import proofs.«171818_g2000203955041256_pallasbulk_1331_5_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.ValueIdx
import Idealize.ShloMosaic.Lib.Tactic

/-! # The aggregation kernel's body in phase 1

At a point of phase 1 (first conditional not taken, second taken) the body reads the row slab of window 0, the
WHOLE scratch and the blocks of windows 4, 5, 6, and stores the output block whole. -/

set_option maxRecDepth 16384

noncomputable section

namespace Cert.Kernel.KAggregateRunB

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

set_option maxHeartbeats 1000000 in
/-- The body in phase 1, on whole memrefs: window 0 at x0, the scratch at xs, windows 4..6 at x4..x6 are handed
    back as they were, the output buffer (found at anything) at the payload computed from them. -/
theorem sound_kernel_B (c : Dev nD) (E : Set ℕ) (i : grid1.Coords) (arg2 : Memref sig .tc .vmem S512x8192 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x128 .bf16) (harg7 : arg7.IsWhole) (arg8 : Memref sig .tc .vmem S1x128 .f32) (harg8 : arg8.IsWhole) (arg9 : Memref sig .tc .vmem S512x128 .f32) (harg9 : arg9.IsWhole) (arg10 : Memref sig .tc .vmem S8192x256 .bf16) (harg10 : arg10.IsWhole)
    (hc1 : ¬ k1_cond1 i = 1#1) (hc2 : k1_cond2 i = 1#1)
    (x0 : Vec F S512x8192 .bf16) (xs : Vec F S8192x256 .bf16) (x4 : Vec F S1x256 .f32) (x5 : Vec F S256x128 .bf16) (x6 : Vec F S1x128 .f32)
    (K : PUnit → sProp 𝕄) :
    iprop(owns (c : Thread nD τ) arg2 fullShare x0 ∗ owns (c : Thread nD τ) arg10 fullShare xs ∗ owns (c : Thread nD τ) arg6 fullShare x4
        ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg10 fullShare xs ∗ owns (c : Thread nD τ) arg6 fullShare x4
            ∗ owns (c : Thread nD τ) arg7 fullShare x5 ∗ owns (c : Thread nD τ) arg8 fullShare x6
            ∗ owns (c : Thread nD τ) arg9 fullShare (k1_pay2 x0 xs x4 x5 x6)) -∗ K ⟨⟩))
      ⊢ wp frame (wpE (defs₀ (F := F)) Variants.none c none) E (cc1__agg_kernel i arg2 harg2 arg3 harg3 arg4 harg4 arg5 harg5 arg6 harg6 arg7 harg7 arg8 harg8 arg9 harg9 arg10 harg10) K := by
  simp only [cc1__agg_kernel_eq_skeleton]; unfold cc1__agg_kernel_skel
  unfold owns
  iintro ⟨⟨%f0, %hf0, H0⟩, ⟨%fs, %hfs, HS⟩, ⟨%f4, %hf4, H4⟩, ⟨%f5, %hf5, H5⟩, ⟨%f6, %hf6, H6⟩, ⟨%d9, %f9, -, H9⟩, Hk⟩
  obtain rfl := harg2.eq_unread hf0; obtain rfl := harg10.eq_unread hfs; obtain rfl := harg6.eq_unread hf4
  obtain rfl := harg7.eq_unread hf5; obtain rfl := harg8.eq_unread hf6
  sl_exec (disch := first | exact hc1 | exact hc2)
  sl_step
  iapply Hk
  isplitl [H0]
  · iexists _; isplitr; · ipureintro; exact hf0
    iexact H0
  isplitl [HS]
  · iexists _; isplitr; · ipureintro; exact hfs
    iexact HS
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H9
  ipureintro
  refine (View.read_writes_eq_canon _ _ _ (fun y => ⟨_, List.mem_singleton_self _, View.mem_set_unit_zero hz inb_S512x128_S512x128_0_0 y⟩)).trans ?_
  rw [View.canon_unit_zero hz]
  simp only [View.readAt_eq_ld, hf0, hfs, hf4, hf5, hf6, View.ld_unit_zero (S := S512x8192) hz, View.ld_unit_zero (S := S8192x256) hz,
    View.ld_unit_zero (S := S1x256) hz, View.ld_unit_zero (S := S256x128) hz, View.ld_unit_zero (S := S1x128) hz, View.ld_unit_zero (S := S512x128) hz]

end Cert.Kernel.KAggregateRunB

end
-- ==== Proof.BAggregate.lean ====
import proofs.«171818_g2000203955041256_pallasbulk_1331_5_alg».proof.Proof.Gen.Kernel.Launch
import proofs.«171818_g2000203955041256_pallasbulk_1331_5_alg».proof.Proof.Gen.Kernel.Skeleton
import proofs.«171818_g2000203955041256_pallasbulk_1331_5_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.ValueIdx
import Idealize.ShloMosaic.Lib.Tactic
import proofs.«171818_g2000203955041256_pallasbulk_1331_5_alg».proof.Proof.BAggregateRunA
import proofs.«171818_g2000203955041256_pallasbulk_1331_5_alg».proof.Proof.BAggregateRunB
/-! # The aggregation region (pallas_call 1, grid (2, 16)): proof data, invariant and body obligation

Phase 0 (points 0..15) stores, at point i, the 512-row slice i of the intermediate into a VMEM scratch that is
carried between points; phase 1 (points 16..31) reads the whole scratch and stores the output block. The
invariant after point n says: rows [0, 512 * min n 16) of the scratch are the intermediate's rows. -/

set_option maxRecDepth 16384

noncomputable section

namespace Cert.Kernel.KAggregate

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.KAggregateRunA (sliceR sound_kernel_A)
open Cert.Kernel.KAggregateRunB (sound_kernel_B)

-- the TensorCore's buffer contents when the region is entered
variable (V : (c : Dev nD) → (b : Ref sig .tc) → Buf (Elt F) ((c : Thread nD τ).loc b))

/-! ## The grid: which phase a point is in, where the slice sits, where the output window is idle -/

/-- The first conditional holds at the points of phase 0, -/
theorem hcond1 : ∀ t : Fin cfg1.N, k1_cond1 (grid1.coords t) = 1#1 ↔ t.val < 16 :=
  (by decide +kernel : ∀ t : Fin grid1.N, k1_cond1 (grid1.coords t) = 1#1 ↔ t.val < 16)
/-- the second at the points of phase 1. -/
theorem hcond2 : ∀ t : Fin cfg1.N, k1_cond2 (grid1.coords t) = 1#1 ↔ 16 ≤ t.val :=
  (by decide +kernel : ∀ t : Fin grid1.N, k1_cond2 (grid1.coords t) = 1#1 ↔ 16 ≤ t.val)
/-- The row-tile coordinate of a point. -/
theorem hcoord1 : ∀ t : Fin cfg1.N, ((grid1.coords t) 1).val = t.val % 16 :=
  (by decide +kernel : ∀ t : Fin grid1.N, ((grid1.coords t) 1).val = t.val % 16)
/-- The inputs' windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- In phase 0 the output window is idle and is not written back; in phase 1 it is live. -/
theorem idleAt1_7 : ∀ t : Fin cfg1.N, t.val < 16 → cfg1.idle 7 (grid1.coords t) = true := by decide +kernel
theorem noFlush1_7 : ∀ t : Fin cfg1.N, t.val < 16 → (cfg1.win 7).flush t = false := by decide +kernel
theorem liveAt1_7 : ∀ t : Fin cfg1.N, 16 ≤ t.val → cfg1.idle 7 (grid1.coords t) = false := by decide +kernel

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The intermediate as one function of the scratch's index -/

/-- The phase-0 point of row tile i. -/
def ptA (i : Fin 16) : Fin cfg1.N := ⟨i.val, lt_of_lt_of_eq (by omega) (show (32 : ℕ) = cfg1.N from N_1.symm)⟩

/-- The row tile of a row of the scratch. -/
def tileOf (r : Fin 8192) : Fin 16 := ⟨r.val / 512, by omega⟩

/-- The row within its tile. -/
def rowIn (r : Fin 8192) : Fin 512 := ⟨r.val % 512, by omega⟩

/-- The intermediate as ONE function of the scratch's index: row r (tile r / 512) is row r % 512 of the payload
    stored at the phase-0 point of that tile, computed from the blocks of windows 0..3 there. -/
def SG (c : Dev nD) : Vec F S8192x256 .bf16 := fun y =>
  k1_pay1 (iblk V c 0 (ptA (tileOf (y 0)))) (iblk V c 1 (ptA (tileOf (y 0)))) (iblk V c 2 (ptA (tileOf (y 0)))) (iblk V c 3 (ptA (tileOf (y 0))))
    (ValueIdx.ix2 (rowIn (y 0)) (y 1))

/-- Rows below 512 * n of contents X of the scratch are the intermediate's. -/
def ScrOK (c : Dev nD) (n : ℕ) (X : Vec F S8192x256 .bf16) : Prop :=
  ∀ y : S8192x256.Idx, (y 0).val < 512 * n → X y = SG V c y

/-- Nothing is asked of the scratch before the first point. -/
theorem scrOK_zero (c : Dev nD) (X : Vec F S8192x256 .bf16) : ScrOK V c 0 X := fun y hy => absurd hy (by omega)

/-- Once all sixteen tiles are stored the scratch IS the intermediate. -/
theorem eq_SG_of_scrOK (c : Dev nD) (X : Vec F S8192x256 .bf16) (h : ScrOK V c 16 X) : X = SG V c :=
  funext fun y => h y (by have := (y 0).isLt; show (y 0).val < 512 * 16; exact this)

/-- The phase-0 store at point t (rows [512 t, 512 t + 512) take the payload of the blocks there, the other rows
    keep their contents) extends the rows that are the intermediate's by one tile. -/
theorem scrOK_step (c : Dev nD) (t : Fin cfg1.N) (ht : t.val < 16) (hc1 : k1_cond1 (grid1.coords t) = 1#1)
    (X X' : Vec F S8192x256 .bf16) (hX : ScrOK V c t.val X)
    (h1 : ∀ x, X' ((sliceR (grid1.coords t) hc1).emb x) = k1_pay1 (iblk V c 0 t) (iblk V c 1 t) (iblk V c 2 t) (iblk V c 3 t) x)
    (h2 : ∀ y, y ∉ (sliceR (grid1.coords t) hc1).set → X' y = X y) : ScrOK V c (t.val + 1) X' := by
  intro y hy
  have hoff0 : k1_off1 (grid1.coords t) 0 = 512 * t.val := by
    rw [k1_off1_eq]; show 512 * ((grid1.coords t) 1).val = _; rw [hcoord1 t, Nat.mod_eq_of_lt ht]
  have hoff1 : k1_off1 (grid1.coords t) 1 = 0 := by rw [k1_off1_eq]; rfl
  by_cases hlo : 512 * t.val ≤ (y 0).val
  · -- a row of the slice: it reads the payload
    have hr : (y 0).val - 512 * t.val < 512 := by omega
    have hy' : y = (sliceR (grid1.coords t) hc1).emb (ValueIdx.ix2 (⟨(y 0).val - 512 * t.val, hr⟩ : Fin 512) (y 1)) := by
      funext a; apply Fin.ext; rw [Rect.emb_apply]
      match a with
      | ⟨0, _⟩ => show (y 0).val = k1_off1 (grid1.coords t) 0 + 1 * ((y 0).val - 512 * t.val); rw [hoff0]; omega
      | ⟨1, _⟩ => show (y 1).val = k1_off1 (grid1.coords t) 1 + 1 * (y 1).val; rw [hoff1]; omega
    refine ((congrArg X' hy').trans (h1 _)).trans ?_
    have hp : ptA (tileOf (y 0)) = t := Fin.ext (show (y 0).val / 512 = t.val by omega)
    have hrow : rowIn (y 0) = (⟨(y 0).val - 512 * t.val, hr⟩ : Fin 512) := Fin.ext (show (y 0).val % 512 = (y 0).val - 512 * t.val by omega)
    unfold SG
    rw [hp, hrow]
  · -- a row below the slice: kept
    have hnm : y ∉ (sliceR (grid1.coords t) hc1).set := fun hm => by
      have := (Rect.mem_set_unit.mp hm 0).1
      rw [hoff0] at this
      exact hlo this
    rw [h2 y hnm]
    exact hX y (by omega)

/-! ## The invariant -/

/-- The scratch operand: a whole scoped buffer passed beside the windows. -/
abbrev scM : Memref sig .tc .vmem S8192x256 .bf16 := Memref.whole cc1_scratch0

/-- A scoped buffer of the core at some contents. -/
def oth (c : Dev nD) (b : Ref sig .tc) : sProp 𝕄 :=
  iprop(∃ f : Buf (Elt F) ((c : Thread nD τ).loc b), ((c : Thread nD τ).loc b) ↦{fullShare} f)

/-- The scoped rest with the carried scratch at contents whose rows below 512 * min n 16 are the intermediate's,
    and the generator register at some state. -/
def PhiR (c : Dev nD) (n : ℕ) : sProp 𝕄 :=
  iprop((oth (F := F) c cc0_stg0_0 ∗ oth (F := F) c cc0_stg0_1 ∗ oth (F := F) c cc0_stg1_0 ∗ oth (F := F) c cc0_stg2_0 ∗ oth (F := F) c cc0_stg2_1
      ∗ (∃ X, ⌜ScrOK V c (min n 16) X⌝ ∗ owns (c : Thread nD τ) scM fullShare X)) ∗ (∃ r, prngReg c r))

/-- The region invariant before position n: before the first point the class's (every scoped buffer at
    anything); afterwards PhiR. -/
def PhiS (c : Dev nD) : (n : ℕ) → sProp 𝕄
  | 0 => Pipeline.ΦA spec1 c
  | n + 1 => PhiR V c (n + 1)

theorem PhiS_succ (c : Dev nD) (n : ℕ) : PhiS V c (n + 1) = PhiR V c (n + 1) := rfl

/-- The class's invariant with the scratch as a memref owned at some contents. -/
theorem PhiA1_eq (c : Dev nD) :
    (Pipeline.ΦA spec1 c : sProp 𝕄)
      = iprop((oth (F := F) c cc0_stg0_0 ∗ oth (F := F) c cc0_stg0_1 ∗ oth (F := F) c cc0_stg1_0 ∗ oth (F := F) c cc0_stg2_0 ∗ oth (F := F) c cc0_stg2_1
          ∗ (∃ d, owns (c : Thread nD τ) scM fullShare d)) ∗ (∃ r, prngReg c r)) := by
  unfold Pipeline.ΦA oth; rw [scopedRest1_eq]; simp only [scM, owns_whole]; try rfl

/-- At every position the invariant gives PhiR (before the first point nothing is asked of the scratch). -/
theorem PhiS_elim (c : Dev nD) (n : ℕ) : PhiS V c n ⊢ PhiR V c n := by
  cases n with
  | zero =>
    rw [show PhiS V c 0 = Pipeline.ΦA spec1 c from rfl, PhiA1_eq]; unfold PhiR
    iintro ⟨⟨O1, O2, O3, O4, O5, ⟨%d, HS⟩⟩, Hg⟩
    isplitr [Hg]
    · isplitl [O1]; · iexact O1
      isplitl [O2]; · iexact O2
      isplitl [O3]; · iexact O3
      isplitl [O4]; · iexact O4
      isplitl [O5]; · iexact O5
      iexists d; isplitr; · ipureintro; exact scrOK_zero V c d
      iexact HS
    iexact Hg
  | succ n => exact Idealize.SL.BI.Entails.refl _

/-- The same with PhiR written out. -/
theorem PhiS_elim' (c : Dev nD) (n : ℕ) : PhiS V c n ⊢
    iprop((oth (F := F) c cc0_stg0_0 ∗ oth (F := F) c cc0_stg0_1 ∗ oth (F := F) c cc0_stg1_0 ∗ oth (F := F) c cc0_stg2_0 ∗ oth (F := F) c cc0_stg2_1
      ∗ (∃ X, ⌜ScrOK V c (min n 16) X⌝ ∗ owns (c : Thread nD τ) scM fullShare X)) ∗ (∃ r, prngReg c r)) := by
  have h := PhiS_elim V c n; unfold PhiR at h; exact h

/-- PhiR gives the class's invariant back: the scratch's named contents are forgotten. -/
theorem PhiR_out (c : Dev nD) (n : ℕ) : PhiR V c n ⊢ Pipeline.ΦA spec1 c := by
  rw [PhiA1_eq]; unfold PhiR
  iintro ⟨⟨O1, O2, O3, O4, O5, ⟨%X, -, HS⟩⟩, Hg⟩
  isplitr [Hg]
  · isplitl [O1]; · iexact O1
    isplitl [O2]; · iexact O2
    isplitl [O3]; · iexact O3
    isplitl [O4]; · iexact O4
    isplitl [O5]; · iexact O5
    iexists X; iexact HS
  iexact Hg

/-! ## The proof data -/

/-- What the output block holds after the body at a phase-1 point: the one whole store of the payload computed
    from the slab of window 0, the whole intermediate and the blocks of windows 4..6. -/
def out7 (c : Dev nD) (t : Fin cfg1.N) : Vec F S512x128 .f32 :=
  k1_pay2 (iblk V c 0 t) (SG V c) (iblk V c 4 t) (iblk V c 5 t) (iblk V c 6 t)

/-- The proof data of the pipeline on core c: the arrays as the region finds them; after the body each input's
    buffer at its block, the output's at the payload of phase 1; the invariant PhiS; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out7 V c t
  Φ t := PhiS V c t.val
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = out7 V c t := by dsimp only [dat]

/-- Each input's current staging buffer holds its block at every point. -/
theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d
theorem before1_6 (c : Dev nD) (t : Fin cfg1.N) (d) : (dat V c).before 6 t d = iblk V c 6 t :=
  before1_6_of V (dat V c) (A_eq V c 6) (after1_6 V c) t d

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4000000 in
/-- The body at any point. In phase 0 the invariant hands it the scratch at contents whose first t tiles are the
    intermediate's and takes it back with one tile more (the output window, idle, passes through untouched); in
    phase 1 the scratch is the whole intermediate, the body reads it and stores the output block. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6]
  rw [show (dat V c).owesAt () t.succ = (dat V c).owesAt () t.castSucc from rfl]
  rw [show (dat V c).Φ t.succ = PhiS V c (t.val + 1) from rfl, PhiS_succ]
  rw [show (dat V c).Φ t.castSucc = PhiS V c t.val from by dsimp only [dat]; simp only [Fin.coe_castSucc]]
  rw [show (dat V c).leavesExact 0 t = owns (c : Thread nD τ) (st1_0 t) fullShare (iblk V c 0 t) from by
    unfold Dat.leavesExact; rw [liveAt1_0 t, after1_0]]
  rw [show (dat V c).leavesExact 1 t = owns (c : Thread nD τ) (st1_1 t) fullShare (iblk V c 1 t) from by
    unfold Dat.leavesExact; rw [liveAt1_1 t, after1_1]]
  rw [show (dat V c).leavesExact 2 t = owns (c : Thread nD τ) (st1_2 t) fullShare (iblk V c 2 t) from by
    unfold Dat.leavesExact; rw [liveAt1_2 t, after1_2]]
  rw [show (dat V c).leavesExact 3 t = owns (c : Thread nD τ) (st1_3 t) fullShare (iblk V c 3 t) from by
    unfold Dat.leavesExact; rw [liveAt1_3 t, after1_3]]
  rw [show (dat V c).leavesExact 4 t = owns (c : Thread nD τ) (st1_4 t) fullShare (iblk V c 4 t) from by
    unfold Dat.leavesExact; rw [liveAt1_4 t, after1_4]]
  rw [show (dat V c).leavesExact 5 t = owns (c : Thread nD τ) (st1_5 t) fullShare (iblk V c 5 t) from by
    unfold Dat.leavesExact; rw [liveAt1_5 t, after1_5]]
  rw [show (dat V c).leavesExact 6 t = owns (c : Thread nD τ) (st1_6 t) fullShare (iblk V c 6 t) from by
    unfold Dat.leavesExact; rw [liveAt1_6 t, after1_6]]
  have hN : t.val < 32 := lt_of_lt_of_eq t.isLt (show cfg1.N = 32 from N_1)
  unfold PhiR
  by_cases hA : t.val < 16
  · -- phase 0
    have hc1 : k1_cond1 (grid1.coords t) = 1#1 := (hcond1 t).mpr hA
    have hc2 : ¬ k1_cond2 (grid1.coords t) = 1#1 := fun h => absurd ((hcond2 t).mp h) (by omega)
    rw [Dat.leavesExact_idle (dat V c) 7 t (idleAt1_7 t hA) (noFlush1_7 t hA)]
    rw [show min (t.val + 1) 16 = t.val + 1 from by omega]
    iintro ⟨HΦ, Ho, ⟨%d0, H0⟩, ⟨%d1, H1⟩, ⟨%d2, H2⟩, ⟨%d3, H3⟩, ⟨%d4, H4⟩, ⟨%d5, H5⟩, ⟨%d6, H6⟩, H7⟩
    ihave HR := (PhiS_elim' V c t.val) $$ HΦ
    icases HR with ⟨⟨O1, O2, O3, O4, O5, ⟨%X, %hX, HS⟩⟩, Hg⟩
    rw [show min t.val 16 = t.val from by omega] at hX
    iapply (sound_kernel_A c Set.univ (grid1.coords t) _ _ _ _ _ _ _ _ _ _ _ _ _ _ _ _ _ _ hc1 hc2 (iblk V c 0 t) (iblk V c 1 t) (iblk V c 2 t) (iblk V c 3 t) X _)
    isplitl [H0]; · iexact H0
    isplitl [H1]; · iexact H1
    isplitl [H2]; · iexact H2
    isplitl [H3]; · iexact H3
    isplitl [HS]; · iexact HS
    iintro ⟨H0, H1, H2, H3, ⟨%X', %hX', HS⟩⟩
    isplitl [O1 O2 O3 O4 O5 HS Hg]
    · isplitr [Hg]
      · isplitl [O1]; · iexact O1
        isplitl [O2]; · iexact O2
        isplitl [O3]; · iexact O3
        isplitl [O4]; · iexact O4
        isplitl [O5]; · iexact O5
        iexists X'; isplitr; · ipureintro; exact scrOK_step V c t hA hc1 X X' hX hX'.1 hX'.2
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · -- phase 1
    have hB : 16 ≤ t.val := by omega
    have hc1 : ¬ k1_cond1 (grid1.coords t) = 1#1 := fun h => hA ((hcond1 t).mp h)
    have hc2 : k1_cond2 (grid1.coords t) = 1#1 := (hcond2 t).mpr hB
    rw [show (dat V c).leavesExact 7 t = owns (c : Thread nD τ) (st1_7 t) fullShare (out7 V c t) from by
      unfold Dat.leavesExact; rw [liveAt1_7 t hB, after1_7]]
    rw [show min (t.val + 1) 16 = 16 from by omega]
    unfold out7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HR := (PhiS_elim' V c t.val) $$ HΦ
    icases HR with ⟨⟨O1, O2, O3, O4, O5, ⟨%X, %hX, HS⟩⟩, Hg⟩
    rw [show min t.val 16 = 16 from by omega] at hX
    obtain rfl := eq_SG_of_scrOK V c X hX
    iapply (sound_kernel_B c Set.univ (grid1.coords t) _ _ _ _ _ _ _ _ _ _ _ _ _ _ _ _ _ _ hc1 hc2 (iblk V c 0 t) (SG V c) (iblk V c 4 t) (iblk V c 5 t) (iblk V c 6 t) _)
    isplitl [H0]; · iexact H0
    isplitl [HS]; · iexact HS
    isplitl [H4]; · iexact H4
    isplitl [H5]; · iexact H5
    isplitl [H6]; · iexact H6
    isplitl [H7]; · iexists _; iexact H7
    iintro ⟨H0, HS, H4, H5, H6, H7⟩
    isplitl [O1 O2 O3 O4 O5 HS Hg]
    · isplitr [Hg]
      · isplitl [O1]; · iexact O1
        isplitl [O2]; · iexact O2
        isplitl [O3]; · iexact O3
        isplitl [O4]; · iexact O4
        isplitl [O5]; · iexact O5
        iexists (SG V c); isplitr; · ipureintro; exact fun y _ => rfl
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (c : Dev nD) : Pipeline.BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 from rfl]
  exact Idealize.SL.BI.Entails.refl _

/-- After the last point the invariant gives the class's back. -/
theorem hout (c : Dev nD) : (dat V c).Φ (Fin.last cfg1.N) ⊢ Pipeline.ΦA spec1 c := by
  rw [show (dat V c).Φ (Fin.last cfg1.N) = PhiS V c cfg1.N from rfl]
  exact (PhiS_elim V c _).trans (PhiR_out V c _)

end Cert.Kernel.KAggregate

end
-- ==== Proof.BRun.lean ====
/-
  The run of the two-region kernel program, region by region.

  @main is three items: a stretch of host operations (three casts of the weight matrices), region 0 (the feature
  transform Z1 = X·W1, one 1024-row block per grid point) and region 1 (both adjacency passes over a 2 × 16 grid).
  Between two items every unscoped buffer of a TensorCore is held whole at named contents: the launch memory, then the
  host stretch applied, then region 0's arrays at what its write-backs leave, then region 1's. Every weakly fair
  execution ends with each unscoped buffer at the last of these; the argument arrays walk back through the chain to
  the launch memory because no host operation writes one and each region only reads them.
-/
import proofs.«171818_g2000203955041256_pallasbulk_1331_5_alg».proof.Proof.BFeature
import proofs.«171818_g2000203955041256_pallasbulk_1331_5_alg».proof.Proof.BAggregate
import proofs.«171818_g2000203955041256_pallasbulk_1331_5_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Region 0's entry contents, read at the TensorCore's references: the launch memory after the host casts. -/
abbrev E1 : (c : Dev nD) → (b : Ref sig .tc) → Buf (Elt F) ((c : Thread nD τ).loc b) := fun c b => V1 m c b

/-- After region 0: its arrays at what the pipeline leaves (X and W1 as entered, Z1 at its write-backs folded), every
    other buffer as entered. -/
def W2 (c : Dev nD) : Valuation τ sig (Elt F) :=
  Pipeline.withArrays spec0 c (V1 m c) fun w => (KFeature.dat (E1 m) c).arrAt w cfg0.N
theorem W2_arr (c : Dev nD) (w : Fin cfg0.W) :
    W2 m c (Proc.devRef .tc (Pipeline.arrRef spec0 w)) = (KFeature.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
/-- Region 1's entry contents. -/
abbrev E2 : (c : Dev nD) → (b : Ref sig .tc) → Buf (Elt F) ((c : Thread nD τ).loc b) := fun c b => W2 m c b
theorem hF0 (c : Dev nD) (w : Fin cfg0.W) : (KFeature.dat (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After region 1: its arrays at what the pipeline leaves (the seven inputs as entered, the result at its write-backs
    folded), every other buffer as entered. -/
def W3 (c : Dev nD) : Valuation τ sig (Elt F) :=
  Pipeline.withArrays spec1 c (W2 m c) fun w => (KAggregate.dat (E2 m) c).arrAt w cfg1.N
theorem W3_arr (c : Dev nD) (w : Fin cfg1.W) :
    W3 m c (Proc.devRef .tc (Pipeline.arrRef spec1 w)) = (KAggregate.dat (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (KAggregate.dat (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched -/

/-- An input window's array of region 0 is left as entered. -/
theorem W2_in (c : Dev nD) (w : Fin cfg0.W) (hw : (cfg0.win w).isOut = false) :
    W2 m c (Proc.devRef .tc (Pipeline.arrRef spec0 w)) = V1 m c (Proc.devRef .tc (Pipeline.arrRef spec0 w)) :=
  (W2_arr m c w).trans (((KFeature.dat (E1 m) c).arrAt_in w hw _).trans (KFeature.A_eq (E1 m) c w))
/-- An input window's array of region 1 is left as entered. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((KAggregate.dat (E2 m) c).arrAt_in w hw _).trans (KAggregate.A_eq (E2 m) c w))

theorem W3_main_arg0 (c : Dev nD) : W3 m c (Proc.devRef .tc main_arg0) = m ((c : Thread nD τ).loc main_arg0) :=
  (W3_in m c 0 rfl).trans <| (W2_of_ne m c main_arg0 (by decide)).trans <| (V1_of m c main_arg0 (by decide)).trans rfl
theorem W3_main_arg1 (c : Dev nD) : W3 m c (Proc.devRef .tc main_arg1) = m ((c : Thread nD τ).loc main_arg1) :=
  (W3_of_ne m c main_arg1 (by decide)).trans <| (W2_in m c 0 rfl).trans <| (V1_of m c main_arg1 (by decide)).trans rfl
theorem W3_main_arg2 (c : Dev nD) : W3 m c (Proc.devRef .tc main_arg2) = m ((c : Thread nD τ).loc main_arg2) :=
  (W3_of_ne m c main_arg2 (by decide)).trans <| (W2_of_ne m c main_arg2 (by decide)).trans <| (V1_of m c main_arg2 (by decide)).trans rfl
theorem W3_main_arg3 (c : Dev nD) : W3 m c (Proc.devRef .tc main_arg3) = m ((c : Thread nD τ).loc main_arg3) :=
  (W3_in m c 2 rfl).trans <| (W2_of_ne m c main_arg3 (by decide)).trans <| (V1_of m c main_arg3 (by decide)).trans rfl
theorem W3_main_arg4 (c : Dev nD) : W3 m c (Proc.devRef .tc main_arg4) = m ((c : Thread nD τ).loc main_arg4) :=
  (W3_of_ne m c main_arg4 (by decide)).trans <| (W2_of_ne m c main_arg4 (by decide)).trans <| (V1_of m c main_arg4 (by decide)).trans rfl
theorem W3_main_arg5 (c : Dev nD) : W3 m c (Proc.devRef .tc main_arg5) = m ((c : Thread nD τ).loc main_arg5) :=
  (W3_in m c 4 rfl).trans <| (W2_of_ne m c main_arg5 (by decide)).trans <| (V1_of m c main_arg5 (by decide)).trans rfl
theorem W3_main_arg6 (c : Dev nD) : W3 m c (Proc.devRef .tc main_arg6) = m ((c : Thread nD τ).loc main_arg6) :=
  (W3_of_ne m c main_arg6 (by decide)).trans <| (W2_of_ne m c main_arg6 (by decide)).trans <| (V1_of m c main_arg6 (by decide)).trans rfl
theorem W3_main_arg7 (c : Dev nD) : W3 m c (Proc.devRef .tc main_arg7) = m ((c : Thread nD τ).loc main_arg7) :=
  (W3_in m c 6 rfl).trans <| (W2_of_ne m c main_arg7 (by decide)).trans <| (V1_of m c main_arg7 (by decide)).trans rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => KFeature.dat (E1 m) c
  | ⟨1, _⟩ => fun c => KAggregate.dat (E2 m) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 between the thread states "every unscoped buffer at the host stretch's result" and "… at `W2`": its
    arrays split out of the unscoped buffers and put back at the exit contents, the generator register into the
    invariant and out, nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (KFeature.body_obligation (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun w => KFeature.A_eq (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ (A B C : sProp 𝕄), iprop(A ∗ B ∗ C) ⊢ iprop(C ∗ A) := fun A B C => by
      iintro ⟨Hp, -, Hr⟩
      isplitl [Hr]; · iexact Hr
      iexact Hp
    exact (h1 _ _ _).trans (KFeature.hin (E1 m) c)
  hout c := by
    rw [Pipeline.ownSems0_none]
    have h1 : ∀ (A C : sProp 𝕄), iprop(C ∗ A) ⊢ iprop(A ∗ BI.emp ∗ C) := fun A C => by
      iintro ⟨Hr, Hp⟩
      isplitl [Hp]; · iexact Hp
      isplitr; · iempintro
      iexact Hr
    exact (KFeature.hout (E1 m) c).trans (h1 _ _)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between "every unscoped buffer at `W2`" and "… at `W3`", the last thread state. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (KAggregate.body_obligation (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun w => KAggregate.A_eq (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ (A B C : sProp 𝕄), iprop(A ∗ B ∗ C) ⊢ iprop(C ∗ A) := fun A B C => by
      iintro ⟨Hp, -, Hr⟩
      isplitl [Hr]; · iexact Hr
      iexact Hp
    exact (h1 _ _ _).trans (KAggregate.hin (E2 m) c)
  hout c := by
    rw [Pipeline.ownSems0_none]
    have h1 : ∀ (A C : sProp 𝕄), iprop(C ∗ A) ⊢ iprop(A ∗ BI.emp ∗ C) := fun A C => by
      iintro ⟨Hr, Hp⟩
      isplitl [Hp]; · iexact Hp
      isplitr; · iempintro
      iexact Hr
    exact (KAggregate.hout (E2 m) c).trans (h1 _ _)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (V0 m)),
    .region (reg0 m),
    .region (reg1 m) ]
theorem main_run (c : Dev nD) : main (F := F) c = Pipeline.Seg.run (segs m) := (main_chain c).trans (by chain_rfl)

variable (ρ : Dev nD → PrngReg)

set_option backward.isDefEq.respectTransparency.types false in
/-- Every weakly fair execution of @main from memory `m` with zero counters terminates, nothing faulting, and in every
    final state each unscoped buffer of each TensorCore holds the last boundary's contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c)⟩) (run m ρ)

end Cert.Kernel.KRun

end
-- ==== Proof.KFeature.lean ====
/- The frame of the feature-transform region (custom_call 0): the region keeps nothing between grid
   points, so the invariant is the class's (the scoped rest and the generator register, untouched), the
   inputs' staging buffers hold their blocks, and the output's staging buffer after the body holds the one
   whole store of the payload over the two input blocks. -/
import proofs.«171818_g2000203955041256_pallasbulk_1331_5_alg».proof.Proof.Gen.KernelIdeal.Launch
import proofs.«171818_g2000203955041256_pallasbulk_1331_5_alg».proof.Proof.Gen.KernelIdeal.Skeleton
import proofs.«171818_g2000203955041256_pallasbulk_1331_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KFeature

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (fetched at the first point only: its block index never moves) likewise. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole block of the first input: the rectangle of its load. -/
abbrev rX : Rect S1024x512 := Rect.unit (s := S1024x512) ![0, 0] S1024x512.size inb_S1024x512_S1024x512_0_0
/-- The whole block of the second input: the rectangle of its load. -/
abbrev rW : Rect S512x256 := Rect.unit (s := S512x256) ![0, 0] S512x256.size inb_S512x256_S512x256_0_0
/-- The whole output block: the rectangle of the body's one store. -/
abbrev rOut : Rect S1024x256 := Rect.unit (s := S1024x256) ![0, 0] S1024x256.size inb_S1024x256_S1024x256_0_0

/-! ## What the body leaves in the output window's buffer -/

/-- The output window's staging buffer after the body, from the two input blocks: its one store. -/
def out2 (x0 : Vec F S1024x512 .f32) (x1 : Vec F S512x256 .bf16) : Vec F S1024x256 .bf16 :=
  View.canon [⟨rOut, k0_pay1 (View.ld x0 rX) (View.ld x1 rW)⟩]

/-- The one store is of the whole block, so it covers it. -/
theorem cover2 (p0 : Vec F S1024x256 .bf16) (y : S1024x256.Idx) :
    ∃ pc ∈ ([⟨rOut, p0⟩] : List (View.Piece (Elt F) S1024x256 .bf16)), y ∈ pc.1.set :=
  View.cover_of_tiled [⟨rOut, p0⟩] S1024x256.size (by rfl) y

/-! ## The body's triple -/

set_option maxHeartbeats 1000000 in
/-- The kernel body on whole staging memrefs, the inputs' at read contents `x0`, `x1` and the output's at anything,
    runs to the continuation holding the inputs' as they were and the output's at `out2` of the inputs'. The load of
    the output buffer before the store is dead. -/
theorem sound_kernel (c : Dev nD) (E : Set ℕ) (i : grid0.Coords)
    (arg1 : Memref sig .tc .vmem S1024x512 .f32) (harg1 : arg1.IsWhole)
    (arg2 : Memref sig .tc .vmem S512x256 .bf16) (harg2 : arg2.IsWhole)
    (arg3 : Memref sig .tc .vmem S1024x256 .bf16) (harg3 : arg3.IsWhole)
    (x0 : Vec F S1024x512 .f32) (x1 : Vec F S512x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__z1_kernel i arg1 harg1 arg2 harg2 arg3 harg3) K := by
  simp only [cc0__z1_kernel_eq_skeleton]; unfold cc0__z1_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data of the region on core `c`: the arrays as the region finds them; after the body at point
    `t` each input's buffer at its block and the output's at `out2` of the input blocks; the class's
    invariant; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = out2 (iblk V c 0 t) (iblk V c 1 t) := by dsimp only [dat]

/-- Each input's current staging buffer holds its block at every point, fetched there or not. -/
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).Φ t.succ = (dat V c).Φ t.castSucc from rfl,
    show (dat V c).owesAt () t.succ = (dat V c).owesAt () t.castSucc from rfl,
    after0, after1, after2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

/-- The invariant before the first point is the class's. -/
theorem hin (c : Dev nD) : Pipeline.ΦA spec0 c ⊢ (dat V c).Φ 0 := by
  dsimp only [dat]; exact BI.Entails.refl _

/-- The invariant after the last point is the class's. -/
theorem hout (c : Dev nD) : (dat V c).Φ (Fin.last cfg0.N) ⊢ Pipeline.ΦA spec0 c := by
  dsimp only [dat]; exact BI.Entails.refl _

end Cert.KernelIdeal.KFeature

end
-- ==== Proof.KAggregateRunA.lean ====
import proofs.«171818_g2000203955041256_pallasbulk_1331_5_alg».proof.Proof.Gen.KernelIdeal.Launch
import proofs.«171818_g2000203955041256_pallasbulk_1331_5_alg».proof.Proof.Gen.KernelIdeal.Skeleton
import proofs.«171818_g2000203955041256_pallasbulk_1331_5_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.ValueIdx
import Idealize.ShloMosaic.Lib.Tactic

/-! # The aggregation kernel's body in phase 0

At a point of phase 0 (first conditional taken, second not) the body reads the row slab of window 0 and the
blocks of windows 1, 2, 3 and stores one 512-row slice of the intermediate into the scratch, leaving every other
row of the scratch as it was. -/

set_option maxRecDepth 16384

noncomputable section

namespace Cert.KernelIdeal.KAggregateRunA

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The rectangle of the scratch that the phase-0 store writes: 512 rows at the row offset of the point. -/
abbrev sliceR (i : grid1.Coords) (hc1 : k1_cond1 i = 1#1) : Rect S8192x256 :=
  Rect.unit (s := S8192x256) (k1_off1 i) S512x256.size (k1_off1_inb i hc1)

set_option maxHeartbeats 1000000 in
/-- The body in phase 0, on whole memrefs: windows 0..3 at contents x0..x3 and the scratch at contents xs are
    handed back, the scratch at contents that are the payload on the slice and xs off it. -/
theorem sound_kernel_A (c : Dev nD) (E : Set ℕ) (i : grid1.Coords) (arg2 : Memref sig .tc .vmem S512x8192 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x128 .bf16) (harg7 : arg7.IsWhole) (arg8 : Memref sig .tc .vmem S1x128 .f32) (harg8 : arg8.IsWhole) (arg9 : Memref sig .tc .vmem S512x128 .f32) (harg9 : arg9.IsWhole) (arg10 : Memref sig .tc .vmem S8192x256 .bf16) (harg10 : arg10.IsWhole)
    (hc1 : k1_cond1 i = 1#1) (hc2 : ¬ k1_cond2 i = 1#1)
    (x0 : Vec F S512x8192 .bf16) (x1 : Vec F S8192x256 .bf16) (x2 : Vec F S1x256 .f32) (x3 : Vec F S256x256 .bf16)
    (xs : Vec F S8192x256 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg10 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ (∃ X' : Vec F S8192x256 .bf16, ⌜(∀ x, X' ((sliceR i hc1).emb x) = k1_pay1 x0 x1 x2 x3 x) ∧ (∀ y, y ∉ (sliceR i hc1).set → X' y = xs y)⌝
                ∗ owns (c : Thread nD τ) arg10 fullShare X')) -∗ K ⟨⟩))
      ⊢ wp frame (wpE (defs₀ (F := F)) Variants.none c none) E (cc1__agg_kernel i arg2 harg2 arg3 harg3 arg4 harg4 arg5 harg5 arg6 harg6 arg7 harg7 arg8 harg8 arg9 harg9 arg10 harg10) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg10.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap
  · iexists _; isplitr
    swap; · iexact HS
    ipureintro; rfl
  ipureintro
  refine ⟨fun x => ?_, fun y hy => ?_⟩
  · refine (View.read_writes_cons_emb _ _ _ _ _ x).trans ?_
    simp only [View.readAt_eq_ld, hf0, hf1, hf2, hf3, View.ld_unit_zero (S := S512x8192) hz, View.ld_unit_zero (S := S8192x256) hz,
      View.ld_unit_zero (S := S1x256) hz, View.ld_unit_zero (S := S256x256) hz]
  · refine (View.read_writes_apply_of_forall_not_mem _ _ y _ ?_).trans (congrFun hfs y)
    intro p hp
    rw [List.mem_singleton] at hp
    subst hp
    exact hy

end Cert.KernelIdeal.KAggregateRunA

end
-- ==== Proof.KAggregateRunB.lean ====
import proofs.«171818_g2000203955041256_pallasbulk_1331_5_alg».proof.Proof.Gen.KernelIdeal.Launch
import proofs.«171818_g2000203955041256_pallasbulk_1331_5_alg».proof.Proof.Gen.KernelIdeal.Skeleton
import proofs.«171818_g2000203955041256_pallasbulk_1331_5_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.ValueIdx
import Idealize.ShloMosaic.Lib.Tactic

/-! # The aggregation kernel's body in phase 1

At a point of phase 1 (first conditional not taken, second taken) the body reads the row slab of window 0, the
WHOLE scratch and the blocks of windows 4, 5, 6, and stores the output block whole. -/

set_option maxRecDepth 16384

noncomputable section

namespace Cert.KernelIdeal.KAggregateRunB

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

set_option maxHeartbeats 1000000 in
/-- The body in phase 1, on whole memrefs: window 0 at x0, the scratch at xs, windows 4..6 at x4..x6 are handed
    back as they were, the output buffer (found at anything) at the payload computed from them. -/
theorem sound_kernel_B (c : Dev nD) (E : Set ℕ) (i : grid1.Coords) (arg2 : Memref sig .tc .vmem S512x8192 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x128 .bf16) (harg7 : arg7.IsWhole) (arg8 : Memref sig .tc .vmem S1x128 .f32) (harg8 : arg8.IsWhole) (arg9 : Memref sig .tc .vmem S512x128 .f32) (harg9 : arg9.IsWhole) (arg10 : Memref sig .tc .vmem S8192x256 .bf16) (harg10 : arg10.IsWhole)
    (hc1 : ¬ k1_cond1 i = 1#1) (hc2 : k1_cond2 i = 1#1)
    (x0 : Vec F S512x8192 .bf16) (xs : Vec F S8192x256 .bf16) (x4 : Vec F S1x256 .f32) (x5 : Vec F S256x128 .bf16) (x6 : Vec F S1x128 .f32)
    (K : PUnit → sProp 𝕄) :
    iprop(owns (c : Thread nD τ) arg2 fullShare x0 ∗ owns (c : Thread nD τ) arg10 fullShare xs ∗ owns (c : Thread nD τ) arg6 fullShare x4
        ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg10 fullShare xs ∗ owns (c : Thread nD τ) arg6 fullShare x4
            ∗ owns (c : Thread nD τ) arg7 fullShare x5 ∗ owns (c : Thread nD τ) arg8 fullShare x6
            ∗ owns (c : Thread nD τ) arg9 fullShare (k1_pay2 x0 xs x4 x5 x6)) -∗ K ⟨⟩))
      ⊢ wp frame (wpE (defs₀ (F := F)) Variants.none c none) E (cc1__agg_kernel i arg2 harg2 arg3 harg3 arg4 harg4 arg5 harg5 arg6 harg6 arg7 harg7 arg8 harg8 arg9 harg9 arg10 harg10) K := by
  simp only [cc1__agg_kernel_eq_skeleton]; unfold cc1__agg_kernel_skel
  unfold owns
  iintro ⟨⟨%f0, %hf0, H0⟩, ⟨%fs, %hfs, HS⟩, ⟨%f4, %hf4, H4⟩, ⟨%f5, %hf5, H5⟩, ⟨%f6, %hf6, H6⟩, ⟨%d9, %f9, -, H9⟩, Hk⟩
  obtain rfl := harg2.eq_unread hf0; obtain rfl := harg10.eq_unread hfs; obtain rfl := harg6.eq_unread hf4
  obtain rfl := harg7.eq_unread hf5; obtain rfl := harg8.eq_unread hf6
  sl_exec (disch := first | exact hc1 | exact hc2)
  sl_step
  iapply Hk
  isplitl [H0]
  · iexists _; isplitr; · ipureintro; exact hf0
    iexact H0
  isplitl [HS]
  · iexists _; isplitr; · ipureintro; exact hfs
    iexact HS
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H9
  ipureintro
  refine (View.read_writes_eq_canon _ _ _ (fun y => ⟨_, List.mem_singleton_self _, View.mem_set_unit_zero hz inb_S512x128_S512x128_0_0 y⟩)).trans ?_
  rw [View.canon_unit_zero hz]
  simp only [View.readAt_eq_ld, hf0, hfs, hf4, hf5, hf6, View.ld_unit_zero (S := S512x8192) hz, View.ld_unit_zero (S := S8192x256) hz,
    View.ld_unit_zero (S := S1x256) hz, View.ld_unit_zero (S := S256x128) hz, View.ld_unit_zero (S := S1x128) hz, View.ld_unit_zero (S := S512x128) hz]

end Cert.KernelIdeal.KAggregateRunB

end
-- ==== Proof.KAggregate.lean ====
import proofs.«171818_g2000203955041256_pallasbulk_1331_5_alg».proof.Proof.Gen.KernelIdeal.Launch
import proofs.«171818_g2000203955041256_pallasbulk_1331_5_alg».proof.Proof.Gen.KernelIdeal.Skeleton
import proofs.«171818_g2000203955041256_pallasbulk_1331_5_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.ValueIdx
import Idealize.ShloMosaic.Lib.Tactic
import proofs.«171818_g2000203955041256_pallasbulk_1331_5_alg».proof.Proof.KAggregateRunA
import proofs.«171818_g2000203955041256_pallasbulk_1331_5_alg».proof.Proof.KAggregateRunB
/-! # The aggregation region (pallas_call 1, grid (2, 16)): proof data, invariant and body obligation

Phase 0 (points 0..15) stores, at point i, the 512-row slice i of the intermediate into a VMEM scratch that is
carried between points; phase 1 (points 16..31) reads the whole scratch and stores the output block. The
invariant after point n says: rows [0, 512 * min n 16) of the scratch are the intermediate's rows. -/

set_option maxRecDepth 16384

noncomputable section

namespace Cert.KernelIdeal.KAggregate

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.KAggregateRunA (sliceR sound_kernel_A)
open Cert.KernelIdeal.KAggregateRunB (sound_kernel_B)

-- the TensorCore's buffer contents when the region is entered
variable (V : (c : Dev nD) → (b : Ref sig .tc) → Buf (Elt F) ((c : Thread nD τ).loc b))

/-! ## The grid: which phase a point is in, where the slice sits, where the output window is idle -/

/-- The first conditional holds at the points of phase 0, -/
theorem hcond1 : ∀ t : Fin cfg1.N, k1_cond1 (grid1.coords t) = 1#1 ↔ t.val < 16 :=
  (by decide +kernel : ∀ t : Fin grid1.N, k1_cond1 (grid1.coords t) = 1#1 ↔ t.val < 16)
/-- the second at the points of phase 1. -/
theorem hcond2 : ∀ t : Fin cfg1.N, k1_cond2 (grid1.coords t) = 1#1 ↔ 16 ≤ t.val :=
  (by decide +kernel : ∀ t : Fin grid1.N, k1_cond2 (grid1.coords t) = 1#1 ↔ 16 ≤ t.val)
/-- The row-tile coordinate of a point. -/
theorem hcoord1 : ∀ t : Fin cfg1.N, ((grid1.coords t) 1).val = t.val % 16 :=
  (by decide +kernel : ∀ t : Fin grid1.N, ((grid1.coords t) 1).val = t.val % 16)
/-- The inputs' windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- In phase 0 the output window is idle and is not written back; in phase 1 it is live. -/
theorem idleAt1_7 : ∀ t : Fin cfg1.N, t.val < 16 → cfg1.idle 7 (grid1.coords t) = true := by decide +kernel
theorem noFlush1_7 : ∀ t : Fin cfg1.N, t.val < 16 → (cfg1.win 7).flush t = false := by decide +kernel
theorem liveAt1_7 : ∀ t : Fin cfg1.N, 16 ≤ t.val → cfg1.idle 7 (grid1.coords t) = false := by decide +kernel

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The intermediate as one function of the scratch's index -/

/-- The phase-0 point of row tile i. -/
def ptA (i : Fin 16) : Fin cfg1.N := ⟨i.val, lt_of_lt_of_eq (by omega) (show (32 : ℕ) = cfg1.N from N_1.symm)⟩

/-- The row tile of a row of the scratch. -/
def tileOf (r : Fin 8192) : Fin 16 := ⟨r.val / 512, by omega⟩

/-- The row within its tile. -/
def rowIn (r : Fin 8192) : Fin 512 := ⟨r.val % 512, by omega⟩

/-- The intermediate as ONE function of the scratch's index: row r (tile r / 512) is row r % 512 of the payload
    stored at the phase-0 point of that tile, computed from the blocks of windows 0..3 there. -/
def SG (c : Dev nD) : Vec F S8192x256 .bf16 := fun y =>
  k1_pay1 (iblk V c 0 (ptA (tileOf (y 0)))) (iblk V c 1 (ptA (tileOf (y 0)))) (iblk V c 2 (ptA (tileOf (y 0)))) (iblk V c 3 (ptA (tileOf (y 0))))
    (ValueIdx.ix2 (rowIn (y 0)) (y 1))

/-- Rows below 512 * n of contents X of the scratch are the intermediate's. -/
def ScrOK (c : Dev nD) (n : ℕ) (X : Vec F S8192x256 .bf16) : Prop :=
  ∀ y : S8192x256.Idx, (y 0).val < 512 * n → X y = SG V c y

/-- Nothing is asked of the scratch before the first point. -/
theorem scrOK_zero (c : Dev nD) (X : Vec F S8192x256 .bf16) : ScrOK V c 0 X := fun y hy => absurd hy (by omega)

/-- Once all sixteen tiles are stored the scratch IS the intermediate. -/
theorem eq_SG_of_scrOK (c : Dev nD) (X : Vec F S8192x256 .bf16) (h : ScrOK V c 16 X) : X = SG V c :=
  funext fun y => h y (by have := (y 0).isLt; show (y 0).val < 512 * 16; exact this)

/-- The phase-0 store at point t (rows [512 t, 512 t + 512) take the payload of the blocks there, the other rows
    keep their contents) extends the rows that are the intermediate's by one tile. -/
theorem scrOK_step (c : Dev nD) (t : Fin cfg1.N) (ht : t.val < 16) (hc1 : k1_cond1 (grid1.coords t) = 1#1)
    (X X' : Vec F S8192x256 .bf16) (hX : ScrOK V c t.val X)
    (h1 : ∀ x, X' ((sliceR (grid1.coords t) hc1).emb x) = k1_pay1 (iblk V c 0 t) (iblk V c 1 t) (iblk V c 2 t) (iblk V c 3 t) x)
    (h2 : ∀ y, y ∉ (sliceR (grid1.coords t) hc1).set → X' y = X y) : ScrOK V c (t.val + 1) X' := by
  intro y hy
  have hoff0 : k1_off1 (grid1.coords t) 0 = 512 * t.val := by
    rw [k1_off1_eq]; show 512 * ((grid1.coords t) 1).val = _; rw [hcoord1 t, Nat.mod_eq_of_lt ht]
  have hoff1 : k1_off1 (grid1.coords t) 1 = 0 := by rw [k1_off1_eq]; rfl
  by_cases hlo : 512 * t.val ≤ (y 0).val
  · -- a row of the slice: it reads the payload
    have hr : (y 0).val - 512 * t.val < 512 := by omega
    have hy' : y = (sliceR (grid1.coords t) hc1).emb (ValueIdx.ix2 (⟨(y 0).val - 512 * t.val, hr⟩ : Fin 512) (y 1)) := by
      funext a; apply Fin.ext; rw [Rect.emb_apply]
      match a with
      | ⟨0, _⟩ => show (y 0).val = k1_off1 (grid1.coords t) 0 + 1 * ((y 0).val - 512 * t.val); rw [hoff0]; omega
      | ⟨1, _⟩ => show (y 1).val = k1_off1 (grid1.coords t) 1 + 1 * (y 1).val; rw [hoff1]; omega
    refine ((congrArg X' hy').trans (h1 _)).trans ?_
    have hp : ptA (tileOf (y 0)) = t := Fin.ext (show (y 0).val / 512 = t.val by omega)
    have hrow : rowIn (y 0) = (⟨(y 0).val - 512 * t.val, hr⟩ : Fin 512) := Fin.ext (show (y 0).val % 512 = (y 0).val - 512 * t.val by omega)
    unfold SG
    rw [hp, hrow]
  · -- a row below the slice: kept
    have hnm : y ∉ (sliceR (grid1.coords t) hc1).set := fun hm => by
      have := (Rect.mem_set_unit.mp hm 0).1
      rw [hoff0] at this
      exact hlo this
    rw [h2 y hnm]
    exact hX y (by omega)

/-! ## The invariant -/

/-- The scratch operand: a whole scoped buffer passed beside the windows. -/
abbrev scM : Memref sig .tc .vmem S8192x256 .bf16 := Memref.whole cc1_scratch0

/-- A scoped buffer of the core at some contents. -/
def oth (c : Dev nD) (b : Ref sig .tc) : sProp 𝕄 :=
  iprop(∃ f : Buf (Elt F) ((c : Thread nD τ).loc b), ((c : Thread nD τ).loc b) ↦{fullShare} f)

/-- The scoped rest with the carried scratch at contents whose rows below 512 * min n 16 are the intermediate's,
    and the generator register at some state. -/
def PhiR (c : Dev nD) (n : ℕ) : sProp 𝕄 :=
  iprop((oth (F := F) c cc0_stg0_0 ∗ oth (F := F) c cc0_stg0_1 ∗ oth (F := F) c cc0_stg1_0 ∗ oth (F := F) c cc0_stg2_0 ∗ oth (F := F) c cc0_stg2_1
      ∗ (∃ X, ⌜ScrOK V c (min n 16) X⌝ ∗ owns (c : Thread nD τ) scM fullShare X)) ∗ (∃ r, prngReg c r))

/-- The region invariant before position n: before the first point the class's (every scoped buffer at
    anything); afterwards PhiR. -/
def PhiS (c : Dev nD) : (n : ℕ) → sProp 𝕄
  | 0 => Pipeline.ΦA spec1 c
  | n + 1 => PhiR V c (n + 1)

theorem PhiS_succ (c : Dev nD) (n : ℕ) : PhiS V c (n + 1) = PhiR V c (n + 1) := rfl

/-- The class's invariant with the scratch as a memref owned at some contents. -/
theorem PhiA1_eq (c : Dev nD) :
    (Pipeline.ΦA spec1 c : sProp 𝕄)
      = iprop((oth (F := F) c cc0_stg0_0 ∗ oth (F := F) c cc0_stg0_1 ∗ oth (F := F) c cc0_stg1_0 ∗ oth (F := F) c cc0_stg2_0 ∗ oth (F := F) c cc0_stg2_1
          ∗ (∃ d, owns (c : Thread nD τ) scM fullShare d)) ∗ (∃ r, prngReg c r)) := by
  unfold Pipeline.ΦA oth; rw [scopedRest1_eq]; simp only [scM, owns_whole]; try rfl

/-- At every position the invariant gives PhiR (before the first point nothing is asked of the scratch). -/
theorem PhiS_elim (c : Dev nD) (n : ℕ) : PhiS V c n ⊢ PhiR V c n := by
  cases n with
  | zero =>
    rw [show PhiS V c 0 = Pipeline.ΦA spec1 c from rfl, PhiA1_eq]; unfold PhiR
    iintro ⟨⟨O1, O2, O3, O4, O5, ⟨%d, HS⟩⟩, Hg⟩
    isplitr [Hg]
    · isplitl [O1]; · iexact O1
      isplitl [O2]; · iexact O2
      isplitl [O3]; · iexact O3
      isplitl [O4]; · iexact O4
      isplitl [O5]; · iexact O5
      iexists d; isplitr; · ipureintro; exact scrOK_zero V c d
      iexact HS
    iexact Hg
  | succ n => exact Idealize.SL.BI.Entails.refl _

/-- The same with PhiR written out. -/
theorem PhiS_elim' (c : Dev nD) (n : ℕ) : PhiS V c n ⊢
    iprop((oth (F := F) c cc0_stg0_0 ∗ oth (F := F) c cc0_stg0_1 ∗ oth (F := F) c cc0_stg1_0 ∗ oth (F := F) c cc0_stg2_0 ∗ oth (F := F) c cc0_stg2_1
      ∗ (∃ X, ⌜ScrOK V c (min n 16) X⌝ ∗ owns (c : Thread nD τ) scM fullShare X)) ∗ (∃ r, prngReg c r)) := by
  have h := PhiS_elim V c n; unfold PhiR at h; exact h

/-- PhiR gives the class's invariant back: the scratch's named contents are forgotten. -/
theorem PhiR_out (c : Dev nD) (n : ℕ) : PhiR V c n ⊢ Pipeline.ΦA spec1 c := by
  rw [PhiA1_eq]; unfold PhiR
  iintro ⟨⟨O1, O2, O3, O4, O5, ⟨%X, -, HS⟩⟩, Hg⟩
  isplitr [Hg]
  · isplitl [O1]; · iexact O1
    isplitl [O2]; · iexact O2
    isplitl [O3]; · iexact O3
    isplitl [O4]; · iexact O4
    isplitl [O5]; · iexact O5
    iexists X; iexact HS
  iexact Hg

/-! ## The proof data -/

/-- What the output block holds after the body at a phase-1 point: the one whole store of the payload computed
    from the slab of window 0, the whole intermediate and the blocks of windows 4..6. -/
def out7 (c : Dev nD) (t : Fin cfg1.N) : Vec F S512x128 .f32 :=
  k1_pay2 (iblk V c 0 t) (SG V c) (iblk V c 4 t) (iblk V c 5 t) (iblk V c 6 t)

/-- The proof data of the pipeline on core c: the arrays as the region finds them; after the body each input's
    buffer at its block, the output's at the payload of phase 1; the invariant PhiS; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out7 V c t
  Φ t := PhiS V c t.val
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = out7 V c t := by dsimp only [dat]

/-- Each input's current staging buffer holds its block at every point. -/
theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d
theorem before1_6 (c : Dev nD) (t : Fin cfg1.N) (d) : (dat V c).before 6 t d = iblk V c 6 t :=
  before1_6_of V (dat V c) (A_eq V c 6) (after1_6 V c) t d

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4000000 in
/-- The body at any point. In phase 0 the invariant hands it the scratch at contents whose first t tiles are the
    intermediate's and takes it back with one tile more (the output window, idle, passes through untouched); in
    phase 1 the scratch is the whole intermediate, the body reads it and stores the output block. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6]
  rw [show (dat V c).owesAt () t.succ = (dat V c).owesAt () t.castSucc from rfl]
  rw [show (dat V c).Φ t.succ = PhiS V c (t.val + 1) from rfl, PhiS_succ]
  rw [show (dat V c).Φ t.castSucc = PhiS V c t.val from by dsimp only [dat]; simp only [Fin.coe_castSucc]]
  rw [show (dat V c).leavesExact 0 t = owns (c : Thread nD τ) (st1_0 t) fullShare (iblk V c 0 t) from by
    unfold Dat.leavesExact; rw [liveAt1_0 t, after1_0]]
  rw [show (dat V c).leavesExact 1 t = owns (c : Thread nD τ) (st1_1 t) fullShare (iblk V c 1 t) from by
    unfold Dat.leavesExact; rw [liveAt1_1 t, after1_1]]
  rw [show (dat V c).leavesExact 2 t = owns (c : Thread nD τ) (st1_2 t) fullShare (iblk V c 2 t) from by
    unfold Dat.leavesExact; rw [liveAt1_2 t, after1_2]]
  rw [show (dat V c).leavesExact 3 t = owns (c : Thread nD τ) (st1_3 t) fullShare (iblk V c 3 t) from by
    unfold Dat.leavesExact; rw [liveAt1_3 t, after1_3]]
  rw [show (dat V c).leavesExact 4 t = owns (c : Thread nD τ) (st1_4 t) fullShare (iblk V c 4 t) from by
    unfold Dat.leavesExact; rw [liveAt1_4 t, after1_4]]
  rw [show (dat V c).leavesExact 5 t = owns (c : Thread nD τ) (st1_5 t) fullShare (iblk V c 5 t) from by
    unfold Dat.leavesExact; rw [liveAt1_5 t, after1_5]]
  rw [show (dat V c).leavesExact 6 t = owns (c : Thread nD τ) (st1_6 t) fullShare (iblk V c 6 t) from by
    unfold Dat.leavesExact; rw [liveAt1_6 t, after1_6]]
  have hN : t.val < 32 := lt_of_lt_of_eq t.isLt (show cfg1.N = 32 from N_1)
  unfold PhiR
  by_cases hA : t.val < 16
  · -- phase 0
    have hc1 : k1_cond1 (grid1.coords t) = 1#1 := (hcond1 t).mpr hA
    have hc2 : ¬ k1_cond2 (grid1.coords t) = 1#1 := fun h => absurd ((hcond2 t).mp h) (by omega)
    rw [Dat.leavesExact_idle (dat V c) 7 t (idleAt1_7 t hA) (noFlush1_7 t hA)]
    rw [show min (t.val + 1) 16 = t.val + 1 from by omega]
    iintro ⟨HΦ, Ho, ⟨%d0, H0⟩, ⟨%d1, H1⟩, ⟨%d2, H2⟩, ⟨%d3, H3⟩, ⟨%d4, H4⟩, ⟨%d5, H5⟩, ⟨%d6, H6⟩, H7⟩
    ihave HR := (PhiS_elim' V c t.val) $$ HΦ
    icases HR with ⟨⟨O1, O2, O3, O4, O5, ⟨%X, %hX, HS⟩⟩, Hg⟩
    rw [show min t.val 16 = t.val from by omega] at hX
    iapply (sound_kernel_A c Set.univ (grid1.coords t) _ _ _ _ _ _ _ _ _ _ _ _ _ _ _ _ _ _ hc1 hc2 (iblk V c 0 t) (iblk V c 1 t) (iblk V c 2 t) (iblk V c 3 t) X _)
    isplitl [H0]; · iexact H0
    isplitl [H1]; · iexact H1
    isplitl [H2]; · iexact H2
    isplitl [H3]; · iexact H3
    isplitl [HS]; · iexact HS
    iintro ⟨H0, H1, H2, H3, ⟨%X', %hX', HS⟩⟩
    isplitl [O1 O2 O3 O4 O5 HS Hg]
    · isplitr [Hg]
      · isplitl [O1]; · iexact O1
        isplitl [O2]; · iexact O2
        isplitl [O3]; · iexact O3
        isplitl [O4]; · iexact O4
        isplitl [O5]; · iexact O5
        iexists X'; isplitr; · ipureintro; exact scrOK_step V c t hA hc1 X X' hX hX'.1 hX'.2
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · -- phase 1
    have hB : 16 ≤ t.val := by omega
    have hc1 : ¬ k1_cond1 (grid1.coords t) = 1#1 := fun h => hA ((hcond1 t).mp h)
    have hc2 : k1_cond2 (grid1.coords t) = 1#1 := (hcond2 t).mpr hB
    rw [show (dat V c).leavesExact 7 t = owns (c : Thread nD τ) (st1_7 t) fullShare (out7 V c t) from by
      unfold Dat.leavesExact; rw [liveAt1_7 t hB, after1_7]]
    rw [show min (t.val + 1) 16 = 16 from by omega]
    unfold out7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HR := (PhiS_elim' V c t.val) $$ HΦ
    icases HR with ⟨⟨O1, O2, O3, O4, O5, ⟨%X, %hX, HS⟩⟩, Hg⟩
    rw [show min t.val 16 = 16 from by omega] at hX
    obtain rfl := eq_SG_of_scrOK V c X hX
    iapply (sound_kernel_B c Set.univ (grid1.coords t) _ _ _ _ _ _ _ _ _ _ _ _ _ _ _ _ _ _ hc1 hc2 (iblk V c 0 t) (SG V c) (iblk V c 4 t) (iblk V c 5 t) (iblk V c 6 t) _)
    isplitl [H0]; · iexact H0
    isplitl [HS]; · iexact HS
    isplitl [H4]; · iexact H4
    isplitl [H5]; · iexact H5
    isplitl [H6]; · iexact H6
    isplitl [H7]; · iexists _; iexact H7
    iintro ⟨H0, HS, H4, H5, H6, H7⟩
    isplitl [O1 O2 O3 O4 O5 HS Hg]
    · isplitr [Hg]
      · isplitl [O1]; · iexact O1
        isplitl [O2]; · iexact O2
        isplitl [O3]; · iexact O3
        isplitl [O4]; · iexact O4
        isplitl [O5]; · iexact O5
        iexists (SG V c); isplitr; · ipureintro; exact fun y _ => rfl
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (c : Dev nD) : Pipeline.BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 from rfl]
  exact Idealize.SL.BI.Entails.refl _

/-- After the last point the invariant gives the class's back. -/
theorem hout (c : Dev nD) : (dat V c).Φ (Fin.last cfg1.N) ⊢ Pipeline.ΦA spec1 c := by
  rw [show (dat V c).Φ (Fin.last cfg1.N) = PhiS V c cfg1.N from rfl]
  exact (PhiS_elim V c _).trans (PhiR_out V c _)

end Cert.KernelIdeal.KAggregate

end
-- ==== Proof.KRun.lean ====
/-
  The run of the two-region kernel program, region by region.

  @main is three items: a stretch of host operations (three casts of the weight matrices), region 0 (the feature
  transform Z1 = X·W1, one 1024-row block per grid point) and region 1 (both adjacency passes over a 2 × 16 grid).
  Between two items every unscoped buffer of a TensorCore is held whole at named contents: the launch memory, then the
  host stretch applied, then region 0's arrays at what its write-backs leave, then region 1's. Every weakly fair
  execution ends with each unscoped buffer at the last of these; the argument arrays walk back through the chain to
  the launch memory because no host operation writes one and each region only reads them.
-/
import proofs.«171818_g2000203955041256_pallasbulk_1331_5_alg».proof.Proof.KFeature
import proofs.«171818_g2000203955041256_pallasbulk_1331_5_alg».proof.Proof.KAggregate
import proofs.«171818_g2000203955041256_pallasbulk_1331_5_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Region 0's entry contents, read at the TensorCore's references: the launch memory after the host casts. -/
abbrev E1 : (c : Dev nD) → (b : Ref sig .tc) → Buf (Elt F) ((c : Thread nD τ).loc b) := fun c b => V1 m c b

/-- After region 0: its arrays at what the pipeline leaves (X and W1 as entered, Z1 at its write-backs folded), every
    other buffer as entered. -/
def W2 (c : Dev nD) : Valuation τ sig (Elt F) :=
  Pipeline.withArrays spec0 c (V1 m c) fun w => (KFeature.dat (E1 m) c).arrAt w cfg0.N
theorem W2_arr (c : Dev nD) (w : Fin cfg0.W) :
    W2 m c (Proc.devRef .tc (Pipeline.arrRef spec0 w)) = (KFeature.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
/-- Region 1's entry contents. -/
abbrev E2 : (c : Dev nD) → (b : Ref sig .tc) → Buf (Elt F) ((c : Thread nD τ).loc b) := fun c b => W2 m c b
theorem hF0 (c : Dev nD) (w : Fin cfg0.W) : (KFeature.dat (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After region 1: its arrays at what the pipeline leaves (the seven inputs as entered, the result at its write-backs
    folded), every other buffer as entered. -/
def W3 (c : Dev nD) : Valuation τ sig (Elt F) :=
  Pipeline.withArrays spec1 c (W2 m c) fun w => (KAggregate.dat (E2 m) c).arrAt w cfg1.N
theorem W3_arr (c : Dev nD) (w : Fin cfg1.W) :
    W3 m c (Proc.devRef .tc (Pipeline.arrRef spec1 w)) = (KAggregate.dat (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (KAggregate.dat (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ## The arguments end as launched -/

/-- An input window's array of region 0 is left as entered. -/
theorem W2_in (c : Dev nD) (w : Fin cfg0.W) (hw : (cfg0.win w).isOut = false) :
    W2 m c (Proc.devRef .tc (Pipeline.arrRef spec0 w)) = V1 m c (Proc.devRef .tc (Pipeline.arrRef spec0 w)) :=
  (W2_arr m c w).trans (((KFeature.dat (E1 m) c).arrAt_in w hw _).trans (KFeature.A_eq (E1 m) c w))
/-- An input window's array of region 1 is left as entered. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((KAggregate.dat (E2 m) c).arrAt_in w hw _).trans (KAggregate.A_eq (E2 m) c w))

theorem W3_main_arg0 (c : Dev nD) : W3 m c (Proc.devRef .tc main_arg0) = m ((c : Thread nD τ).loc main_arg0) :=
  (W3_in m c 0 rfl).trans <| (W2_of_ne m c main_arg0 (by decide)).trans <| (V1_of m c main_arg0 (by decide)).trans rfl
theorem W3_main_arg1 (c : Dev nD) : W3 m c (Proc.devRef .tc main_arg1) = m ((c : Thread nD τ).loc main_arg1) :=
  (W3_of_ne m c main_arg1 (by decide)).trans <| (W2_in m c 0 rfl).trans <| (V1_of m c main_arg1 (by decide)).trans rfl
theorem W3_main_arg2 (c : Dev nD) : W3 m c (Proc.devRef .tc main_arg2) = m ((c : Thread nD τ).loc main_arg2) :=
  (W3_of_ne m c main_arg2 (by decide)).trans <| (W2_of_ne m c main_arg2 (by decide)).trans <| (V1_of m c main_arg2 (by decide)).trans rfl
theorem W3_main_arg3 (c : Dev nD) : W3 m c (Proc.devRef .tc main_arg3) = m ((c : Thread nD τ).loc main_arg3) :=
  (W3_in m c 2 rfl).trans <| (W2_of_ne m c main_arg3 (by decide)).trans <| (V1_of m c main_arg3 (by decide)).trans rfl
theorem W3_main_arg4 (c : Dev nD) : W3 m c (Proc.devRef .tc main_arg4) = m ((c : Thread nD τ).loc main_arg4) :=
  (W3_of_ne m c main_arg4 (by decide)).trans <| (W2_of_ne m c main_arg4 (by decide)).trans <| (V1_of m c main_arg4 (by decide)).trans rfl
theorem W3_main_arg5 (c : Dev nD) : W3 m c (Proc.devRef .tc main_arg5) = m ((c : Thread nD τ).loc main_arg5) :=
  (W3_in m c 4 rfl).trans <| (W2_of_ne m c main_arg5 (by decide)).trans <| (V1_of m c main_arg5 (by decide)).trans rfl
theorem W3_main_arg6 (c : Dev nD) : W3 m c (Proc.devRef .tc main_arg6) = m ((c : Thread nD τ).loc main_arg6) :=
  (W3_of_ne m c main_arg6 (by decide)).trans <| (W2_of_ne m c main_arg6 (by decide)).trans <| (V1_of m c main_arg6 (by decide)).trans rfl
theorem W3_main_arg7 (c : Dev nD) : W3 m c (Proc.devRef .tc main_arg7) = m ((c : Thread nD τ).loc main_arg7) :=
  (W3_in m c 6 rfl).trans <| (W2_of_ne m c main_arg7 (by decide)).trans <| (V1_of m c main_arg7 (by decide)).trans rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => KFeature.dat (E1 m) c
  | ⟨1, _⟩ => fun c => KAggregate.dat (E2 m) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 between the thread states "every unscoped buffer at the host stretch's result" and "… at `W2`": its
    arrays split out of the unscoped buffers and put back at the exit contents, the generator register into the
    invariant and out, nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (KFeature.body_obligation (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun w => KFeature.A_eq (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ (A B C : sProp 𝕄), iprop(A ∗ B ∗ C) ⊢ iprop(C ∗ A) := fun A B C => by
      iintro ⟨Hp, -, Hr⟩
      isplitl [Hr]; · iexact Hr
      iexact Hp
    exact (h1 _ _ _).trans (KFeature.hin (E1 m) c)
  hout c := by
    rw [Pipeline.ownSems0_none]
    have h1 : ∀ (A C : sProp 𝕄), iprop(C ∗ A) ⊢ iprop(A ∗ BI.emp ∗ C) := fun A C => by
      iintro ⟨Hr, Hp⟩
      isplitl [Hp]; · iexact Hp
      isplitr; · iempintro
      iexact Hr
    exact (KFeature.hout (E1 m) c).trans (h1 _ _)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between "every unscoped buffer at `W2`" and "… at `W3`", the last thread state. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (KAggregate.body_obligation (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun w => KAggregate.A_eq (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ (A B C : sProp 𝕄), iprop(A ∗ B ∗ C) ⊢ iprop(C ∗ A) := fun A B C => by
      iintro ⟨Hp, -, Hr⟩
      isplitl [Hr]; · iexact Hr
      iexact Hp
    exact (h1 _ _ _).trans (KAggregate.hin (E2 m) c)
  hout c := by
    rw [Pipeline.ownSems0_none]
    have h1 : ∀ (A C : sProp 𝕄), iprop(C ∗ A) ⊢ iprop(A ∗ BI.emp ∗ C) := fun A C => by
      iintro ⟨Hr, Hp⟩
      isplitl [Hp]; · iexact Hp
      isplitr; · iempintro
      iexact Hr
    exact (KAggregate.hout (E2 m) c).trans (h1 _ _)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (V0 m)),
    .region (reg0 m),
    .region (reg1 m) ]
theorem main_run (c : Dev nD) : main (F := F) c = Pipeline.Seg.run (segs m) := (main_chain c).trans (by chain_rfl)

variable (ρ : Dev nD → PrngReg)

set_option backward.isDefEq.respectTransparency.types false in
/-- Every weakly fair execution of @main from memory `m` with zero counters terminates, nothing faulting, and in every
    final state each unscoped buffer of each TensorCore holds the last boundary's contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c)⟩) (run m ρ)

end Cert.KernelIdeal.KRun

end
-- ==== Proof.KFeatureValue.lean ====
/- The value of the feature-transform region (custom_call 0) on the extended reals: the result array,
   after all eight row blocks are written back, is the matrix product of the two input arrays; entry
   (i, j) is the sum over k of x (i, k) * w (k, j). A change of float format is the identity on the
   extended reals, and the product into a zero accumulator is the plain sum. Block t of the result is rows
   [1024 t, 1024 t + 1024); it depends on the same rows of x and on all of w. -/
import proofs.«171818_g2000203955041256_pallasbulk_1331_5_alg».proof.Proof.KFeature
import Idealize.ShloMosaic.Lib.ValueIdx
import Idealize.ShloMosaic.PureOps.Ideal.Laws
import Idealize.ShloMosaic.Lib.Pipeline.Value

set_option maxRecDepth 16384

noncomputable section

namespace Cert.KernelIdeal.KFeatureValue

open Cert.KernelIdeal.Gen
open Idealize.ShloMosaic Idealize.ShloMosaic.TcCoe Idealize.ShloMosaic.ValueIdx
open Idealize.SL Idealize.SL.Sem
open Idealize.ShloMosaic.Pipeline (Dat Cfg Window)

/-- The result array as one function of the two input arrays: the matrix product. -/
def G (x : Vec Ideal S8192x512 .f32) (w : Vec Ideal S512x256 .bf16) : Vec Ideal S8192x256 .bf16 :=
  fun i => ∑ k : Fin 512, x (ValueIdx.ix2 (i 0 : Fin 8192) k) * w (ValueIdx.ix2 k (i 1 : Fin 256))

/-- Entry (i, j) of the result: the sum over the contracted axis. -/
theorem G_apply (x : Vec Ideal S8192x512 .f32) (w : Vec Ideal S512x256 .bf16) (i : Fin 8192) (j : Fin 256) :
    G x w (ValueIdx.ix2 i j) = ∑ k : Fin 512, x (ValueIdx.ix2 i k) * w (ValueIdx.ix2 k j) := rfl

theorem hz : (![0, 0] : Fin 2 → Nat) = fun _ => 0 := funext fun a => by fin_cases a <;> rfl

/-! ## The body's payload at an index -/

/-- The dimension numbers of the block product: rows by contraction times contraction by columns. -/
local notation "D" => dot_S1024x512_S512x256_S1024x256_1_0_0_1_n_n

/-- Entry (p, q) of the block product: the sum over k of the first block at (p, k) times the second at (k, q). -/
theorem pay_apply (x0 : Vec Ideal S1024x512 .f32) (x1 : Vec Ideal S512x256 .bf16) (p : Fin 1024) (q : Fin 256) :
    k0_pay1 (F := Ideal) x0 x1 (ix2 p q) = ∑ k : Fin 512, x0 (ix2 p k) * x1 (ix2 k q) := by
  unfold k0_pay1
  rw [shapeCast_self]
  have e := Ideal.matmul_constant_zero_apply (φ₁ := .bf16) (φ₂ := .bf16) dot_S1024x512_S512x256_S1024x256_1_0_0_1_n_n none
    (truncf (F := Ideal) .bf16 (x0 : FVec Ideal S1024x512 .f32) bitsLt_bf16_f32) x1 (ix2 p q)
  refine Eq.trans e ?_
  rw [← Equiv.sum_comp (contrEquiv1 dot_S1024x512_S512x256_S1024x256_1_0_0_1_n_n 512 rfl rfl).symm]
  refine Finset.sum_congr rfl fun k _ => ?_
  have hl : DotDims.lhsIdx D (ix2 p q) ((contrEquiv1 D 512 rfl rfl).symm k) = ix2 p k := by
    funext a; apply Fin.ext
    match a with
    | ⟨0, _⟩ => rfl
    | ⟨1, _⟩ => exact (DotDims.lhsIdx_val_of_single D (cl := 1) rfl _ _).trans (contrEquiv1_symm_val D 512 rfl rfl k)
  have hr : DotDims.rhsIdx D (ix2 p q) ((contrEquiv1 D 512 rfl rfl).symm k) = ix2 k q := by
    funext a; apply Fin.ext
    match a with
    | ⟨0, _⟩ => exact (DotDims.rhsIdx_val_of_single D (cr := 0) rfl _ _).trans (contrEquiv1_symm_val D 512 rfl rfl k)
    | ⟨1, _⟩ => rfl
  rw [hl, hr]
  rfl

/-! ## The blocks -/

/-- The printed index maps, decided over the grid: the first input's row block moves with the output's, every
    other block index is zero, and the output's row block index stays in its range. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every row block of the result is some point's. -/
theorem idx_onto : ∀ (q0 : Fin 8), ∃ t : Fin cfg0.N, win0_2.index t = ![q0.val, 0] :=
  (by decide +kernel : ∀ (q0 : Fin 8), ∃ t : Fin grid0.N, win0_2.index t = ![q0.val, 0])

/-- What point `t` writes back is block `t` of the matrix product of the input arrays as the region finds them. -/
theorem flushed_eq (V : (c : Dev nD) → (b : Ref sig .tc) → Buf (Elt Ideal) ((c : Thread nD τ).loc b)) (c : Dev nD) (t : Fin cfg0.N) :
    (KFeature.dat (F := Ideal) V c).flushed 2 t = ((cfg0.win 2).blk t).view.read (Elt Ideal) (G (V c main_arg1) (V c main_call0_v0)) := by
  show (cfg0.win 2).cut (grid0.coords t) ((KFeature.dat (F := Ideal) V c).after 2 t) = _
  rw [KFeature.after2]
  unfold KFeature.out2
  rw [View.canon_unit_zero hz]
  simp only [View.ld_unit_zero (S := S1024x512) hz, View.ld_unit_zero (S := S512x256) hz]
  obtain ⟨e0, e1, e2, e3, e4, e5⟩ := idx_facts t
  funext j
  obtain ⟨p, q, rfl⟩ : ∃ (p : Fin 1024) (q : Fin 256), j = ix2 p q := ⟨j 0, j 1, eq_ix2 j⟩
  show k0_pay1 (F := Ideal) (KFeature.iblk V c 0 t) (KFeature.iblk V c 1 t) (ix2 p q)
    = G (V c main_arg1) (V c main_call0_v0) (((cfg0.win 2).blk t).view.emb (ix2 p q))
  refine (pay_apply (KFeature.iblk V c 0 t) (KFeature.iblk V c 1 t) p q).trans ?_
  unfold G
  refine Finset.sum_congr rfl fun k _ => ?_
  have h0 : ((cfg0.win 0).blk t).view.emb (ix2 p k) = ix2 ((((cfg0.win 2).blk t).view.emb (ix2 p q)) 0 : Fin 8192) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 512 + 1 * k.val = k.val; omega
  have h1 : ((cfg0.win 1).blk t).view.emb (ix2 k q) = ix2 k ((((cfg0.win 2).blk t).view.emb (ix2 p q)) 1 : Fin 256) := by
    funext a; apply Fin.ext
    match a with
    | ⟨0, _⟩ => show win0_1.index t (0 : Fin 2) * 512 + 1 * k.val = k.val; omega
    | ⟨1, _⟩ => show win0_1.index t (1 : Fin 2) * 256 + 1 * q.val = win0_2.index t (1 : Fin 2) * 256 + 1 * q.val; omega
  refine congrArg₂ (· * ·) ?_ ?_
  · exact congrArg (V c main_arg1) h0
  · exact congrArg (V c main_call0_v0) h1

/-- An index of the result array is in point `t`'s block iff each coordinate is in the block's range on its axis. -/
theorem mem_blk (t : Fin cfg0.N) (i : S8192x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_call0_v3).slice (win0_2.rect t)).set ↔ _
  rw [View.set_slice_whole, Rect.mem_set_unit]
  exact Iff.rfl

/-- Every index of the result array is in some written-back block: row r is in block r / 1024. -/
theorem cover (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- The result array after the region is the matrix product of the two input arrays as the region finds them. -/
theorem out_eq (V : (c : Dev nD) → (b : Ref sig .tc) → Buf (Elt Ideal) ((c : Thread nD τ).loc b)) (c : Dev nD) :
    (KFeature.dat (F := Ideal) V c).arrAt 2 cfg0.N = G (V c main_arg1) (V c main_call0_v0) :=
  (KFeature.dat (F := Ideal) V c).arrAt_eq_of_cover 2 (G (V c main_arg1) (V c main_call0_v0)) (fun t _ => flushed_eq V c t) cover

end Cert.KernelIdeal.KFeatureValue

end
-- ==== Proof.KAggregatePay.lean ====
import proofs.«171818_g2000203955041256_pallasbulk_1331_5_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-! # The aggregation kernel's two payloads at an index, at the ideal reading

Each matmul into a zero accumulator is the plain sum over the contracted axis; the format changes are the
identity; the bias rows are broadcast over the rows; the rectifier is the maximum with zero. -/

set_option maxRecDepth 16384

noncomputable section

namespace Cert.KernelIdeal.KAggregatePay

open Cert.KernelIdeal.Gen
open Idealize.ShloMosaic Idealize.ShloMosaic.ValueIdx
open scoped BigOperators

/-- A matmul of a 512x8192 by a 8192x256 operand into the zero accumulator, at an index: the plain sum over the contracted axis. -/
theorem mm_slab (x : FVec Ideal S512x8192 .bf16) (y : FVec Ideal S8192x256 .bf16) (r : Fin 512) (k : Fin 256) :
    matmul dot_S512x8192_S8192x256_S512x256_1_0_0_1_n_n none x y (constant (F := Ideal) S512x256 .f32 0x00000000#32) (ix2 r k)
      = ∑ l : Fin 8192, x (ix2 r l) * y (ix2 l k) := by
  refine (Ideal.matmul_constant_zero_apply dot_S512x8192_S8192x256_S512x256_1_0_0_1_n_n none x y (ix2 r k)).trans ?_
  rw [← Equiv.sum_comp (contrEquiv1 dot_S512x8192_S8192x256_S512x256_1_0_0_1_n_n 8192 rfl rfl).symm]
  refine Finset.sum_congr rfl fun l _ => ?_
  have hl : dot_S512x8192_S8192x256_S512x256_1_0_0_1_n_n.lhsIdx (ix2 r k) ((contrEquiv1 dot_S512x8192_S8192x256_S512x256_1_0_0_1_n_n 8192 rfl rfl).symm l) = ix2 r l := by
    funext a; apply Fin.ext
    match a with
    | ⟨0, _⟩ => rfl
    | ⟨1, _⟩ => exact (DotDims.lhsIdx_val_of_single _ (cl := (1 : Fin 2)) rfl _ _).trans (contrEquiv1_symm_val dot_S512x8192_S8192x256_S512x256_1_0_0_1_n_n 8192 rfl rfl l)
  have hr : dot_S512x8192_S8192x256_S512x256_1_0_0_1_n_n.rhsIdx (ix2 r k) ((contrEquiv1 dot_S512x8192_S8192x256_S512x256_1_0_0_1_n_n 8192 rfl rfl).symm l) = ix2 l k := by
    funext a; apply Fin.ext
    match a with
    | ⟨0, _⟩ => exact (DotDims.rhsIdx_val_of_single _ (cr := (0 : Fin 2)) rfl _ _).trans (contrEquiv1_symm_val dot_S512x8192_S8192x256_S512x256_1_0_0_1_n_n 8192 rfl rfl l)
    | ⟨1, _⟩ => rfl
  rw [hl, hr]

/-- A matmul of a 512x256 by a 256x256 operand into the zero accumulator, at an index: the plain sum over the contracted axis. -/
theorem mm_w2 (x : FVec Ideal S512x256 .bf16) (y : FVec Ideal S256x256 .bf16) (r : Fin 512) (k : Fin 256) :
    matmul dot_S512x256_S256x256_S512x256_1_0_0_1_n_n none x y (constant (F := Ideal) S512x256 .f32 0x00000000#32) (ix2 r k)
      = ∑ l : Fin 256, x (ix2 r l) * y (ix2 l k) := by
  refine (Ideal.matmul_constant_zero_apply dot_S512x256_S256x256_S512x256_1_0_0_1_n_n none x y (ix2 r k)).trans ?_
  rw [← Equiv.sum_comp (contrEquiv1 dot_S512x256_S256x256_S512x256_1_0_0_1_n_n 256 rfl rfl).symm]
  refine Finset.sum_congr rfl fun l _ => ?_
  have hl : dot_S512x256_S256x256_S512x256_1_0_0_1_n_n.lhsIdx (ix2 r k) ((contrEquiv1 dot_S512x256_S256x256_S512x256_1_0_0_1_n_n 256 rfl rfl).symm l) = ix2 r l := by
    funext a; apply Fin.ext
    match a with
    | ⟨0, _⟩ => rfl
    | ⟨1, _⟩ => exact (DotDims.lhsIdx_val_of_single _ (cl := (1 : Fin 2)) rfl _ _).trans (contrEquiv1_symm_val dot_S512x256_S256x256_S512x256_1_0_0_1_n_n 256 rfl rfl l)
  have hr : dot_S512x256_S256x256_S512x256_1_0_0_1_n_n.rhsIdx (ix2 r k) ((contrEquiv1 dot_S512x256_S256x256_S512x256_1_0_0_1_n_n 256 rfl rfl).symm l) = ix2 l k := by
    funext a; apply Fin.ext
    match a with
    | ⟨0, _⟩ => exact (DotDims.rhsIdx_val_of_single _ (cr := (0 : Fin 2)) rfl _ _).trans (contrEquiv1_symm_val dot_S512x256_S256x256_S512x256_1_0_0_1_n_n 256 rfl rfl l)
    | ⟨1, _⟩ => rfl
  rw [hl, hr]

/-- A matmul of a 512x256 by a 256x128 operand into the zero accumulator, at an index: the plain sum over the contracted axis. -/
theorem mm_fc (x : FVec Ideal S512x256 .bf16) (y : FVec Ideal S256x128 .bf16) (r : Fin 512) (k : Fin 128) :
    matmul dot_S512x256_S256x128_S512x128_1_0_0_1_n_n none x y (constant (F := Ideal) S512x128 .f32 0x00000000#32) (ix2 r k)
      = ∑ l : Fin 256, x (ix2 r l) * y (ix2 l k) := by
  refine (Ideal.matmul_constant_zero_apply dot_S512x256_S256x128_S512x128_1_0_0_1_n_n none x y (ix2 r k)).trans ?_
  rw [← Equiv.sum_comp (contrEquiv1 dot_S512x256_S256x128_S512x128_1_0_0_1_n_n 256 rfl rfl).symm]
  refine Finset.sum_congr rfl fun l _ => ?_
  have hl : dot_S512x256_S256x128_S512x128_1_0_0_1_n_n.lhsIdx (ix2 r k) ((contrEquiv1 dot_S512x256_S256x128_S512x128_1_0_0_1_n_n 256 rfl rfl).symm l) = ix2 r l := by
    funext a; apply Fin.ext
    match a with
    | ⟨0, _⟩ => rfl
    | ⟨1, _⟩ => exact (DotDims.lhsIdx_val_of_single _ (cl := (1 : Fin 2)) rfl _ _).trans (contrEquiv1_symm_val dot_S512x256_S256x128_S512x128_1_0_0_1_n_n 256 rfl rfl l)
  have hr : dot_S512x256_S256x128_S512x128_1_0_0_1_n_n.rhsIdx (ix2 r k) ((contrEquiv1 dot_S512x256_S256x128_S512x128_1_0_0_1_n_n 256 rfl rfl).symm l) = ix2 l k := by
    funext a; apply Fin.ext
    match a with
    | ⟨0, _⟩ => exact (DotDims.rhsIdx_val_of_single _ (cr := (0 : Fin 2)) rfl _ _).trans (contrEquiv1_symm_val dot_S512x256_S256x128_S512x128_1_0_0_1_n_n 256 rfl rfl l)
    | ⟨1, _⟩ => rfl
  rw [hl, hr]

/-- The phase-0 payload at an index: the rectified aggregate of the slab's row against Z1, plus the bias row,
    contracted with W2. -/
theorem pay1_apply (x0 : Vec Ideal S512x8192 .bf16) (x1 : Vec Ideal S8192x256 .bf16) (x2 : Vec Ideal S1x256 .f32) (x3 : Vec Ideal S256x256 .bf16)
    (r : Fin 512) (j : Fin 256) :
    k1_pay1 x0 x1 x2 x3 (ix2 r j)
      = ∑ k : Fin 256, max ((∑ l : Fin 8192, x0 (ix2 r l) * x1 (ix2 l k)) + x2 (ix2 0 k)) 0 * x3 (ix2 k j) := by
  unfold k1_pay1
  simp only [shapeCast_self]
  rw [truncf_apply]
  refine (mm_w2 _ x3 r j).trans ?_
  refine Finset.sum_congr rfl fun k _ => ?_
  refine congrArg (· * x3 (ix2 k j)) ?_
  rw [truncf_apply, maximumf_apply, addf_apply, broadcast_apply, mm_slab x0 x1 r k, broadcastTo_1b_ab_apply]
  exact congrArg (max _) Ideal.ofBits_zero_f32

/-- The phase-1 payload at an index: the aggregate of the slab's row against the intermediate, plus the bias
    row, contracted with Wfc, plus the last bias row. -/
theorem pay2_apply (x0 : Vec Ideal S512x8192 .bf16) (xs : Vec Ideal S8192x256 .bf16) (x4 : Vec Ideal S1x256 .f32) (x5 : Vec Ideal S256x128 .bf16)
    (x6 : Vec Ideal S1x128 .f32) (r : Fin 512) (j : Fin 128) :
    k1_pay2 x0 xs x4 x5 x6 (ix2 r j)
      = (∑ k : Fin 256, ((∑ l : Fin 8192, x0 (ix2 r l) * xs (ix2 l k)) + x4 (ix2 0 k)) * x5 (ix2 k j)) + x6 (ix2 0 j) := by
  unfold k1_pay2
  simp only [shapeCast_self]
  rw [addf_apply, broadcastTo_1b_ab_apply]
  refine congrArg (· + x6 (ix2 0 j)) ?_
  refine (mm_fc _ x5 r j).trans ?_
  refine Finset.sum_congr rfl fun k _ => ?_
  refine congrArg (· * x5 (ix2 k j)) ?_
  rw [truncf_apply, addf_apply, mm_slab x0 xs r k, broadcastTo_1b_ab_apply]

end Cert.KernelIdeal.KAggregatePay

end
-- ==== Proof.KAggregateValue.lean ====
import proofs.«171818_g2000203955041256_pallasbulk_1331_5_alg».proof.Proof.KAggregate
import proofs.«171818_g2000203955041256_pallasbulk_1331_5_alg».proof.Proof.KAggregatePay
import Idealize.ShloMosaic.Lib.ValueIdx
import Idealize.ShloMosaic.Lib.Pipeline.Value

/-! # The aggregation region's value at the ideal reading

The intermediate Z2 = relu(A · Z1 + b1) · W2 and the region's result (A · Z2 + b2) · Wfc + bfc as whole-array
functions of the region's input arrays, and the result array after the region. -/

set_option maxRecDepth 16384

noncomputable section

namespace Cert.KernelIdeal.KAggregateValue

open Cert.KernelIdeal.Gen
open Cert.KernelIdeal.KAggregate (iblk SG ptA tileOf rowIn out7 dat)
open Cert.KernelIdeal.KAggregatePay (pay1_apply pay2_apply)
open Idealize.ShloMosaic Idealize.ShloMosaic.TcCoe Idealize.ShloMosaic.ValueIdx
open Idealize.SL Idealize.SL.Sem
open Idealize.ShloMosaic.Pipeline (Dat)
open scoped BigOperators

/-- The intermediate: row i, column j is the sum over k of relu((A · Z1)(i, k) + b1(k)) * W2(k, j). -/
def Z2 (a : Vec Ideal S8192x8192 .bf16) (z1 : Vec Ideal S8192x256 .bf16) (b1 : Vec Ideal S1x256 .f32) (w2 : Vec Ideal S256x256 .bf16) :
    Vec Ideal S8192x256 .bf16 := fun y =>
  ∑ k : Fin 256, max ((∑ l : Fin 8192, a (ix2 (y 0) l) * z1 (ix2 l k)) + b1 (ix2 0 k)) 0 * w2 (ix2 k (y 1))

theorem Z2_apply (a : Vec Ideal S8192x8192 .bf16) (z1 : Vec Ideal S8192x256 .bf16) (b1 : Vec Ideal S1x256 .f32) (w2 : Vec Ideal S256x256 .bf16)
    (i : Fin 8192) (j : Fin 256) :
    Z2 a z1 b1 w2 (ix2 i j) = ∑ k : Fin 256, max ((∑ l : Fin 8192, a (ix2 i l) * z1 (ix2 l k)) + b1 (ix2 0 k)) 0 * w2 (ix2 k j) := rfl

/-- The region's result: row i, column j is the sum over k of ((A · Z2)(i, k) + b2(k)) * Wfc(k, j), plus bfc(j). -/
def G (a : Vec Ideal S8192x8192 .bf16) (z1 : Vec Ideal S8192x256 .bf16) (b1 : Vec Ideal S1x256 .f32) (w2 : Vec Ideal S256x256 .bf16)
    (b2 : Vec Ideal S1x256 .f32) (wfc : Vec Ideal S256x128 .bf16) (bfc : Vec Ideal S1x128 .f32) : Vec Ideal S8192x128 .f32 := fun y =>
  (∑ k : Fin 256, ((∑ l : Fin 8192, a (ix2 (y 0) l) * Z2 a z1 b1 w2 (ix2 l k)) + b2 (ix2 0 k)) * wfc (ix2 k (y 1))) + bfc (ix2 0 (y 1))

theorem G_apply (a : Vec Ideal S8192x8192 .bf16) (z1 : Vec Ideal S8192x256 .bf16) (b1 : Vec Ideal S1x256 .f32) (w2 : Vec Ideal S256x256 .bf16)
    (b2 : Vec Ideal S1x256 .f32) (wfc : Vec Ideal S256x128 .bf16) (bfc : Vec Ideal S1x128 .f32) (i : Fin 8192) (j : Fin 128) :
    G a z1 b1 w2 b2 wfc bfc (ix2 i j)
      = (∑ k : Fin 256, ((∑ l : Fin 8192, a (ix2 i l) * Z2 a z1 b1 w2 (ix2 l k)) + b2 (ix2 0 k)) * wfc (ix2 k j)) + bfc (ix2 0 j) := rfl

variable (V : (c : Dev nD) → (b : Ref sig .tc) → Buf (Elt Ideal) ((c : Thread nD τ).loc b))

/-! ## The printed index maps over the grid, and which points write the result back -/

/-- Window 0's block index is the row tile; windows 1..6 are whole arrays; the result's block index in phase 1
    is the row tile. -/
theorem idx_facts : ∀ t : Fin cfg1.N, win1_0.index t (0 : Fin 2) = t.val % 16
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ (16 ≤ t.val → win1_7.index t (0 : Fin 2) = t.val % 16)
    ∧ win1_7.index t (1 : Fin 2) = 0 :=
  (by decide +kernel : ∀ t : Fin grid1.N, _)

/-- The result is written back exactly at the points of phase 1. -/
theorem flush7 : ∀ t : Fin cfg1.N, (cfg1.win 7).flush t = true ↔ 16 ≤ t.val :=
  (by decide +kernel : ∀ t : Fin grid1.N, win1_7.flush t = true ↔ 16 ≤ t.val)

/-! ## The windows' blocks read off the arrays -/

/-- The row slab of window 0 at point t is rows [512 (t % 16), 512 (t % 16) + 512) of A. -/
theorem blk0_apply (c : Dev nD) (t : Fin cfg1.N) (r : Fin 512) (l : Fin 8192) (i : Fin 8192) (hi : i.val = 512 * (t.val % 16) + r.val) :
    iblk V c 0 t (ix2 r l) = V c main_arg0 (ix2 i l) := by
  show V c main_arg0 (((cfg1.win 0).blk t).view.emb (ix2 r l)) = _
  refine congrArg (V c main_arg0) (funext fun a => Fin.ext ?_)
  have e0 := (idx_facts t).1
  have e1 := (idx_facts t).2.1
  match a with
  | ⟨0, _⟩ => show win1_0.index t (0 : Fin 2) * 512 + 1 * r.val = i.val; rw [e0, hi]; omega
  | ⟨1, _⟩ => show win1_0.index t (1 : Fin 2) * 8192 + 1 * l.val = l.val; rw [e1]; omega

/-- Window 1's block is its whole array. -/
theorem blk1_eq (c : Dev nD) (t : Fin cfg1.N) : iblk V c 1 t = V c main_call0_v3 := by
  funext j
  show V c main_call0_v3 (((cfg1.win 1).blk t).view.emb j) = V c main_call0_v3 j
  refine congrArg (V c main_call0_v3) (funext fun a => Fin.ext ?_)
  have e0 := (idx_facts t).2.2.1
  have e1 := (idx_facts t).2.2.2.1
  match a with
  | ⟨0, _⟩ => show win1_1.index t (0 : Fin 2) * 8192 + 1 * (j 0).val = (j 0).val; rw [e0]; omega
  | ⟨1, _⟩ => show win1_1.index t (1 : Fin 2) * 256 + 1 * (j 1).val = (j 1).val; rw [e1]; omega

/-- Window 2's block is its whole array. -/
theorem blk2_eq (c : Dev nD) (t : Fin cfg1.N) : iblk V c 2 t = V c main_arg3 := by
  funext j
  show V c main_arg3 (((cfg1.win 2).blk t).view.emb j) = V c main_arg3 j
  refine congrArg (V c main_arg3) (funext fun a => Fin.ext ?_)
  have e0 := (idx_facts t).2.2.2.2.1
  have e1 := (idx_facts t).2.2.2.2.2.1
  match a with
  | ⟨0, _⟩ => show win1_2.index t (0 : Fin 2) * 1 + 1 * (j 0).val = (j 0).val; rw [e0]; omega
  | ⟨1, _⟩ => show win1_2.index t (1 : Fin 2) * 256 + 1 * (j 1).val = (j 1).val; rw [e1]; omega

/-- Window 3's block is its whole array. -/
theorem blk3_eq (c : Dev nD) (t : Fin cfg1.N) : iblk V c 3 t = V c main_call0_v1 := by
  funext j
  show V c main_call0_v1 (((cfg1.win 3).blk t).view.emb j) = V c main_call0_v1 j
  refine congrArg (V c main_call0_v1) (funext fun a => Fin.ext ?_)
  have e0 := (idx_facts t).2.2.2.2.2.2.1
  have e1 := (idx_facts t).2.2.2.2.2.2.2.1
  match a with
  | ⟨0, _⟩ => show win1_3.index t (0 : Fin 2) * 256 + 1 * (j 0).val = (j 0).val; rw [e0]; omega
  | ⟨1, _⟩ => show win1_3.index t (1 : Fin 2) * 256 + 1 * (j 1).val = (j 1).val; rw [e1]; omega

/-- Window 4's block is its whole array. -/
theorem blk4_eq (c : Dev nD) (t : Fin cfg1.N) : iblk V c 4 t = V c main_arg5 := by
  funext j
  show V c main_arg5 (((cfg1.win 4).blk t).view.emb j) = V c main_arg5 j
  refine congrArg (V c main_arg5) (funext fun a => Fin.ext ?_)
  have e0 := (idx_facts t).2.2.2.2.2.2.2.2.1
  have e1 := (idx_facts t).2.2.2.2.2.2.2.2.2.1
  match a with
  | ⟨0, _⟩ => show win1_4.index t (0 : Fin 2) * 1 + 1 * (j 0).val = (j 0).val; rw [e0]; omega
  | ⟨1, _⟩ => show win1_4.index t (1 : Fin 2) * 256 + 1 * (j 1).val = (j 1).val; rw [e1]; omega

/-- Window 5's block is its whole array. -/
theorem blk5_eq (c : Dev nD) (t : Fin cfg1.N) : iblk V c 5 t = V c main_call0_v2 := by
  funext j
  show V c main_call0_v2 (((cfg1.win 5).blk t).view.emb j) = V c main_call0_v2 j
  refine congrArg (V c main_call0_v2) (funext fun a => Fin.ext ?_)
  have e0 := (idx_facts t).2.2.2.2.2.2.2.2.2.2.1
  have e1 := (idx_facts t).2.2.2.2.2.2.2.2.2.2.2.1
  match a with
  | ⟨0, _⟩ => show win1_5.index t (0 : Fin 2) * 256 + 1 * (j 0).val = (j 0).val; rw [e0]; omega
  | ⟨1, _⟩ => show win1_5.index t (1 : Fin 2) * 128 + 1 * (j 1).val = (j 1).val; rw [e1]; omega

/-- Window 6's block is its whole array. -/
theorem blk6_eq (c : Dev nD) (t : Fin cfg1.N) : iblk V c 6 t = V c main_arg7 := by
  funext j
  show V c main_arg7 (((cfg1.win 6).blk t).view.emb j) = V c main_arg7 j
  refine congrArg (V c main_arg7) (funext fun a => Fin.ext ?_)
  have e0 := (idx_facts t).2.2.2.2.2.2.2.2.2.2.2.2.1
  have e1 := (idx_facts t).2.2.2.2.2.2.2.2.2.2.2.2.2.1
  match a with
  | ⟨0, _⟩ => show win1_6.index t (0 : Fin 2) * 1 + 1 * (j 0).val = (j 0).val; rw [e0]; omega
  | ⟨1, _⟩ => show win1_6.index t (1 : Fin 2) * 128 + 1 * (j 1).val = (j 1).val; rw [e1]; omega

/-! ## The scratch's contents are the intermediate -/

/-- The intermediate the frame names row tile by row tile (the phase-0 payload of the tile's blocks) is Z2 of the
    region's arrays. -/
theorem SG_eq (c : Dev nD) :
    SG V c = Z2 (V c main_arg0) (V c main_call0_v3) (V c main_arg3) (V c main_call0_v1) := by
  funext y
  obtain ⟨i, j, rfl⟩ : ∃ (i : Fin 8192) (j : Fin 256), y = ix2 i j := ⟨y 0, y 1, eq_ix2 y⟩
  show k1_pay1 (iblk V c 0 (ptA (tileOf i))) (iblk V c 1 (ptA (tileOf i))) (iblk V c 2 (ptA (tileOf i))) (iblk V c 3 (ptA (tileOf i)))
      (ix2 (rowIn i) j) = _
  rw [blk1_eq V c, blk2_eq V c, blk3_eq V c]
  refine (pay1_apply (iblk V c 0 (ptA (tileOf i))) (V c main_call0_v3) (V c main_arg3) (V c main_call0_v1) (rowIn i) j).trans ?_
  rw [Z2_apply]
  refine Finset.sum_congr rfl fun k _ => ?_
  refine congrArg (fun s => max (s + V c main_arg3 (ix2 0 k)) 0 * V c main_call0_v1 (ix2 k j)) ?_
  refine Finset.sum_congr rfl fun l _ => ?_
  refine congrArg (· * V c main_call0_v3 (ix2 l k)) ?_
  exact blk0_apply V c (ptA (tileOf i)) (rowIn i) l i (by
    show i.val = 512 * ((i.val / 512) % 16) + i.val % 512
    have := i.isLt; omega)

/-! ## What a phase-1 point writes back, the cover, the array -/

/-- What point t of phase 1 writes back is block t of G of the region's arrays. -/
theorem flushed_eq (c : Dev nD) (t : Fin cfg1.N) (ht : 16 ≤ t.val) :
    (dat (F := Ideal) V c).flushed 7 t = ((cfg1.win 7).blk t).view.read (Elt Ideal)
      (G (V c main_arg0) (V c main_call0_v3) (V c main_arg3) (V c main_call0_v1) (V c main_arg5) (V c main_call0_v2) (V c main_arg7)) := by
  show (cfg1.win 7).cut (grid1.coords t) ((dat (F := Ideal) V c).after 7 t) = _
  rw [KAggregate.after1_7]
  unfold KAggregate.out7
  rw [blk4_eq V c, blk5_eq V c, blk6_eq V c, SG_eq V c]
  funext y
  obtain ⟨r, q, rfl⟩ : ∃ (r : Fin 512) (q : Fin 128), y = ix2 r q := ⟨y 0, y 1, eq_ix2 y⟩
  have hN : t.val < 32 := lt_of_lt_of_eq t.isLt (show cfg1.N = 32 from N_1)
  have hrow : 512 * (t.val % 16) + r.val < 8192 := by have := r.isLt; omega
  have hemb : ((cfg1.win 7).blk t).view.emb (ix2 r q) = ix2 (⟨512 * (t.val % 16) + r.val, hrow⟩ : Fin 8192) q := by
    funext a; apply Fin.ext
    have e0 := (idx_facts t).2.2.2.2.2.2.2.2.2.2.2.2.2.2.1 ht
    have e1 := (idx_facts t).2.2.2.2.2.2.2.2.2.2.2.2.2.2.2
    match a with
    | ⟨0, _⟩ => show win1_7.index t (0 : Fin 2) * 512 + 1 * r.val = 512 * (t.val % 16) + r.val; rw [e0]; omega
    | ⟨1, _⟩ => show win1_7.index t (1 : Fin 2) * 128 + 1 * q.val = q.val; rw [e1]; omega
  show k1_pay2 (iblk V c 0 t) (Z2 (V c main_arg0) (V c main_call0_v3) (V c main_arg3) (V c main_call0_v1)) (V c main_arg5) (V c main_call0_v2) (V c main_arg7) (ix2 r q)
      = G (V c main_arg0) (V c main_call0_v3) (V c main_arg3) (V c main_call0_v1) (V c main_arg5) (V c main_call0_v2) (V c main_arg7)
          (((cfg1.win 7).blk t).view.emb (ix2 r q))
  rw [hemb, G_apply]
  refine (pay2_apply (iblk V c 0 t) _ (V c main_arg5) (V c main_call0_v2) (V c main_arg7) r q).trans ?_
  refine congrArg (· + V c main_arg7 (ix2 0 q)) ?_
  refine Finset.sum_congr rfl fun k _ => ?_
  refine congrArg (fun s => (s + V c main_arg5 (ix2 0 k)) * V c main_call0_v2 (ix2 k q)) ?_
  refine Finset.sum_congr rfl fun l _ => ?_
  refine congrArg (· * Z2 (V c main_arg0) (V c main_call0_v3) (V c main_arg3) (V c main_call0_v1) (ix2 l k)) ?_
  exact blk0_apply V c t r l ⟨512 * (t.val % 16) + r.val, hrow⟩ rfl

/-- An index of the result array is in point t's block iff each coordinate is in the block's range on its axis. -/
theorem mem_blk7 (t : Fin cfg1.N) (i : S8192x128.Idx) :
    i ∈ ((cfg1.win 7).blk t).view.set ↔ ∀ a : Fin 2, win1_7.index t a * S512x128.size a ≤ (i a).val ∧ (i a).val < win1_7.index t a * S512x128.size a + S512x128.size a := by
  show i ∈ ((View.whole main_v0).slice (win1_7.rect t)).set ↔ _
  rw [View.set_slice_whole, Rect.mem_set_unit]
  exact Iff.rfl

/-- Every row of the result is in the block of the phase-1 point of its row tile. -/
theorem cover (i : S8192x128.Idx) : ∃ t : Fin cfg1.N, (cfg1.win 7).flush t = true ∧ i ∈ ((cfg1.win 7).blk t).view.set := by
  have hi0 : (i 0).val < 8192 := (i 0).isLt
  have hi1 : (i 1).val < 128 := (i 1).isLt
  have hlt : 16 + (i 0).val / 512 < cfg1.N := lt_of_lt_of_eq (by omega) (show (32 : ℕ) = cfg1.N from N_1.symm)
  refine ⟨⟨16 + (i 0).val / 512, hlt⟩, (flush7 _).mpr (by show 16 ≤ 16 + (i 0).val / 512; omega), ?_⟩
  rw [mem_blk7]
  have e0 := (idx_facts ⟨16 + (i 0).val / 512, hlt⟩).2.2.2.2.2.2.2.2.2.2.2.2.2.2.1 (by show 16 ≤ 16 + (i 0).val / 512; omega)
  have e1 := (idx_facts ⟨16 + (i 0).val / 512, hlt⟩).2.2.2.2.2.2.2.2.2.2.2.2.2.2.2
  have e0' : win1_7.index ⟨16 + (i 0).val / 512, hlt⟩ (0 : Fin 2) = (i 0).val / 512 := by
    rw [e0]; show (16 + (i 0).val / 512) % 16 = _; omega
  intro a
  match a with
  | ⟨0, _⟩ => show win1_7.index ⟨16 + (i 0).val / 512, hlt⟩ (0 : Fin 2) * 512 ≤ (i 0).val ∧ (i 0).val < win1_7.index ⟨16 + (i 0).val / 512, hlt⟩ (0 : Fin 2) * 512 + 512; rw [e0']; omega
  | ⟨1, _⟩ => show win1_7.index ⟨16 + (i 0).val / 512, hlt⟩ (1 : Fin 2) * 128 ≤ (i 1).val ∧ (i 1).val < win1_7.index ⟨16 + (i 0).val / 512, hlt⟩ (1 : Fin 2) * 128 + 128; rw [e1]; omega

/-- The result array after the region is G of the region's input arrays as it finds them. -/
theorem out_eq (c : Dev nD) :
    (KAggregate.dat (F := Ideal) V c).arrAt 7 cfg1.N
      = G (V c main_arg0) (V c main_call0_v3) (V c main_arg3) (V c main_call0_v1) (V c main_arg5) (V c main_call0_v2) (V c main_arg7) :=
  (KAggregate.dat (F := Ideal) V c).arrAt_eq_of_cover 7 _ (fun t hf => flushed_eq V c t ((flush7 t).mp hf)) cover

end Cert.KernelIdeal.KAggregateValue

end
-- ==== Proof.KValue.lean ====
/-
  What the kernel program computes, as one function of its eight argument arrays.

  Region 1's result block comes from the adjacency matrix, Z1, the two bias rows, the two cast weight matrices and the
  output bias; Z1 is region 0's result, X·W1 over the cast W1. The host stretch only casts the three weight matrices to
  a narrower float format, which on the extended reals is the identity, and writes no argument. So the result array is
  the second aggregation of the first aggregation of X·W1, every array read straight off the launch memory.
-/
import proofs.«171818_g2000203955041256_pallasbulk_1331_5_alg».proof.Proof.KRun
import proofs.«171818_g2000203955041256_pallasbulk_1331_5_alg».proof.Proof.KFeatureValue
import proofs.«171818_g2000203955041256_pallasbulk_1331_5_alg».proof.Proof.KAggregateValue
import Idealize.ShloMosaic.Lib.StableHlo.Run

noncomputable section

namespace Cert.KernelIdeal.KValue

open Idealize.ShloMosaic Idealize.ShloMosaic.TcCoe Idealize.SL.Sem
open Cert.KernelIdeal Cert.KernelIdeal.Gen Cert.KernelIdeal.KRun

/-- The kernel's result from the adjacency matrix `a0`, the features `a1`, and the parameters W1, b1, W2, b2, Wfc, bfc:
    the second aggregation over Z2, itself the first aggregation over Z1 = X·W1. -/
def result (a0 : S8192x8192.Idx → EReal) (a1 : S8192x512.Idx → EReal) (a2 : S512x256.Idx → EReal) (a3 : S1x256.Idx → EReal)
    (a4 : S256x256.Idx → EReal) (a5 : S1x256.Idx → EReal) (a6 : S256x128.Idx → EReal) (a7 : S1x128.Idx → EReal) :
    S8192x128.Idx → EReal :=
  KAggregateValue.G a0 (KFeatureValue.G a1 a2) a3 a4 a5 a6 a7

variable (m : (ℓ : Loc nD τ sig) → Buf (Elt Ideal) ℓ)

/-! ## The host casts, read back -/

theorem cast_w1 (c : Dev nD) : (V1 (F := Ideal) m c main_call0_v0 : S512x256.Idx → EReal) = m ((c : Thread nD τ).loc main_arg2) := by
  dsimp only [V1, V0, hostOps0]; after_results; rfl
theorem cast_w2 (c : Dev nD) : (V1 (F := Ideal) m c main_call0_v1 : S256x256.Idx → EReal) = m ((c : Thread nD τ).loc main_arg4) := by
  dsimp only [V1, V0, hostOps0]; after_results; rfl
theorem cast_wfc (c : Dev nD) : (V1 (F := Ideal) m c main_call0_v2 : S256x128.Idx → EReal) = m ((c : Thread nD τ).loc main_arg6) := by
  dsimp only [V1, V0, hostOps0]; after_results; rfl

/-! ## Region 1's inputs, read back to the launch memory -/

theorem in_a0 (c : Dev nD) : (E2 (F := Ideal) m c main_arg0 : S8192x8192.Idx → EReal) = m ((c : Thread nD τ).loc main_arg0) :=
  (W2_of_ne m c main_arg0 (by decide)).trans ((V1_of m c main_arg0 (by decide)).trans rfl)
theorem in_a3 (c : Dev nD) : (E2 (F := Ideal) m c main_arg3 : S1x256.Idx → EReal) = m ((c : Thread nD τ).loc main_arg3) :=
  (W2_of_ne m c main_arg3 (by decide)).trans ((V1_of m c main_arg3 (by decide)).trans rfl)
theorem in_a5 (c : Dev nD) : (E2 (F := Ideal) m c main_arg5 : S1x256.Idx → EReal) = m ((c : Thread nD τ).loc main_arg5) :=
  (W2_of_ne m c main_arg5 (by decide)).trans ((V1_of m c main_arg5 (by decide)).trans rfl)
theorem in_a7 (c : Dev nD) : (E2 (F := Ideal) m c main_arg7 : S1x128.Idx → EReal) = m ((c : Thread nD τ).loc main_arg7) :=
  (W2_of_ne m c main_arg7 (by decide)).trans ((V1_of m c main_arg7 (by decide)).trans rfl)
theorem in_w2 (c : Dev nD) : (E2 (F := Ideal) m c main_call0_v1 : S256x256.Idx → EReal) = m ((c : Thread nD τ).loc main_arg4) :=
  (W2_of_ne m c main_call0_v1 (by decide)).trans (cast_w2 m c)
theorem in_wfc (c : Dev nD) : (E2 (F := Ideal) m c main_call0_v2 : S256x128.Idx → EReal) = m ((c : Thread nD τ).loc main_arg6) :=
  (W2_of_ne m c main_call0_v2 (by decide)).trans (cast_wfc m c)
/-- Z1 as region 1 finds it: region 0's result over X and the cast W1. -/
theorem in_z1 (c : Dev nD) : (E2 (F := Ideal) m c main_call0_v3 : S8192x256.Idx → EReal)
    = KFeatureValue.G (m ((c : Thread nD τ).loc main_arg1)) (m ((c : Thread nD τ).loc main_arg2)) := by
  refine (W2_arr m c 2).trans ((KFeatureValue.out_eq (E1 m) c).trans ?_)
  have hx : (E1 (F := Ideal) m c main_arg1 : S8192x512.Idx → EReal) = m ((c : Thread nD τ).loc main_arg1) :=
    (V1_of m c main_arg1 (by decide)).trans rfl
  rw [hx, show (E1 (F := Ideal) m c main_call0_v0 : S512x256.Idx → EReal) = m ((c : Thread nD τ).loc main_arg2) from cast_w1 m c]

/-- The result array after the run is `result` of the launch memory's argument arrays. -/
theorem final (c : Dev nD) : (W3 (F := Ideal) m c (Proc.devRef .tc main_v0) : S8192x128.Idx → EReal)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W3_arr m c 7).trans ((KAggregateValue.out_eq (E2 m) c).trans ?_)
  unfold result
  rw [in_a0 m c, in_z1 m c, in_a3 m c, in_w2 m c, in_a5 m c, in_wfc m c, in_a7 m c]

/-- The run with its result named: every weakly fair execution terminates, nothing faulting, with the result array at
    `result` of the launch memory's arguments and each argument array as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v0)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v0 (by decide))).trans (final m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c)⟩) (run m ρ)

end Cert.KernelIdeal.KValue

end
-- ==== Proof.RFeature.lean ====
/- The frame of the feature-transform region (custom_call 0) of the reference program. The contracted
   grid axis has one point, so at every grid point the body first resets its accumulator scratch to zero,
   adds the product of the two input blocks to it, and then writes the accumulator, changed to the output
   format, to the output block. The scratch is overwritten before it is read, so nothing is carried between
   points: the invariant is the class's (the scoped rest and the generator register), and the body takes
   the scratch out of the scoped rest at some contents and puts it back. -/
import proofs.«171818_g2000203955041256_pallasbulk_1331_5_alg».proof.Proof.Gen.ReferenceIdeal.Launch
import proofs.«171818_g2000203955041256_pallasbulk_1331_5_alg».proof.Proof.Gen.ReferenceIdeal.Skeleton
import proofs.«171818_g2000203955041256_pallasbulk_1331_5_alg».proof.Proof.Gen.ReferenceIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.RFeature

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (fetched at the first point only: its block index never moves) likewise. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, over the grid -/

/-- The condition of the body's first branch (reset the accumulator): the contracted coordinate is zero. -/
abbrev cond1 (i : grid0.Coords) : Prop :=
  Scalar.cmpi .ne (Scalar.extui (Scalar.cmpi .eq (BitVec.ofNat 32 (i 1).val) 0#32) : BitVec 32) 0#32 = 1#1
/-- The condition of the body's second branch (write the output block): the contracted coordinate is the last, zero. -/
abbrev cond2 (i : grid0.Coords) : Prop := k0_cond2 i = 1#1

/-- The contracted axis has one point, so the first condition holds at every grid point. -/
theorem hcond1 : ∀ t : Fin cfg0.N, cond1 (grid0.coords t) :=
  (by decide +kernel : ∀ t : Fin grid0.N, cond1 (grid0.coords t))
/-- And so does the second. -/
theorem hcond2 : ∀ t : Fin cfg0.N, cond2 (grid0.coords t) :=
  (by decide +kernel : ∀ t : Fin grid0.N, cond2 (grid0.coords t))
/-- The output window is live at every grid point: the body stores into it there. -/
theorem live2 : ∀ t : Fin cfg0.N, cfg0.idle 2 (grid0.coords t) = false := by decide +kernel

/-! ## The body's accesses -/

/-- The whole accumulator and the whole output block (one shape): the rectangle of every store of the body. -/
abbrev rAll : Rect S512x256 := Rect.unit (s := S512x256) ![0, 0] S512x256.size inb_S512x256_S512x256_0_0
/-- The whole block of the first input. -/
abbrev rX : Rect S512x512 := Rect.unit (s := S512x512) ![0, 0] S512x512.size inb_S512x512_S512x512_0_0

theorem hz : (![0, 0] : Fin 2 → Nat) = fun _ => 0 := funext fun a => by fin_cases a <;> rfl

/-- Every index of a shape is in the rectangle at zero offsets of the shape's own sizes. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- The output window's staging buffer after the body, from the two input blocks: the accumulator — the reset value
    plus the product of the two blocks — in the output format. -/
def out2 (x0 : Vec F S512x512 .bf16) (x1 : Vec F S512x256 .bf16) : Vec F S512x256 .bf16 :=
  k0_pay3 (k0_pay2 (k0_pay1 (F := F)) x0 x1)

/-- A store of the whole block covers it (the accumulator's and the output block's shape). -/
theorem coverAll {e : EltTy} (p0 : Vec F S512x256 e) (y : S512x256.Idx) :
    ∃ pc ∈ ([⟨rAll, p0⟩] : List (View.Piece (Elt F) S512x256 e)), y ∈ pc.1.set :=
  ⟨_, List.mem_singleton_self _, mem_unit_zero hz inb_S512x256_S512x256_0_0 y⟩

/-! ## The body's triple -/

set_option maxHeartbeats 1000000 in
/-- The kernel body at a grid point where both conditions hold, on whole staging memrefs and the whole scratch: the
    inputs' at read contents `x0`, `x1`, the output's and the scratch at anything; it runs to the continuation
    holding the inputs' as they were, the output's at `out2` of the inputs', and the scratch at some contents. -/
theorem sound_kernel (c : Dev nD) (E : Set ℕ) (i : grid0.Coords) (hc1 : cond1 i) (hc2 : cond2 i)
    (arg2 : Memref sig .tc .vmem S512x512 .bf16) (harg2 : arg2.IsWhole)
    (arg3 : Memref sig .tc .vmem S512x256 .bf16) (harg3 : arg3.IsWhole)
    (arg4 : Memref sig .tc .vmem S512x256 .bf16) (harg4 : arg4.IsWhole)
    (arg5 : Memref sig .tc .vmem S512x256 .f32) (harg5 : arg5.IsWhole)
    (x0 : Vec F S512x512 .bf16) (x1 : Vec F S512x256 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out2 x0 x1) ∗ (∃ d, owns (c : Thread nD τ) arg5 fullShare d)) -∗ K ⟨⟩))
      ⊢ wp frame (wpE (defs₀ (F := F)) Variants.none c none) E (cc0_feature_transform_kernel i arg2 harg2 arg3 harg3 arg4 harg4 arg5 harg5) K := by
  simp only [cc0_feature_transform_kernel_eq_skeleton]; unfold cc0_feature_transform_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (coverAll _)]
    unfold out2
    sl_unfold_words
    rw [View.canon_unit_zero hz]
    rw [View.readCov_eq_canon_ld _ _ _ (fun y => ⟨_, List.mem_cons_self, mem_unit_zero hz inb_S512x256_S512x256_0_0 y⟩)]
    rw [View.canon_cons_unit_zero hz, View.readCov_unit_zero _ hz]
    simp only [View.readAt_eq_ld, View.ld_unit_zero (S := S512x256) hz, View.ld_unit_zero (S := S512x512) hz]
  iexists _, _; isplitr
  swap; · iexact H3
  ipureintro; rfl

/-! ## The pipeline's proof data -/

/-- The proof data of the region on core `c`: the arrays as the region finds them; after the body at point
    `t` each input's buffer at its block and the output's at `out2` of the input blocks; the class's
    invariant; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = out2 (iblk V c 0 t) (iblk V c 1 t) := by dsimp only [dat]

/-- Each input's current staging buffer holds its block at every point, fetched there or not. -/
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d

/-! ## The scratch inside the class's invariant -/

/-- The scratch operand: a whole scoped buffer of the kernel's own, passed beside the windows. -/
abbrev scM : Memref sig .tc .vmem S512x256 .f32 := Memref.whole cc0_scratch0

/-- The class's invariant with the scratch as a memref owned at some contents, beside the core's other scoped
    buffers (unopened) and the generator register. -/
theorem PhiA_eq (c : Dev nD) :
    (Pipeline.ΦA spec0 c : sProp 𝕄)
      = iprop(((∃ d, owns (c : Thread nD τ) scM fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA
  rw [Pipeline.scopedRest_split_of_list spec0 c [cc0_scratch0] (by decide) (by decide)]
  simp only [bigSepL_singleton, scM, owns_whole]
  try rfl

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

/-- The body at any point: both conditions hold there, the inputs' memrefs hold their blocks, and the invariant
    hands over the scratch at some contents, so `sound_kernel` applies; the scratch goes back into the invariant
    with its contents forgotten; the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).leavesExact 0 t = owns (c : Thread nD τ) (st0_0 t) fullShare ((dat V c).after 0 t) from rfl,
    show (dat V c).leavesExact 1 t = owns (c : Thread nD τ) (st0_1 t) fullShare ((dat V c).after 1 t) from rfl,
    show (dat V c).leavesExact 2 t = owns (c : Thread nD τ) (st0_2 t) fullShare ((dat V c).after 2 t) from by
      unfold Dat.leavesExact; rw [live2 t]]
  rw [show (dat V c).Φ t.succ = (dat V c).Φ t.castSucc from rfl,
    show (dat V c).owesAt () t.succ = (dat V c).owesAt () t.castSucc from rfl,
    after0, after1, after2]
  rw [show (dat V c).Φ t.castSucc = Pipeline.ΦA spec0 c from rfl, PhiA_eq]
  iintro ⟨⟨⟨HS, HR⟩, Hg⟩, Ho, ⟨%d0, H0⟩, ⟨%d1, H1⟩, ⟨%d2, H2⟩⟩
  iapply (sound_kernel c Set.univ (grid0.coords t) (hcond1 t) (hcond2 t) _ _ _ _ _ _ _ _ (iblk V c 0 t) (iblk V c 1 t) _)
  isplitl [H0]; · iexact H0
  isplitl [H1]; · iexact H1
  isplitl [H2]; · iexists _; iexact H2
  isplitl [HS]; · iexact HS
  iintro ⟨H0, H1, H2, HS⟩
  isplitl [HS HR Hg]
  · isplitl [HS HR]
    · isplitl [HS]; · iexact HS
      iexact HR
    iexact Hg
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

/-- The invariant before the first point is the class's. -/
theorem hin (c : Dev nD) : Pipeline.ΦA spec0 c ⊢ (dat V c).Φ 0 := by
  dsimp only [dat]; exact BI.Entails.refl _

/-- The invariant after the last point is the class's. -/
theorem hout (c : Dev nD) : (dat V c).Φ (Fin.last cfg0.N) ⊢ Pipeline.ΦA spec0 c := by
  dsimp only [dat]; exact BI.Entails.refl _

end Cert.ReferenceIdeal.RFeature

end
-- ==== Proof.RAggregate1Runs.lean ====
/-
  Region 1 of the reference program (the aggregation kernel on the grid (16, 4)): what the three control cases of
  its body share. Point t has row tile t / 4 and contraction tile t % 4; the reset runs where t % 4 = 0, the epilogue
  where t % 4 = 3. Each input window's buffer holds its block at every point; the result window is idle off the
  epilogue's points; the f32 accumulator is the one scoped buffer the kernel is handed beside its windows.
-/
import proofs.«171818_g2000203955041256_pallasbulk_1331_5_alg».proof.Proof.Gen.ReferenceIdeal.Launch
import proofs.«171818_g2000203955041256_pallasbulk_1331_5_alg».proof.Proof.Gen.ReferenceIdeal.Skeleton
import proofs.«171818_g2000203955041256_pallasbulk_1331_5_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.RAggregate1

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an input the body
    only reads, uncut and never idle. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: an input the body
    only reads, uncut and never idle. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: an input the body
    only reads, uncut and never idle. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: an input the body
    only reads, uncut and never idle. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: an input the body
    only reads, uncut and never idle. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- The reset's condition (contraction tile 0), from the grid coordinates. -/
abbrev cond0 (i : grid1.Coords) : Prop := (Scalar.cmpi .ne (Scalar.extui (Scalar.cmpi .eq (BitVec.ofNat 32 (i 1).val) 0#32)) 0#32) = 1#1
/-- It holds at the points ≡ 0 (mod 4). -/
theorem hcond0 : ∀ t : Fin cfg1.N, cond0 (grid1.coords t) ↔ t.val % 4 = 0 :=
  (by decide +kernel : ∀ t : Fin grid1.N, cond0 (grid1.coords t) ↔ t.val % 4 = 0)

/-- The epilogue's condition (contraction tile 3). -/
abbrev cond1 (i : grid1.Coords) : Prop := k1_cond2 i = 1#1
/-- It holds at the points ≡ 3 (mod 4). -/
theorem hcond1 : ∀ t : Fin cfg1.N, cond1 (grid1.coords t) ↔ t.val % 4 = 3 :=
  (by decide +kernel : ∀ t : Fin grid1.N, cond1 (grid1.coords t) ↔ t.val % 4 = 3)

/-! ## Where the windows are idle -/
theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
theorem liveAt_4 : ∀ t : Fin cfg1.N, cfg1.idle 4 (grid1.coords t) = false := by decide +kernel
/-- Off the epilogue's points the result window is idle and not written back. -/
theorem idleAt_5 : ∀ t : Fin cfg1.N, ¬cond1 (grid1.coords t) → cfg1.idle 5 (grid1.coords t) = true := by decide +kernel
theorem noFlush_5 : ∀ t : Fin cfg1.N, ¬cond1 (grid1.coords t) → (cfg1.win 5).flush t = false := by decide +kernel
/-- At the epilogue's points it is live. -/
theorem liveAt_5 : ∀ t : Fin cfg1.N, cond1 (grid1.coords t) → cfg1.idle 5 (grid1.coords t) = false := by decide +kernel

/-! ## The memrefs the body is called with -/

/-- One staging buffer of the result window, through which its contents are stated. -/
abbrev VO : View sig .tc .vmem S512x256 .bf16 := (Memref.whole cc1_stg5_0 : Memref sig .tc .vmem S512x256 .bf16).view
abbrev ms_0 (t : Fin cfg1.N) : Memref sig .tc .vmem S512x2048 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S8192x256 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x256 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S256x256 .bf16 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1x256 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S512x256 .bf16 := win1_5.stage (cfg1.slots t 5)
abbrev hs_5 (t : Fin cfg1.N) : (ms_5 t).IsWhole := hstage1_5 ((cfg1.slots t 5).cast nbuf1_5)
/-- The accumulator: a whole scoped buffer of the kernel's own, passed beside the windows and carried between points. -/
abbrev scM : Memref sig .tc .vmem S512x256 .f32 := Memref.whole cc1_scratch0
abbrev VS : View sig .tc .vmem S512x256 .f32 := (scM).view

/-! ## The invariant's scoped rest, with the accumulator taken out -/

/-- The core's scoped buffers that are neither a staging buffer of this region nor its accumulator, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f))

/-- The region's class invariant is: the accumulator at some contents, the other scoped buffers, the generator register. -/
theorem PhiA_eq (c : Dev nD) :
    (Pipeline.ΦA spec1 c : sProp 𝕄)
      = iprop(((∃ d, owns (c : Thread nD τ) scM fullShare d) ∗ others (F := F) c) ∗ (∃ r, prngReg c r)) := by
  unfold Pipeline.ΦA; rw [scopedRest1_eq]; simp only [scM, owns_whole]
  refine congrArg (fun X : sProp 𝕄 => iprop(X ∗ (∃ r, prngReg c r))) ?_
  unfold others
  have h₁ : (iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f)) : sProp 𝕄)
      ⊢ iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f)) := by
    iintro ⟨H0, H1, H2, H3, H4, H5, H6, H7, H8, H9, H10, H11, H12, H13, H14, H15⟩
    iframe
  have h₂ : (iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f)) : sProp 𝕄)
      ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f)) := by
    iintro ⟨H6, H0, H1, H2, H3, H4, H5, H7, H8, H9, H10, H11, H12, H13, H14, H15⟩
    iframe
  exact BI.equiv_iff.mp ⟨h₁, h₂⟩

end Cert.ReferenceIdeal.RAggregate1

end
-- ==== Proof.RAggregate1RunA.lean ====
/-
  Region 1 of the reference program, the body's triple in the reset's case (contraction tile 0): the accumulator, at anything, is stored the zero block and then the zero block plus the tile product; the result window's buffer is handed back untouched. The stores' pieces, last first, are the witness the run finds.
-/
import proofs.«171818_g2000203955041256_pallasbulk_1331_5_alg».proof.Proof.RAggregate1Runs

set_option maxRecDepth 16384

noncomputable section

namespace Cert.ReferenceIdeal.RAggregate1

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body on whole memrefs, the inputs' at their contents, runs to the continuation holding the inputs' as they were
    and each stored buffer with its pieces written. -/
noncomputable def kernelRun_A (c : Dev nD) (i : grid1.Coords) (arg2 : Memref sig .tc .vmem S512x2048 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S512x256 .bf16) (harg7 : arg7.IsWhole) (arg8 : Memref sig .tc .vmem S512x256 .f32) (harg8 : arg8.IsWhole) (hc0 : cond0 i) (hc1 : ¬cond1 i)
    (x0 : Vec F S512x2048 .bf16) (x1 : Vec F S8192x256 .bf16) (x2 : Vec F S1x256 .f32) (x3 : Vec F S256x256 .bf16) (x4 : Vec F S1x256 .f32) :
    Σ' (L5 : List (View.Piece (Elt F) S512x256 .bf16)), { LS : List (View.Piece (Elt F) S512x256 .f32) //
      ∀ (xi5 : Vec F S512x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1_aggregate_epilogue_kernel i arg2 harg2 arg3 harg3 arg4 harg4 arg5 harg5 arg6 harg6 arg7 harg7 arg8 harg8) K } := by
  refine ⟨[], ?_, fun xi5 E K => ?run⟩
  case run =>
    simp only [cc1_aggregate_epilogue_kernel_eq_skeleton]; unfold cc1_aggregate_epilogue_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.ReferenceIdeal.RAggregate1

end
-- ==== Proof.RAggregate1RunB.lean ====
/-
  Region 1 of the reference program, the body's triple in the middle case (contraction tiles 1, 2): the accumulator, at what the point before left, is stored itself plus the tile product; the result window's buffer is handed back untouched. The stores' pieces, last first, are the witness the run finds.
-/
import proofs.«171818_g2000203955041256_pallasbulk_1331_5_alg».proof.Proof.RAggregate1RunA

set_option maxRecDepth 16384

noncomputable section

namespace Cert.ReferenceIdeal.RAggregate1

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body on whole memrefs, the inputs' at their contents, runs to the continuation holding the inputs' as they were
    and each stored buffer with its pieces written. -/
noncomputable def kernelRun_B (c : Dev nD) (i : grid1.Coords) (arg2 : Memref sig .tc .vmem S512x2048 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S512x256 .bf16) (harg7 : arg7.IsWhole) (arg8 : Memref sig .tc .vmem S512x256 .f32) (harg8 : arg8.IsWhole) (hc0 : ¬cond0 i) (hc1 : ¬cond1 i)
    (x0 : Vec F S512x2048 .bf16) (x1 : Vec F S8192x256 .bf16) (x2 : Vec F S1x256 .f32) (x3 : Vec F S256x256 .bf16) (x4 : Vec F S1x256 .f32) (xs : Vec F S512x256 .f32) :
    Σ' (L5 : List (View.Piece (Elt F) S512x256 .bf16)), { LS : List (View.Piece (Elt F) S512x256 .f32) //
      ∀ (xi5 : Vec F S512x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1_aggregate_epilogue_kernel i arg2 harg2 arg3 harg3 arg4 harg4 arg5 harg5 arg6 harg6 arg7 harg7 arg8 harg8) K } := by
  refine ⟨[], ?_, fun xi5 E K => ?run⟩
  case run =>
    simp only [cc1_aggregate_epilogue_kernel_eq_skeleton]; unfold cc1_aggregate_epilogue_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.ReferenceIdeal.RAggregate1

end
-- ==== Proof.RAggregate1RunC.lean ====
/-
  Region 1 of the reference program, the body's triple in the epilogue's case (contraction tile 3): the accumulator is stored itself plus the tile product, then the result window's buffer is stored the epilogue of the accumulator, the bias, the weight and the next bias. The stores' pieces, last first, are the witness the run finds.
-/
import proofs.«171818_g2000203955041256_pallasbulk_1331_5_alg».proof.Proof.RAggregate1RunB

set_option maxRecDepth 16384

noncomputable section

namespace Cert.ReferenceIdeal.RAggregate1

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body on whole memrefs, the inputs' at their contents, runs to the continuation holding the inputs' as they were
    and each stored buffer with its pieces written. -/
noncomputable def kernelRun_C (c : Dev nD) (i : grid1.Coords) (arg2 : Memref sig .tc .vmem S512x2048 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S512x256 .bf16) (harg7 : arg7.IsWhole) (arg8 : Memref sig .tc .vmem S512x256 .f32) (harg8 : arg8.IsWhole) (hc0 : ¬cond0 i) (hc1 : cond1 i)
    (x0 : Vec F S512x2048 .bf16) (x1 : Vec F S8192x256 .bf16) (x2 : Vec F S1x256 .f32) (x3 : Vec F S256x256 .bf16) (x4 : Vec F S1x256 .f32) (xs : Vec F S512x256 .f32) :
    Σ' (L5 : List (View.Piece (Elt F) S512x256 .bf16)), { LS : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc1_aggregate_epilogue_kernel i arg2 harg2 arg3 harg3 arg4 harg4 arg5 harg5 arg6 harg6 arg7 harg7 arg8 harg8) K } := by
  refine ⟨?_, ?_, fun E K => ?run⟩
  case run =>
    simp only [cc1_aggregate_epilogue_kernel_eq_skeleton]; unfold cc1_aggregate_epilogue_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.ReferenceIdeal.RAggregate1

end
-- ==== Proof.RAggregate1.lean ====
/-
  Region 1 of the reference program: the aggregation kernel on the grid (16, 4). Point t has row tile t / 4 and
  contraction tile t % 4. An f32 accumulator of one row tile is carried between the four points of a row tile:
  reset to zero at contraction tile 0, increased by (A tile) · (Z slice) at every point, and at contraction tile 3
  the epilogue stores the row tile's result block. This module states what the accumulator and the result window's
  buffer hold after each point (by recursion on the point, over the pieces each case's run stores), the region's
  proof data at a parameter V (the buffer contents when the region is entered), the body obligation, and the
  invariant's two ends.
-/
import proofs.«171818_g2000203955041256_pallasbulk_1331_5_alg».proof.Proof.RAggregate1RunC

set_option maxRecDepth 16384

noncomputable section

namespace Cert.ReferenceIdeal.RAggregate1

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the result window's buffer, at a point -/

/-- The reset's case at point `t`: the accumulator's pieces cover it. -/
theorem scoverA (c : Dev nD) (t : Fin cfg1.N) (hc0 : cond0 (grid1.coords t)) (hc1 : ¬cond1 (grid1.coords t)) (y : S512x256.Idx) :
    ∃ pc ∈ (kernelRun_A c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t)).2.1, y ∈ pc.1.set :=
  View.cover_of_tiledL (kernelRun_A c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t)).2.1 S512x256.size (by sl_kernel_rfl) y
/-- What it leaves there: the pieces read back. -/
def soutA (c : Dev nD) (t : Fin cfg1.N) (hc0 : cond0 (grid1.coords t)) (hc1 : ¬cond1 (grid1.coords t)) : Vec F S512x256 .f32 :=
  VS.read (Elt F) (VS.writes (Elt F) VS.junk (kernelRun_A c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t)).2.1)

/-- The middle case at point `t`, the accumulator found at `xs`. -/
theorem scoverB (c : Dev nD) (t : Fin cfg1.N) (hc0 : ¬cond0 (grid1.coords t)) (hc1 : ¬cond1 (grid1.coords t)) (xs : Vec F S512x256 .f32) (y : S512x256.Idx) :
    ∃ pc ∈ (kernelRun_B c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).2.1, y ∈ pc.1.set :=
  View.cover_of_tiledL (kernelRun_B c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).2.1 S512x256.size (by sl_kernel_rfl) y
def soutB (c : Dev nD) (t : Fin cfg1.N) (hc0 : ¬cond0 (grid1.coords t)) (hc1 : ¬cond1 (grid1.coords t)) (xs : Vec F S512x256 .f32) : Vec F S512x256 .f32 :=
  VS.read (Elt F) (VS.writes (Elt F) VS.junk (kernelRun_B c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).2.1)

/-- The epilogue's case at point `t`, the accumulator found at `xs`. -/
theorem scoverC (c : Dev nD) (t : Fin cfg1.N) (hc0 : ¬cond0 (grid1.coords t)) (hc1 : cond1 (grid1.coords t)) (xs : Vec F S512x256 .f32) (y : S512x256.Idx) :
    ∃ pc ∈ (kernelRun_C c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).2.1, y ∈ pc.1.set :=
  View.cover_of_tiledL (kernelRun_C c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).2.1 S512x256.size (by sl_kernel_rfl) y
def soutC (c : Dev nD) (t : Fin cfg1.N) (hc0 : ¬cond0 (grid1.coords t)) (hc1 : cond1 (grid1.coords t)) (xs : Vec F S512x256 .f32) : Vec F S512x256 .f32 :=
  VS.read (Elt F) (VS.writes (Elt F) VS.junk (kernelRun_C c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).2.1)
/-- The result window's pieces in the epilogue's case cover its block. -/
theorem coverC (c : Dev nD) (t : Fin cfg1.N) (hc0 : ¬cond0 (grid1.coords t)) (hc1 : cond1 (grid1.coords t)) (xs : Vec F S512x256 .f32) (y : S512x256.Idx) :
    ∃ pc ∈ (kernelRun_C c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).1, y ∈ pc.1.set :=
  View.cover_of_tiledL (kernelRun_C c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).1 S512x256.size (by sl_kernel_rfl) y
def outC (c : Dev nD) (t : Fin cfg1.N) (hc0 : ¬cond0 (grid1.coords t)) (hc1 : cond1 (grid1.coords t)) (xs : Vec F S512x256 .f32) : Vec F S512x256 .bf16 :=
  VO.read (Elt F) (VO.writes (Elt F) VO.junk (kernelRun_C c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).1)

/-! ## The accumulator after each point -/

/-- The accumulator after the body at position `n`: the case the closed forms select at `n`, over what the point
    before left (the reset's case reads nothing of it). -/
def acc (c : Dev nD) : (n : ℕ) → n < cfg1.N → Vec F S512x256 .f32
  | 0, hn => soutA V c ⟨0, hn⟩ ((hcond0 ⟨0, hn⟩).mpr (Nat.zero_mod _)) (fun h => (fun h => by (try dsimp only at h); omega) ((hcond1 ⟨0, hn⟩).mp h))
  | n + 1, hn =>
    if h0 : (n + 1) % 4 = 0 then
      soutA V c ⟨n + 1, hn⟩ ((hcond0 ⟨n + 1, hn⟩).mpr h0) (fun h => (fun h => by (try dsimp only at h); omega) ((hcond1 ⟨n + 1, hn⟩).mp h))
    else
      if h1 : (n + 1) % 4 = 3 then
        soutC V c ⟨n + 1, hn⟩ (fun h => h0 ((hcond0 ⟨n + 1, hn⟩).mp h)) ((hcond1 ⟨n + 1, hn⟩).mpr h1) (acc c n (Nat.lt_of_succ_lt hn))
      else
        soutB V c ⟨n + 1, hn⟩ (fun h => h0 ((hcond0 ⟨n + 1, hn⟩).mp h)) (fun h => h1 ((hcond1 ⟨n + 1, hn⟩).mp h)) (acc c n (Nat.lt_of_succ_lt hn))

theorem acc_A (c : Dev nD) (t : Fin cfg1.N) (h0 : t.val % 4 = 0) :
    acc V c t.val t.isLt = soutA V c t ((hcond0 t).mpr h0) (fun h => (fun h => by omega) ((hcond1 t).mp h)) := by
  obtain ⟨n, hn⟩ := t
  cases n with
  | zero => exact rfl
  | succ n => exact (dif_pos h0).trans rfl

theorem acc_B (c : Dev nD) (t : Fin cfg1.N) (h0 : ¬t.val % 4 = 0) (h1 : ¬t.val % 4 = 3) :
    acc V c t.val t.isLt = soutB V c t (fun h => h0 ((hcond0 t).mp h)) (fun h => h1 ((hcond1 t).mp h))
      (acc V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem acc_C (c : Dev nD) (t : Fin cfg1.N) (h0 : ¬t.val % 4 = 0) (h1 : t.val % 4 = 3) :
    acc V c t.val t.isLt = soutC V c t (fun h => h0 ((hcond0 t).mp h)) ((hcond1 t).mpr h1)
      (acc V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The result window's buffer after the body at point `t`: at an epilogue's point the epilogue's pieces over the
    accumulator the point before left; elsewhere the window is idle and nothing consults this. -/
def outAt (c : Dev nD) (t : Fin cfg1.N) : Vec F S512x256 .bf16 :=
  if h1 : t.val % 4 = 3 then
    outC V c t (fun h => (fun h => by omega) ((hcond0 t).mp h)) ((hcond1 t).mpr h1)
      (acc V c (t.val - 1) (Nat.lt_of_le_of_lt (Nat.sub_le _ _) t.isLt))
  else VO.read (Elt F) (VO.writes (Elt F) VO.junk [])

theorem outAt_C (c : Dev nD) (t : Fin cfg1.N) (h0 : ¬t.val % 4 = 0) (h1 : t.val % 4 = 3) :
    outAt V c t = outC V c t (fun h => h0 ((hcond0 t).mp h)) ((hcond1 t).mpr h1)
      (acc V c (t.val - 1) (Nat.lt_of_le_of_lt (Nat.sub_le _ _) t.isLt)) := by
  unfold outAt; exact (dif_pos h1).trans rfl

/-! ## The invariant -/

/-- Before position `n`: before the first point the class's invariant; afterwards the accumulator at what the point
    before left in it, the other scoped buffers at anything, the generator register at some state. -/
def PhiS (c : Dev nD) : (n : ℕ) → n ≤ cfg1.N → sProp 𝕄
  | 0, _ => Pipeline.ΦA spec1 c
  | n + 1, hn => iprop((owns (c : Thread nD τ) scM fullShare (acc V c n hn) ∗ others (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((owns (c : Thread nD τ) scM fullShare (acc V c n hn) ∗ others (F := F) c) ∗ (∃ r, prngReg c r)) := rfl

theorem PhiS_pos (c : Dev nD) (n : ℕ) (h : n ≤ cfg1.N) (hz : n ≠ 0) :
    PhiS V c n h = iprop((owns (c : Thread nD τ) scM fullShare (acc V c (n - 1) (by omega)) ∗ others (F := F) c) ∗ (∃ r, prngReg c r)) := by
  cases n with
  | zero => exact absurd rfl hz
  | succ n => rfl

/-! ## The proof data -/

/-- The region's proof data on core `c`: the arrays as the region finds them (`V`); after the body at point `t` each
    input's buffer at its block and the result window's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = outAt V c t := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the closed forms say which case the point is in; the
    invariant hands the body the accumulator at what the point before left (at anything before the first point and,
    forgotten, at a reset's point) and takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 4 = 0
  · have h1 : ¬t.val % 4 = 3 := by omega
    rw [show (dat V c).leavesExact 0 t = owns (c : Thread nD τ) (ms_0 t) fullShare ((dat V c).after 0 t) from by
      unfold Dat.leavesExact; rw [liveAt_0 t], after_0]
    rw [show (dat V c).leavesExact 1 t = owns (c : Thread nD τ) (ms_1 t) fullShare ((dat V c).after 1 t) from by
      unfold Dat.leavesExact; rw [liveAt_1 t], after_1]
    rw [show (dat V c).leavesExact 2 t = owns (c : Thread nD τ) (ms_2 t) fullShare ((dat V c).after 2 t) from by
      unfold Dat.leavesExact; rw [liveAt_2 t], after_2]
    rw [show (dat V c).leavesExact 3 t = owns (c : Thread nD τ) (ms_3 t) fullShare ((dat V c).after 3 t) from by
      unfold Dat.leavesExact; rw [liveAt_3 t], after_3]
    rw [show (dat V c).leavesExact 4 t = owns (c : Thread nD τ) (ms_4 t) fullShare ((dat V c).after 4 t) from by
      unfold Dat.leavesExact; rw [liveAt_4 t], after_4]
    rw [Dat.leavesExact_idle (dat V c) 5 t (idleAt_5 t (fun h => h1 ((hcond1 t).mp h))) (noFlush_5 t (fun h => h1 ((hcond1 t).mp h)))]
    rw [acc_A V c t h0]
    unfold soutA; (try dsimp only)
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun_A c (grid1.coords t) _ _ _ _ _ _ _ _ _ _ _ _ _ _ ((hcond0 t).mpr h0) (fun h => h1 ((hcond1 t).mp h)) (iblk V c 0 t) (iblk V c 1 t) (iblk V c 2 t) (iblk V c 3 t) (iblk V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scoverA V c t _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun_A c (grid1.coords t) _ _ _ _ _ _ _ _ _ _ _ _ _ _ ((hcond0 t).mpr h0) (fun h => h1 ((hcond1 t).mp h)) (iblk V c 0 t) (iblk V c 1 t) (iblk V c 2 t) (iblk V c 3 t) (iblk V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scoverA V c t _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t ((hcond1 t).mpr h1)], after_5]
      rw [acc_C V c t h0 h1, outAt_C V c t h0 h1]
      unfold soutC outC; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun_C c (grid1.coords t) _ _ _ _ _ _ _ _ _ _ _ _ _ _ (fun h => h0 ((hcond0 t).mp h)) ((hcond1 t).mpr h1) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverC V c t _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC V c t _ _ _)
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [Dat.leavesExact_idle (dat V c) 5 t (idleAt_5 t (fun h => h1 ((hcond1 t).mp h))) (noFlush_5 t (fun h => h1 ((hcond1 t).mp h)))]
      rw [acc_B V c t h0 h1]
      unfold soutB; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun_B c (grid1.coords t) _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scoverB V c t _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

/-- The same after the last point. -/
theorem hout (c : Dev nD) : (dat V c).Φ (Fin.last cfg1.N) ⊢ Pipeline.ΦA spec1 c :=
  Phi_out V c _ (by rw [Fin.val_last]; have : cfg1.N = 64 := N_1; omega)

end Cert.ReferenceIdeal.RAggregate1

end
-- ==== Proof.RAggregate2Runs.lean ====
/-
  Region 2 of the reference program (the aggregation kernel on the grid (16, 4)): what the three control cases of
  its body share. Point t has row tile t / 4 and contraction tile t % 4; the reset runs where t % 4 = 0, the epilogue
  where t % 4 = 3. Each input window's buffer holds its block at every point; the result window is idle off the
  epilogue's points; the f32 accumulator is the one scoped buffer the kernel is handed beside its windows.
-/
import proofs.«171818_g2000203955041256_pallasbulk_1331_5_alg».proof.Proof.Gen.ReferenceIdeal.Launch
import proofs.«171818_g2000203955041256_pallasbulk_1331_5_alg».proof.Proof.Gen.ReferenceIdeal.Skeleton
import proofs.«171818_g2000203955041256_pallasbulk_1331_5_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.RAggregate2

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an input the body
    only reads, uncut and never idle. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: an input the body
    only reads, uncut and never idle. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: an input the body
    only reads, uncut and never idle. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: an input the body
    only reads, uncut and never idle. -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: an input the body
    only reads, uncut and never idle. -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- The reset's condition (contraction tile 0), from the grid coordinates. -/
abbrev cond0 (i : grid2.Coords) : Prop := (Scalar.cmpi .ne (Scalar.extui (Scalar.cmpi .eq (BitVec.ofNat 32 (i 1).val) 0#32)) 0#32) = 1#1
/-- It holds at the points ≡ 0 (mod 4). -/
theorem hcond0 : ∀ t : Fin cfg2.N, cond0 (grid2.coords t) ↔ t.val % 4 = 0 :=
  (by decide +kernel : ∀ t : Fin grid2.N, cond0 (grid2.coords t) ↔ t.val % 4 = 0)

/-- The epilogue's condition (contraction tile 3). -/
abbrev cond1 (i : grid2.Coords) : Prop := k2_cond2 i = 1#1
/-- It holds at the points ≡ 3 (mod 4). -/
theorem hcond1 : ∀ t : Fin cfg2.N, cond1 (grid2.coords t) ↔ t.val % 4 = 3 :=
  (by decide +kernel : ∀ t : Fin grid2.N, cond1 (grid2.coords t) ↔ t.val % 4 = 3)

/-! ## Where the windows are idle -/
theorem liveAt_0 : ∀ t : Fin cfg2.N, cfg2.idle 0 (grid2.coords t) = false := by decide +kernel
theorem liveAt_1 : ∀ t : Fin cfg2.N, cfg2.idle 1 (grid2.coords t) = false := by decide +kernel
theorem liveAt_2 : ∀ t : Fin cfg2.N, cfg2.idle 2 (grid2.coords t) = false := by decide +kernel
theorem liveAt_3 : ∀ t : Fin cfg2.N, cfg2.idle 3 (grid2.coords t) = false := by decide +kernel
theorem liveAt_4 : ∀ t : Fin cfg2.N, cfg2.idle 4 (grid2.coords t) = false := by decide +kernel
/-- Off the epilogue's points the result window is idle and not written back. -/
theorem idleAt_5 : ∀ t : Fin cfg2.N, ¬cond1 (grid2.coords t) → cfg2.idle 5 (grid2.coords t) = true := by decide +kernel
theorem noFlush_5 : ∀ t : Fin cfg2.N, ¬cond1 (grid2.coords t) → (cfg2.win 5).flush t = false := by decide +kernel
/-- At the epilogue's points it is live. -/
theorem liveAt_5 : ∀ t : Fin cfg2.N, cond1 (grid2.coords t) → cfg2.idle 5 (grid2.coords t) = false := by decide +kernel

/-! ## The memrefs the body is called with -/

/-- One staging buffer of the result window, through which its contents are stated. -/
abbrev VO : View sig .tc .vmem S512x128 .f32 := (Memref.whole cc2_stg5_0 : Memref sig .tc .vmem S512x128 .f32).view
abbrev ms_0 (t : Fin cfg2.N) : Memref sig .tc .vmem S512x2048 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S8192x256 .bf16 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1x256 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S256x128 .bf16 := win2_3.stage (cfg2.slots t 3)
abbrev hs_3 (t : Fin cfg2.N) : (ms_3 t).IsWhole := hstage2_3 ((cfg2.slots t 3).cast nbuf2_3)
abbrev ms_4 (t : Fin cfg2.N) : Memref sig .tc .vmem S1x128 .f32 := win2_4.stage (cfg2.slots t 4)
abbrev hs_4 (t : Fin cfg2.N) : (ms_4 t).IsWhole := hstage2_4 ((cfg2.slots t 4).cast nbuf2_4)
abbrev ms_5 (t : Fin cfg2.N) : Memref sig .tc .vmem S512x128 .f32 := win2_5.stage (cfg2.slots t 5)
abbrev hs_5 (t : Fin cfg2.N) : (ms_5 t).IsWhole := hstage2_5 ((cfg2.slots t 5).cast nbuf2_5)
/-- The accumulator: a whole scoped buffer of the kernel's own, passed beside the windows and carried between points. -/
abbrev scM : Memref sig .tc .vmem S512x256 .f32 := Memref.whole cc2_scratch0
abbrev VS : View sig .tc .vmem S512x256 .f32 := (scM).view

/-! ## The invariant's scoped rest, with the accumulator taken out -/

/-- The core's scoped buffers that are neither a staging buffer of this region nor its accumulator, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The region's class invariant is: the accumulator at some contents, the other scoped buffers, the generator register. -/
theorem PhiA_eq (c : Dev nD) :
    (Pipeline.ΦA spec2 c : sProp 𝕄)
      = iprop(((∃ d, owns (c : Thread nD τ) scM fullShare d) ∗ others (F := F) c) ∗ (∃ r, prngReg c r)) := by
  unfold Pipeline.ΦA; rw [scopedRest2_eq]; simp only [scM, owns_whole]
  refine congrArg (fun X : sProp 𝕄 => iprop(X ∗ (∃ r, prngReg c r))) ?_
  unfold others
  have h₁ : (iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_scratch0), ((c : Thread nD τ).loc cc2_scratch0) ↦{fullShare} f)) : sProp 𝕄)
      ⊢ iprop((∃ f : Buf (Elt F) ((c : Thread nD τ).loc cc2_scratch0), ((c : Thread nD τ).loc cc2_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f)) := by
    iintro ⟨H0, H1, H2, H3, H4, H5, H6, H7, H8, H9, H10, H11, H12, H13, H14, H15⟩
    iframe
  have h₂ : (iprop((∃ f : Buf (Elt F) ((c : Thread nD τ).loc cc2_scratch0), ((c : Thread nD τ).loc cc2_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f)) : sProp 𝕄)
      ⊢ iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_scratch0), ((c : Thread nD τ).loc cc2_scratch0) ↦{fullShare} f)) := by
    iintro ⟨H15, H0, H1, H2, H3, H4, H5, H6, H7, H8, H9, H10, H11, H12, H13, H14⟩
    iframe
  exact BI.equiv_iff.mp ⟨h₁, h₂⟩

end Cert.ReferenceIdeal.RAggregate2

end
-- ==== Proof.RAggregate2RunA.lean ====
/-
  Region 2 of the reference program, the body's triple in the reset's case (contraction tile 0): the accumulator, at anything, is stored the zero block and then the zero block plus the tile product; the result window's buffer is handed back untouched. The stores' pieces, last first, are the witness the run finds.
-/
import proofs.«171818_g2000203955041256_pallasbulk_1331_5_alg».proof.Proof.RAggregate2Runs

set_option maxRecDepth 16384

noncomputable section

namespace Cert.ReferenceIdeal.RAggregate2

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body on whole memrefs, the inputs' at their contents, runs to the continuation holding the inputs' as they were
    and each stored buffer with its pieces written. -/
noncomputable def kernelRun_A (c : Dev nD) (i : grid2.Coords) (arg2 : Memref sig .tc .vmem S512x2048 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S512x128 .f32) (harg7 : arg7.IsWhole) (arg8 : Memref sig .tc .vmem S512x256 .f32) (harg8 : arg8.IsWhole) (hc0 : cond0 i) (hc1 : ¬cond1 i)
    (x0 : Vec F S512x2048 .bf16) (x1 : Vec F S8192x256 .bf16) (x2 : Vec F S1x256 .f32) (x3 : Vec F S256x128 .bf16) (x4 : Vec F S1x128 .f32) :
    Σ' (L5 : List (View.Piece (Elt F) S512x128 .f32)), { LS : List (View.Piece (Elt F) S512x256 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc2_aggregate_epilogue_kernel i arg2 harg2 arg3 harg3 arg4 harg4 arg5 harg5 arg6 harg6 arg7 harg7 arg8 harg8) K } := by
  refine ⟨[], ?_, fun xi5 E K => ?run⟩
  case run =>
    simp only [cc2_aggregate_epilogue_kernel_eq_skeleton]; unfold cc2_aggregate_epilogue_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.ReferenceIdeal.RAggregate2

end
-- ==== Proof.RAggregate2RunB.lean ====
/-
  Region 2 of the reference program, the body's triple in the middle case (contraction tiles 1, 2): the accumulator, at what the point before left, is stored itself plus the tile product; the result window's buffer is handed back untouched. The stores' pieces, last first, are the witness the run finds.
-/
import proofs.«171818_g2000203955041256_pallasbulk_1331_5_alg».proof.Proof.RAggregate2RunA

set_option maxRecDepth 16384

noncomputable section

namespace Cert.ReferenceIdeal.RAggregate2

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body on whole memrefs, the inputs' at their contents, runs to the continuation holding the inputs' as they were
    and each stored buffer with its pieces written. -/
noncomputable def kernelRun_B (c : Dev nD) (i : grid2.Coords) (arg2 : Memref sig .tc .vmem S512x2048 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S512x128 .f32) (harg7 : arg7.IsWhole) (arg8 : Memref sig .tc .vmem S512x256 .f32) (harg8 : arg8.IsWhole) (hc0 : ¬cond0 i) (hc1 : ¬cond1 i)
    (x0 : Vec F S512x2048 .bf16) (x1 : Vec F S8192x256 .bf16) (x2 : Vec F S1x256 .f32) (x3 : Vec F S256x128 .bf16) (x4 : Vec F S1x128 .f32) (xs : Vec F S512x256 .f32) :
    Σ' (L5 : List (View.Piece (Elt F) S512x128 .f32)), { LS : List (View.Piece (Elt F) S512x256 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc2_aggregate_epilogue_kernel i arg2 harg2 arg3 harg3 arg4 harg4 arg5 harg5 arg6 harg6 arg7 harg7 arg8 harg8) K } := by
  refine ⟨[], ?_, fun xi5 E K => ?run⟩
  case run =>
    simp only [cc2_aggregate_epilogue_kernel_eq_skeleton]; unfold cc2_aggregate_epilogue_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.ReferenceIdeal.RAggregate2

end
-- ==== Proof.RAggregate2RunC.lean ====
/-
  Region 2 of the reference program, the body's triple in the epilogue's case (contraction tile 3): the accumulator is stored itself plus the tile product, then the result window's buffer is stored the epilogue of the accumulator, the bias, the weight and the next bias. The stores' pieces, last first, are the witness the run finds.
-/
import proofs.«171818_g2000203955041256_pallasbulk_1331_5_alg».proof.Proof.RAggregate2RunB

set_option maxRecDepth 16384

noncomputable section

namespace Cert.ReferenceIdeal.RAggregate2

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body on whole memrefs, the inputs' at their contents, runs to the continuation holding the inputs' as they were
    and each stored buffer with its pieces written. -/
noncomputable def kernelRun_C (c : Dev nD) (i : grid2.Coords) (arg2 : Memref sig .tc .vmem S512x2048 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S512x128 .f32) (harg7 : arg7.IsWhole) (arg8 : Memref sig .tc .vmem S512x256 .f32) (harg8 : arg8.IsWhole) (hc0 : ¬cond0 i) (hc1 : cond1 i)
    (x0 : Vec F S512x2048 .bf16) (x1 : Vec F S8192x256 .bf16) (x2 : Vec F S1x256 .f32) (x3 : Vec F S256x128 .bf16) (x4 : Vec F S1x128 .f32) (xs : Vec F S512x256 .f32) :
    Σ' (L5 : List (View.Piece (Elt F) S512x128 .f32)), { LS : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc2_aggregate_epilogue_kernel i arg2 harg2 arg3 harg3 arg4 harg4 arg5 harg5 arg6 harg6 arg7 harg7 arg8 harg8) K } := by
  refine ⟨?_, ?_, fun E K => ?run⟩
  case run =>
    simp only [cc2_aggregate_epilogue_kernel_eq_skeleton]; unfold cc2_aggregate_epilogue_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.ReferenceIdeal.RAggregate2

end
-- ==== Proof.RAggregate2.lean ====
/-
  Region 2 of the reference program: the aggregation kernel on the grid (16, 4). Point t has row tile t / 4 and
  contraction tile t % 4. An f32 accumulator of one row tile is carried between the four points of a row tile:
  reset to zero at contraction tile 0, increased by (A tile) · (Z slice) at every point, and at contraction tile 3
  the epilogue stores the row tile's result block. This module states what the accumulator and the result window's
  buffer hold after each point (by recursion on the point, over the pieces each case's run stores), the region's
  proof data at a parameter V (the buffer contents when the region is entered), the body obligation, and the
  invariant's two ends.
-/
import proofs.«171818_g2000203955041256_pallasbulk_1331_5_alg».proof.Proof.RAggregate2RunC

set_option maxRecDepth 16384

noncomputable section

namespace Cert.ReferenceIdeal.RAggregate2

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the result window's buffer, at a point -/

/-- The reset's case at point `t`: the accumulator's pieces cover it. -/
theorem scoverA (c : Dev nD) (t : Fin cfg2.N) (hc0 : cond0 (grid2.coords t)) (hc1 : ¬cond1 (grid2.coords t)) (y : S512x256.Idx) :
    ∃ pc ∈ (kernelRun_A c (grid2.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t)).2.1, y ∈ pc.1.set :=
  View.cover_of_tiledL (kernelRun_A c (grid2.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t)).2.1 S512x256.size (by sl_kernel_rfl) y
/-- What it leaves there: the pieces read back. -/
def soutA (c : Dev nD) (t : Fin cfg2.N) (hc0 : cond0 (grid2.coords t)) (hc1 : ¬cond1 (grid2.coords t)) : Vec F S512x256 .f32 :=
  VS.read (Elt F) (VS.writes (Elt F) VS.junk (kernelRun_A c (grid2.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t)).2.1)

/-- The middle case at point `t`, the accumulator found at `xs`. -/
theorem scoverB (c : Dev nD) (t : Fin cfg2.N) (hc0 : ¬cond0 (grid2.coords t)) (hc1 : ¬cond1 (grid2.coords t)) (xs : Vec F S512x256 .f32) (y : S512x256.Idx) :
    ∃ pc ∈ (kernelRun_B c (grid2.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).2.1, y ∈ pc.1.set :=
  View.cover_of_tiledL (kernelRun_B c (grid2.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).2.1 S512x256.size (by sl_kernel_rfl) y
def soutB (c : Dev nD) (t : Fin cfg2.N) (hc0 : ¬cond0 (grid2.coords t)) (hc1 : ¬cond1 (grid2.coords t)) (xs : Vec F S512x256 .f32) : Vec F S512x256 .f32 :=
  VS.read (Elt F) (VS.writes (Elt F) VS.junk (kernelRun_B c (grid2.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).2.1)

/-- The epilogue's case at point `t`, the accumulator found at `xs`. -/
theorem scoverC (c : Dev nD) (t : Fin cfg2.N) (hc0 : ¬cond0 (grid2.coords t)) (hc1 : cond1 (grid2.coords t)) (xs : Vec F S512x256 .f32) (y : S512x256.Idx) :
    ∃ pc ∈ (kernelRun_C c (grid2.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).2.1, y ∈ pc.1.set :=
  View.cover_of_tiledL (kernelRun_C c (grid2.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).2.1 S512x256.size (by sl_kernel_rfl) y
def soutC (c : Dev nD) (t : Fin cfg2.N) (hc0 : ¬cond0 (grid2.coords t)) (hc1 : cond1 (grid2.coords t)) (xs : Vec F S512x256 .f32) : Vec F S512x256 .f32 :=
  VS.read (Elt F) (VS.writes (Elt F) VS.junk (kernelRun_C c (grid2.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).2.1)
/-- The result window's pieces in the epilogue's case cover its block. -/
theorem coverC (c : Dev nD) (t : Fin cfg2.N) (hc0 : ¬cond0 (grid2.coords t)) (hc1 : cond1 (grid2.coords t)) (xs : Vec F S512x256 .f32) (y : S512x128.Idx) :
    ∃ pc ∈ (kernelRun_C c (grid2.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).1, y ∈ pc.1.set :=
  View.cover_of_tiledL (kernelRun_C c (grid2.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).1 S512x128.size (by sl_kernel_rfl) y
def outC (c : Dev nD) (t : Fin cfg2.N) (hc0 : ¬cond0 (grid2.coords t)) (hc1 : cond1 (grid2.coords t)) (xs : Vec F S512x256 .f32) : Vec F S512x128 .f32 :=
  VO.read (Elt F) (VO.writes (Elt F) VO.junk (kernelRun_C c (grid2.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs).1)

/-! ## The accumulator after each point -/

/-- The accumulator after the body at position `n`: the case the closed forms select at `n`, over what the point
    before left (the reset's case reads nothing of it). -/
def acc (c : Dev nD) : (n : ℕ) → n < cfg2.N → Vec F S512x256 .f32
  | 0, hn => soutA V c ⟨0, hn⟩ ((hcond0 ⟨0, hn⟩).mpr (Nat.zero_mod _)) (fun h => (fun h => by (try dsimp only at h); omega) ((hcond1 ⟨0, hn⟩).mp h))
  | n + 1, hn =>
    if h0 : (n + 1) % 4 = 0 then
      soutA V c ⟨n + 1, hn⟩ ((hcond0 ⟨n + 1, hn⟩).mpr h0) (fun h => (fun h => by (try dsimp only at h); omega) ((hcond1 ⟨n + 1, hn⟩).mp h))
    else
      if h1 : (n + 1) % 4 = 3 then
        soutC V c ⟨n + 1, hn⟩ (fun h => h0 ((hcond0 ⟨n + 1, hn⟩).mp h)) ((hcond1 ⟨n + 1, hn⟩).mpr h1) (acc c n (Nat.lt_of_succ_lt hn))
      else
        soutB V c ⟨n + 1, hn⟩ (fun h => h0 ((hcond0 ⟨n + 1, hn⟩).mp h)) (fun h => h1 ((hcond1 ⟨n + 1, hn⟩).mp h)) (acc c n (Nat.lt_of_succ_lt hn))

theorem acc_A (c : Dev nD) (t : Fin cfg2.N) (h0 : t.val % 4 = 0) :
    acc V c t.val t.isLt = soutA V c t ((hcond0 t).mpr h0) (fun h => (fun h => by omega) ((hcond1 t).mp h)) := by
  obtain ⟨n, hn⟩ := t
  cases n with
  | zero => exact rfl
  | succ n => exact (dif_pos h0).trans rfl

theorem acc_B (c : Dev nD) (t : Fin cfg2.N) (h0 : ¬t.val % 4 = 0) (h1 : ¬t.val % 4 = 3) :
    acc V c t.val t.isLt = soutB V c t (fun h => h0 ((hcond0 t).mp h)) (fun h => h1 ((hcond1 t).mp h))
      (acc V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem acc_C (c : Dev nD) (t : Fin cfg2.N) (h0 : ¬t.val % 4 = 0) (h1 : t.val % 4 = 3) :
    acc V c t.val t.isLt = soutC V c t (fun h => h0 ((hcond0 t).mp h)) ((hcond1 t).mpr h1)
      (acc V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The result window's buffer after the body at point `t`: at an epilogue's point the epilogue's pieces over the
    accumulator the point before left; elsewhere the window is idle and nothing consults this. -/
def outAt (c : Dev nD) (t : Fin cfg2.N) : Vec F S512x128 .f32 :=
  if h1 : t.val % 4 = 3 then
    outC V c t (fun h => (fun h => by omega) ((hcond0 t).mp h)) ((hcond1 t).mpr h1)
      (acc V c (t.val - 1) (Nat.lt_of_le_of_lt (Nat.sub_le _ _) t.isLt))
  else VO.read (Elt F) (VO.writes (Elt F) VO.junk [])

theorem outAt_C (c : Dev nD) (t : Fin cfg2.N) (h0 : ¬t.val % 4 = 0) (h1 : t.val % 4 = 3) :
    outAt V c t = outC V c t (fun h => h0 ((hcond0 t).mp h)) ((hcond1 t).mpr h1)
      (acc V c (t.val - 1) (Nat.lt_of_le_of_lt (Nat.sub_le _ _) t.isLt)) := by
  unfold outAt; exact (dif_pos h1).trans rfl

/-! ## The invariant -/

/-- Before position `n`: before the first point the class's invariant; afterwards the accumulator at what the point
    before left in it, the other scoped buffers at anything, the generator register at some state. -/
def PhiS (c : Dev nD) : (n : ℕ) → n ≤ cfg2.N → sProp 𝕄
  | 0, _ => Pipeline.ΦA spec2 c
  | n + 1, hn => iprop((owns (c : Thread nD τ) scM fullShare (acc V c n hn) ∗ others (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop((owns (c : Thread nD τ) scM fullShare (acc V c n hn) ∗ others (F := F) c) ∗ (∃ r, prngReg c r)) := rfl

theorem PhiS_pos (c : Dev nD) (n : ℕ) (h : n ≤ cfg2.N) (hz : n ≠ 0) :
    PhiS V c n h = iprop((owns (c : Thread nD τ) scM fullShare (acc V c (n - 1) (by omega)) ∗ others (F := F) c) ∗ (∃ r, prngReg c r)) := by
  cases n with
  | zero => exact absurd rfl hz
  | succ n => rfl

/-! ## The proof data -/

/-- The region's proof data on core `c`: the arrays as the region finds them (`V`); after the body at point `t` each
    input's buffer at its block and the result window's at `outAt`; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = outAt V c t := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the closed forms say which case the point is in; the
    invariant hands the body the accumulator at what the point before left (at anything before the first point and,
    forgotten, at a reset's point) and takes it back at this point's contents; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg2.N = 64 from N_2)
  by_cases h0 : t.val % 4 = 0
  · have h1 : ¬t.val % 4 = 3 := by omega
    rw [show (dat V c).leavesExact 0 t = owns (c : Thread nD τ) (ms_0 t) fullShare ((dat V c).after 0 t) from by
      unfold Dat.leavesExact; rw [liveAt_0 t], after_0]
    rw [show (dat V c).leavesExact 1 t = owns (c : Thread nD τ) (ms_1 t) fullShare ((dat V c).after 1 t) from by
      unfold Dat.leavesExact; rw [liveAt_1 t], after_1]
    rw [show (dat V c).leavesExact 2 t = owns (c : Thread nD τ) (ms_2 t) fullShare ((dat V c).after 2 t) from by
      unfold Dat.leavesExact; rw [liveAt_2 t], after_2]
    rw [show (dat V c).leavesExact 3 t = owns (c : Thread nD τ) (ms_3 t) fullShare ((dat V c).after 3 t) from by
      unfold Dat.leavesExact; rw [liveAt_3 t], after_3]
    rw [show (dat V c).leavesExact 4 t = owns (c : Thread nD τ) (ms_4 t) fullShare ((dat V c).after 4 t) from by
      unfold Dat.leavesExact; rw [liveAt_4 t], after_4]
    rw [Dat.leavesExact_idle (dat V c) 5 t (idleAt_5 t (fun h => h1 ((hcond1 t).mp h))) (noFlush_5 t (fun h => h1 ((hcond1 t).mp h)))]
    rw [acc_A V c t h0]
    unfold soutA; (try dsimp only)
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun_A c (grid2.coords t) _ _ _ _ _ _ _ _ _ _ _ _ _ _ ((hcond0 t).mpr h0) (fun h => h1 ((hcond1 t).mp h)) (iblk V c 0 t) (iblk V c 1 t) (iblk V c 2 t) (iblk V c 3 t) (iblk V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scoverA V c t _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun_A c (grid2.coords t) _ _ _ _ _ _ _ _ _ _ _ _ _ _ ((hcond0 t).mpr h0) (fun h => h1 ((hcond1 t).mp h)) (iblk V c 0 t) (iblk V c 1 t) (iblk V c 2 t) (iblk V c 3 t) (iblk V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scoverA V c t _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 4 = 3
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t ((hcond1 t).mpr h1)], after_5]
      rw [acc_C V c t h0 h1, outAt_C V c t h0 h1]
      unfold soutC outC; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun_C c (grid2.coords t) _ _ _ _ _ _ _ _ _ _ _ _ _ _ (fun h => h0 ((hcond0 t).mp h)) ((hcond1 t).mpr h1) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverC V c t _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC V c t _ _ _)
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [Dat.leavesExact_idle (dat V c) 5 t (idleAt_5 t (fun h => h1 ((hcond1 t).mp h))) (noFlush_5 t (fun h => h1 ((hcond1 t).mp h)))]
      rw [acc_B V c t h0 h1]
      unfold soutB; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((kernelRun_B c (grid2.coords t) _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (scoverB V c t _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulator's contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

/-- The same after the last point. -/
theorem hout (c : Dev nD) : (dat V c).Φ (Fin.last cfg2.N) ⊢ Pipeline.ΦA spec2 c :=
  Phi_out V c _ (by rw [Fin.val_last]; have : cfg2.N = 64 := N_2; omega)

end Cert.ReferenceIdeal.RAggregate2

end
-- ==== Proof.RRun.lean ====
/-
  The run of the three-region reference program, region by region.

  @main is five items: a stretch of host operations (zero-width pads and casts of the arguments), region 0 (the feature
  transform Z1 = X·W1), a second stretch (the zero bias row), region 1 (the first aggregation, Z2) and region 2 (the second
  aggregation, the result). Between two items every unscoped buffer of a TensorCore is held whole at named contents: the
  launch memory, then each host stretch applied, then each region's arrays at what its write-backs leave. Every weakly
  fair execution ends with each unscoped buffer at the last of these; the argument arrays walk back through the chain to
  the launch memory because no host operation writes one and the regions only read the adjacency matrix.
-/
import proofs.«171818_g2000203955041256_pallasbulk_1331_5_alg».proof.Proof.RFeature
import proofs.«171818_g2000203955041256_pallasbulk_1331_5_alg».proof.Proof.RAggregate1
import proofs.«171818_g2000203955041256_pallasbulk_1331_5_alg».proof.Proof.RAggregate2
import proofs.«171818_g2000203955041256_pallasbulk_1331_5_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.ReferenceIdeal.RRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Region 0's entry contents, read at the TensorCore's references: the launch memory after the first host stretch. -/
abbrev E1 : (c : Dev nD) → (b : Ref sig .tc) → Buf (Elt F) ((c : Thread nD τ).loc b) := fun c b => V1 m c b

/-- After region 0: its arrays at what the pipeline leaves (the two inputs as entered, Z1 at its write-backs folded), every other buffer as entered. -/
def W2 (c : Dev nD) : Valuation τ sig (Elt F) :=
  Pipeline.withArrays spec0 c (V1 m c) fun w => (RFeature.dat (E1 m) c).arrAt w cfg0.N
theorem W2_arr (c : Dev nD) (w : Fin cfg0.W) :
    W2 m c (Proc.devRef .tc (Pipeline.arrRef spec0 w)) = (RFeature.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (RFeature.dat (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- An input window's array of region 0 is left as entered. -/
theorem W2_in (c : Dev nD) (w : Fin cfg0.W) (hw : (cfg0.win w).isOut = false) :
    W2 m c (Proc.devRef .tc (Pipeline.arrRef spec0 w)) = V1 m c (Proc.devRef .tc (Pipeline.arrRef spec0 w)) :=
  (W2_arr m c w).trans (((RFeature.dat (E1 m) c).arrAt_in w hw _).trans (RFeature.A_eq (E1 m) c w))

/-- After the second host stretch, which writes the zero bias row. -/
abbrev W3 (c : Dev nD) : Valuation τ sig (Elt F) := StableHlo.after hostOps1 (W2 m c)
theorem W3_of (c : Dev nD) (r : Ref sig .tc) (h : r ∉ hostOps1_W) : W3 m c r = W2 m c r :=
  StableHlo.after_of_writes_sub hostOps1 _ hostOps1_writes h
/-- Region 1's entry contents. -/
abbrev E3 : (c : Dev nD) → (b : Ref sig .tc) → Buf (Elt F) ((c : Thread nD τ).loc b) := fun c b => W3 m c b

/-- After region 1: its arrays at what the pipeline leaves (the five inputs as entered, Z2 at its write-backs folded), every other buffer as entered. -/
def W4 (c : Dev nD) : Valuation τ sig (Elt F) :=
  Pipeline.withArrays spec1 c (W3 m c) fun w => (RAggregate1.dat (E3 m) c).arrAt w cfg1.N
theorem W4_arr (c : Dev nD) (w : Fin cfg1.W) :
    W4 m c (Proc.devRef .tc (Pipeline.arrRef spec1 w)) = (RAggregate1.dat (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (RAggregate1.dat (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)
/-- An input window's array of region 1 is left as entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((RAggregate1.dat (E3 m) c).arrAt_in w hw _).trans (RAggregate1.A_eq (E3 m) c w))

/-- After region 2: its arrays at what the pipeline leaves (the five inputs as entered, the result at its write-backs folded), every other buffer as entered. -/
def W5 (c : Dev nD) : Valuation τ sig (Elt F) :=
  Pipeline.withArrays spec2 c (W4 m c) fun w => (RAggregate2.dat (E4 m) c).arrAt w cfg2.N
theorem W5_arr (c : Dev nD) (w : Fin cfg2.W) :
    W5 m c (Proc.devRef .tc (Pipeline.arrRef spec2 w)) = (RAggregate2.dat (E4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev E5 : (c : Dev nD) → (b : Ref sig .tc) → Buf (Elt F) ((c : Thread nD τ).loc b) := fun c b => W5 m c b
theorem hF2 (c : Dev nD) (w : Fin cfg2.W) : (RAggregate2.dat (E4 m) c).arrAt w cfg2.N = E5 m c (Pipeline.arrRef spec2 w) :=
  (W5_arr m c w).symm
theorem hrest2 (c : Dev nD) : ∀ b, b ∉ Finset.univ.image (Pipeline.arrRef spec2) → E5 m c b = E4 m c b :=
  fun b hb => W5_of_ne m c b fun w e => hb (Finset.mem_image.mpr ⟨w, Finset.mem_univ _, e⟩)
/-- An input window's array of region 2 is left as entered. -/
theorem W5_in (c : Dev nD) (w : Fin cfg2.W) (hw : (cfg2.win w).isOut = false) :
    W5 m c (Proc.devRef .tc (Pipeline.arrRef spec2 w)) = W4 m c (Proc.devRef .tc (Pipeline.arrRef spec2 w)) :=
  (W5_arr m c w).trans (((RAggregate2.dat (E4 m) c).arrAt_in w hw _).trans (RAggregate2.A_eq (E4 m) c w))

/-! ## The arguments end as launched -/

theorem W5_main_arg0 (c : Dev nD) : W5 m c (Proc.devRef .tc main_arg0) = m ((c : Thread nD τ).loc main_arg0) :=
  (W5_in m c 0 rfl).trans <| (W4_in m c 0 rfl).trans <| (W3_of m c main_arg0 (by decide)).trans <| (W2_of_ne m c main_arg0 (by decide)).trans <| (V1_of m c main_arg0 (by decide)).trans rfl
theorem W5_main_arg1 (c : Dev nD) : W5 m c (Proc.devRef .tc main_arg1) = m ((c : Thread nD τ).loc main_arg1) :=
  (W5_of_ne m c main_arg1 (by decide)).trans <| (W4_of_ne m c main_arg1 (by decide)).trans <| (W3_of m c main_arg1 (by decide)).trans <| (W2_of_ne m c main_arg1 (by decide)).trans <| (V1_of m c main_arg1 (by decide)).trans rfl
theorem W5_main_arg2 (c : Dev nD) : W5 m c (Proc.devRef .tc main_arg2) = m ((c : Thread nD τ).loc main_arg2) :=
  (W5_of_ne m c main_arg2 (by decide)).trans <| (W4_of_ne m c main_arg2 (by decide)).trans <| (W3_of m c main_arg2 (by decide)).trans <| (W2_of_ne m c main_arg2 (by decide)).trans <| (V1_of m c main_arg2 (by decide)).trans rfl
theorem W5_main_arg3 (c : Dev nD) : W5 m c (Proc.devRef .tc main_arg3) = m ((c : Thread nD τ).loc main_arg3) :=
  (W5_of_ne m c main_arg3 (by decide)).trans <| (W4_of_ne m c main_arg3 (by decide)).trans <| (W3_of m c main_arg3 (by decide)).trans <| (W2_of_ne m c main_arg3 (by decide)).trans <| (V1_of m c main_arg3 (by decide)).trans rfl
theorem W5_main_arg4 (c : Dev nD) : W5 m c (Proc.devRef .tc main_arg4) = m ((c : Thread nD τ).loc main_arg4) :=
  (W5_of_ne m c main_arg4 (by decide)).trans <| (W4_of_ne m c main_arg4 (by decide)).trans <| (W3_of m c main_arg4 (by decide)).trans <| (W2_of_ne m c main_arg4 (by decide)).trans <| (V1_of m c main_arg4 (by decide)).trans rfl
theorem W5_main_arg5 (c : Dev nD) : W5 m c (Proc.devRef .tc main_arg5) = m ((c : Thread nD τ).loc main_arg5) :=
  (W5_of_ne m c main_arg5 (by decide)).trans <| (W4_of_ne m c main_arg5 (by decide)).trans <| (W3_of m c main_arg5 (by decide)).trans <| (W2_of_ne m c main_arg5 (by decide)).trans <| (V1_of m c main_arg5 (by decide)).trans rfl
theorem W5_main_arg6 (c : Dev nD) : W5 m c (Proc.devRef .tc main_arg6) = m ((c : Thread nD τ).loc main_arg6) :=
  (W5_of_ne m c main_arg6 (by decide)).trans <| (W4_of_ne m c main_arg6 (by decide)).trans <| (W3_of m c main_arg6 (by decide)).trans <| (W2_of_ne m c main_arg6 (by decide)).trans <| (V1_of m c main_arg6 (by decide)).trans rfl
theorem W5_main_arg7 (c : Dev nD) : W5 m c (Proc.devRef .tc main_arg7) = m ((c : Thread nD τ).loc main_arg7) :=
  (W5_of_ne m c main_arg7 (by decide)).trans <| (W4_of_ne m c main_arg7 (by decide)).trans <| (W3_of m c main_arg7 (by decide)).trans <| (W2_of_ne m c main_arg7 (by decide)).trans <| (V1_of m c main_arg7 (by decide)).trans rfl

/-! ## The proof data family and the thread state -/

abbrev adm : (p : Fin 3) → (pcfgs (F := F) p).Adm := fun p => (cfgs p).toPCfg_adm
/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => RFeature.dat (E1 m) c
  | ⟨1, _⟩ => fun c => RAggregate1.dat (E3 m) c
  | ⟨2, _⟩ => fun c => RAggregate2.dat (E4 m) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 between the thread states "every unscoped buffer at its entry contents" and "… at its exit contents": its
    arrays split out of the unscoped buffers and put back at what the write-backs leave, the generator register into the
    invariant and out, nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (RFeature.body_obligation (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun w => RFeature.A_eq (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ (A B C : sProp 𝕄), iprop(A ∗ B ∗ C) ⊢ iprop(C ∗ A) := fun A B C => by
      iintro ⟨Hp, -, Hr⟩
      isplitl [Hr]; · iexact Hr
      iexact Hp
    exact (h1 _ _ _).trans (RFeature.hin (E1 m) c)
  hout c := by
    rw [Pipeline.ownSems0_none]
    have h1 : ∀ (A C : sProp 𝕄), iprop(C ∗ A) ⊢ iprop(A ∗ BI.emp ∗ C) := fun A C => by
      iintro ⟨Hr, Hp⟩
      isplitl [Hp]; · iexact Hp
      isplitr; · iempintro
      iexact Hr
    exact (RFeature.hout (E1 m) c).trans (h1 _ _)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the thread states "every unscoped buffer at its entry contents" and "… at its exit contents": its
    arrays split out of the unscoped buffers and put back at what the write-backs leave, the generator register into the
    invariant and out, nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (RAggregate1.body_obligation (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun w => RAggregate1.A_eq (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ (A B C : sProp 𝕄), iprop(A ∗ B ∗ C) ⊢ iprop(C ∗ A) := fun A B C => by
      iintro ⟨Hp, -, Hr⟩
      isplitl [Hr]; · iexact Hr
      iexact Hp
    exact (h1 _ _ _).trans (RAggregate1.hin (E3 m) c)
  hout c := by
    rw [Pipeline.ownSems0_none]
    have h1 : ∀ (A C : sProp 𝕄), iprop(C ∗ A) ⊢ iprop(A ∗ BI.emp ∗ C) := fun A C => by
      iintro ⟨Hr, Hp⟩
      isplitl [Hp]; · iexact Hp
      isplitr; · iempintro
      iexact Hr
    exact (RAggregate1.hout (E3 m) c).trans (h1 _ _)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the thread states "every unscoped buffer at its entry contents" and "… at its exit contents": its
    arrays split out of the unscoped buffers and put back at what the write-backs leave, the generator register into the
    invariant and out, nothing owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (RAggregate2.body_obligation (E4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun w => RAggregate2.A_eq (E4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ (A B C : sProp 𝕄), iprop(A ∗ B ∗ C) ⊢ iprop(C ∗ A) := fun A B C => by
      iintro ⟨Hp, -, Hr⟩
      isplitl [Hr]; · iexact Hr
      iexact Hp
    exact (h1 _ _ _).trans (RAggregate2.hin (E4 m) c)
  hout c := by
    rw [Pipeline.ownSems0_none]
    have h1 : ∀ (A C : sProp 𝕄), iprop(C ∗ A) ⊢ iprop(A ∗ BI.emp ∗ C) := fun A C => by
      iintro ⟨Hr, Hp⟩
      isplitl [Hp]; · iexact Hp
      isplitr; · iempintro
      iexact Hr
    exact (RAggregate2.hout (E4 m) c).trans (h1 _ _)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (V0 m)),
    .region (reg0 m),
    .host (hseg hostOps1 hostOps1_sub hostOps1_fresh (W2 m)),
    .region (reg1 m),
    .region (reg2 m) ]
theorem main_run (c : Dev nD) : main (F := F) c = Pipeline.Seg.run (segs m) := (main_chain c).trans (by chain_rfl)

variable (ρ : Dev nD → PrngReg)

set_option backward.isDefEq.respectTransparency.types false in
/-- Every weakly fair execution of @main from memory `m` with zero counters terminates, nothing faulting, and in every
    final state each unscoped buffer of each TensorCore holds the last boundary's contents `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c)⟩) (run m ρ)

end Cert.ReferenceIdeal.RRun

end
-- ==== Proof.RFeatureValue.lean ====
/- The value of the feature-transform region (custom_call 0) of the reference program on the extended
   reals: the result array, after all sixteen row blocks are written back, is the zero accumulator plus the
   matrix product of the two input arrays; entry (i, j) is 0 plus the sum over k of x (i, k) * w (k, j).
   Block t of the result is rows [512 t, 512 t + 512); it depends on the same rows of x and on all of w. -/
import proofs.«171818_g2000203955041256_pallasbulk_1331_5_alg».proof.Proof.RFeature
import Idealize.ShloMosaic.Lib.ValueIdx
import Idealize.ShloMosaic.PureOps.Ideal.Laws
import Idealize.ShloMosaic.Lib.Pipeline.Value

set_option maxRecDepth 16384

noncomputable section

namespace Cert.ReferenceIdeal.RFeatureValue

open Cert.ReferenceIdeal.Gen
open Idealize.ShloMosaic Idealize.ShloMosaic.TcCoe Idealize.ShloMosaic.ValueIdx
open Idealize.SL Idealize.SL.Sem
open Idealize.ShloMosaic.Pipeline (Dat Cfg Window)

/-- The result array as one function of the two input arrays: the zero accumulator plus the matrix product. -/
def G (x : Vec Ideal S8192x512 .bf16) (w : Vec Ideal S512x256 .bf16) : Vec Ideal S8192x256 .bf16 :=
  fun i => (0 : EReal) + ∑ k : Fin 512, x (ValueIdx.ix2 (i 0 : Fin 8192) k) * w (ValueIdx.ix2 k (i 1 : Fin 256))

/-- Entry (i, j) of the result: the reset accumulator plus the sum over the contracted axis. -/
theorem G_apply (x : Vec Ideal S8192x512 .bf16) (w : Vec Ideal S512x256 .bf16) (i : Fin 8192) (j : Fin 256) :
    G x w (ValueIdx.ix2 i j) = (0 : EReal) + ∑ k : Fin 512, x (ValueIdx.ix2 i k) * w (ValueIdx.ix2 k j) := rfl

/-! ## The body's payloads at an index -/

/-- The dimension numbers of the block product: rows by contraction times contraction by columns. -/
local notation "D" => dot_S512x512_S512x256_S512x256_1_0_0_1_n_n

/-- Entry (p, q) of what the body leaves in the output block: the reset accumulator's zero plus the sum over k of the
    first block at (p, k) times the second at (k, q). -/
theorem pay_apply (x0 : Vec Ideal S512x512 .bf16) (x1 : Vec Ideal S512x256 .bf16) (p : Fin 512) (q : Fin 256) :
    RFeature.out2 (F := Ideal) x0 x1 (ix2 p q) = (0 : EReal) + ∑ k : Fin 512, x0 (ix2 p k) * x1 (ix2 k q) := by
  unfold RFeature.out2 k0_pay3 k0_pay2 k0_pay1
  simp only [shapeCast_self]
  have e := Ideal.matmul_constant_zero_apply (φ₁ := .bf16) (φ₂ := .bf16) D none x0 x1 (ix2 p q)
  refine Eq.trans (congrArg (Ideal.ofBits .f32 0x00000000#32 + ·) e) ?_
  rw [Ideal.ofBits_zero_f32]
  refine congrArg ((0 : EReal) + ·) ?_
  rw [← Equiv.sum_comp (contrEquiv1 D 512 rfl rfl).symm]
  refine Finset.sum_congr rfl fun k _ => ?_
  have hl : DotDims.lhsIdx D (ix2 p q) ((contrEquiv1 D 512 rfl rfl).symm k) = ix2 p k := by
    funext a; apply Fin.ext
    match a with
    | ⟨0, _⟩ => rfl
    | ⟨1, _⟩ => exact (DotDims.lhsIdx_val_of_single D (cl := 1) rfl _ _).trans (contrEquiv1_symm_val D 512 rfl rfl k)
  have hr : DotDims.rhsIdx D (ix2 p q) ((contrEquiv1 D 512 rfl rfl).symm k) = ix2 k q := by
    funext a; apply Fin.ext
    match a with
    | ⟨0, _⟩ => exact (DotDims.rhsIdx_val_of_single D (cr := 0) rfl _ _).trans (contrEquiv1_symm_val D 512 rfl rfl k)
    | ⟨1, _⟩ => rfl
  rw [hl, hr]

/-! ## The blocks -/

/-- The printed index maps, decided over the grid: the first input's row block moves with the output's, every
    other block index is zero, and the output's row block index stays in its range. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 15 :=
  (by decide +kernel : ∀ t : Fin grid0.N, _)

/-- Every row block of the result is some point's. -/
theorem idx_onto : ∀ (q0 : Fin 16), ∃ t : Fin cfg0.N, win0_2.index t = ![q0.val, 0] :=
  (by decide +kernel : ∀ (q0 : Fin 16), ∃ t : Fin grid0.N, win0_2.index t = ![q0.val, 0])

/-- What point `t` writes back is block `t` of `G` of the input arrays as the region finds them. -/
theorem flushed_eq (V : (c : Dev nD) → (b : Ref sig .tc) → Buf (Elt Ideal) ((c : Thread nD τ).loc b)) (c : Dev nD) (t : Fin cfg0.N) :
    (RFeature.dat (F := Ideal) V c).flushed 2 t = ((cfg0.win 2).blk t).view.read (Elt Ideal) (G (V c main_call0_v1) (V c main_call0_v3)) := by
  show (cfg0.win 2).cut (grid0.coords t) ((RFeature.dat (F := Ideal) V c).after 2 t) = _
  rw [RFeature.after2]
  obtain ⟨e0, e1, e2, e3, e4, e5⟩ := idx_facts t
  funext j
  obtain ⟨p, q, rfl⟩ : ∃ (p : Fin 512) (q : Fin 256), j = ix2 p q := ⟨j 0, j 1, eq_ix2 j⟩
  show RFeature.out2 (F := Ideal) (RFeature.iblk V c 0 t) (RFeature.iblk V c 1 t) (ix2 p q)
    = G (V c main_call0_v1) (V c main_call0_v3) (((cfg0.win 2).blk t).view.emb (ix2 p q))
  refine (pay_apply (RFeature.iblk V c 0 t) (RFeature.iblk V c 1 t) p q).trans ?_
  unfold G
  refine congrArg ((0 : EReal) + ·) ?_
  refine Finset.sum_congr rfl fun k _ => ?_
  have h0 : ((cfg0.win 0).blk t).view.emb (ix2 p k) = ix2 ((((cfg0.win 2).blk t).view.emb (ix2 p q)) 0 : Fin 8192) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 512 + 1 * k.val = k.val; omega
  have h1 : ((cfg0.win 1).blk t).view.emb (ix2 k q) = ix2 k ((((cfg0.win 2).blk t).view.emb (ix2 p q)) 1 : Fin 256) := by
    funext a; apply Fin.ext
    match a with
    | ⟨0, _⟩ => show win0_1.index t (0 : Fin 2) * 512 + 1 * k.val = k.val; omega
    | ⟨1, _⟩ => show win0_1.index t (1 : Fin 2) * 256 + 1 * q.val = win0_2.index t (1 : Fin 2) * 256 + 1 * q.val; omega
  refine congrArg₂ (· * ·) ?_ ?_
  · exact congrArg (V c main_call0_v1) h0
  · exact congrArg (V c main_call0_v3) h1

/-- An index of the result array is in point `t`'s block iff each coordinate is in the block's range on its axis. -/
theorem mem_blk (t : Fin cfg0.N) (i : S8192x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_call0_v11).slice (win0_2.rect t)).set ↔ _
  rw [View.set_slice_whole, Rect.mem_set_unit]
  exact Iff.rfl

/-- Every index of the result array is in some written-back block: row r is in block r / 512. -/
theorem cover (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 256 ≤ (i 1).val ∧ (i 1).val < win0_2.index t (1 : Fin 2) * 256 + 256; omega

/-- The result array after the region, from the two input arrays as the region finds them. -/
theorem out_eq (V : (c : Dev nD) → (b : Ref sig .tc) → Buf (Elt Ideal) ((c : Thread nD τ).loc b)) (c : Dev nD) :
    (RFeature.dat (F := Ideal) V c).arrAt 2 cfg0.N = G (V c main_call0_v1) (V c main_call0_v3) :=
  (RFeature.dat (F := Ideal) V c).arrAt_eq_of_cover 2 (G (V c main_call0_v1) (V c main_call0_v3)) (fun t _ => flushed_eq V c t) cover

end Cert.ReferenceIdeal.RFeatureValue

end
-- ==== Proof.RAggregate1Value.lean ====
/-
  The value of region 1 of the reference program at the ideal instance: the result array after the region as one
  whole-array function of the region's input arrays. Row i lies in row tile i / 512; its accumulator is the zero of
  the reset followed by the four tile products in contraction-tile order, each a sum over the 2048 columns of the tile;
  the epilogue at the row tile's last point maps the accumulator to the result block.
-/
import proofs.«171818_g2000203955041256_pallasbulk_1331_5_alg».proof.Proof.RAggregate1
import Idealize.ShloMosaic.Lib.Pipeline.Value
import Idealize.ShloMosaic.Lib.ValueIdx
import Idealize.ShloMosaic.Lib.ValueIdxCoords
import Idealize.ShloMosaic.Lib.ValueLayout
import Idealize.ShloMosaic.Lib.Tactic
import Idealize.ShloMosaic.PureOps.Ideal.Laws

set_option maxRecDepth 16384

noncomputable section

namespace Cert.ReferenceIdeal.RAggregate1Value

open Cert.ReferenceIdeal.Gen Cert.ReferenceIdeal.RAggregate1
open Idealize.ShloMosaic Idealize.ShloMosaic.TcCoe Idealize.ShloMosaic.Tactic Idealize.SL.Sem
open Idealize.ShloMosaic.Pipeline (Dat)
open Idealize.ShloMosaic.ValueIdx

/-! ## What each case's stores leave, as the payloads of the blocks -/

section Pieces

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The rows of Z the body loads at grid coordinates `i`: 2048 rows from row 2048 · (contraction tile). -/
abbrev zrect (i : grid1.Coords) : Rect S8192x256 := Rect.unit (s := S8192x256) (k1_off1 i) S2048x256.size (k1_off1_inb i)

/-- The middle case's one store into the accumulator: the accumulator found plus the tile product. -/
theorem piecesB (c : Dev nD) (i : grid1.Coords) (arg2 : Memref sig .tc .vmem S512x2048 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S512x256 .bf16) (harg7 : arg7.IsWhole) (arg8 : Memref sig .tc .vmem S512x256 .f32) (harg8 : arg8.IsWhole) (hc0 : ¬cond0 i) (hc1 : ¬cond1 i) (x0 : Vec F S512x2048 .bf16) (x1 : Vec F S8192x256 .bf16) (x2 : Vec F S1x256 .f32) (x3 : Vec F S256x256 .bf16) (x4 : Vec F S1x256 .f32) (xs : Vec F S512x256 .f32) :
    View.canon (kernelRun_B c i arg2 harg2 arg3 harg3 arg4 harg4 arg5 harg5 arg6 harg6 arg7 harg7 arg8 harg8 hc0 hc1 x0 x1 x2 x3 x4 xs).2.1 = k1_pay2 (View.ld x1 (zrect i)) xs x0 := by
  unfold kernelRun_B
  dsimp only
  rw [View.canon_unit_zero hz]
  simp only [View.readAt_eq_ld, harg2.read_unread, harg3.read_unread, harg8.read_unread, View.ld_unit_zero (S := S512x256) hz, View.ld_unit_zero (S := S512x2048) hz]

/-- The reset's case: the zero block stored, read back, and the tile product added. -/
theorem piecesA (c : Dev nD) (i : grid1.Coords) (arg2 : Memref sig .tc .vmem S512x2048 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S512x256 .bf16) (harg7 : arg7.IsWhole) (arg8 : Memref sig .tc .vmem S512x256 .f32) (harg8 : arg8.IsWhole) (hc0 : cond0 i) (hc1 : ¬cond1 i) (x0 : Vec F S512x2048 .bf16) (x1 : Vec F S8192x256 .bf16) (x2 : Vec F S1x256 .f32) (x3 : Vec F S256x256 .bf16) (x4 : Vec F S1x256 .f32) :
    View.canon (kernelRun_A c i arg2 harg2 arg3 harg3 arg4 harg4 arg5 harg5 arg6 harg6 arg7 harg7 arg8 harg8 hc0 hc1 x0 x1 x2 x3 x4).2.1 = k1_pay2 (View.ld x1 (zrect i)) (k1_pay1 (F := F)) x0 := by
  unfold kernelRun_A
  dsimp only
  sl_unfold_run_names
  rw [View.canon_cons_unit_zero (S := S512x256) hz, View.readCov_unit_zero (S := S512x256) _ hz]
  simp only [View.readAt_eq_ld, harg2.read_unread, harg3.read_unread, View.ld_unit_zero (S := S512x2048) hz]

/-- The epilogue's case, the accumulator: as the middle case. -/
theorem piecesCS (c : Dev nD) (i : grid1.Coords) (arg2 : Memref sig .tc .vmem S512x2048 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S512x256 .bf16) (harg7 : arg7.IsWhole) (arg8 : Memref sig .tc .vmem S512x256 .f32) (harg8 : arg8.IsWhole) (hc0 : ¬cond0 i) (hc1 : cond1 i) (x0 : Vec F S512x2048 .bf16) (x1 : Vec F S8192x256 .bf16) (x2 : Vec F S1x256 .f32) (x3 : Vec F S256x256 .bf16) (x4 : Vec F S1x256 .f32) (xs : Vec F S512x256 .f32) :
    View.canon (kernelRun_C c i arg2 harg2 arg3 harg3 arg4 harg4 arg5 harg5 arg6 harg6 arg7 harg7 arg8 harg8 hc0 hc1 x0 x1 x2 x3 x4 xs).2.1 = k1_pay2 (View.ld x1 (zrect i)) xs x0 := by
  unfold kernelRun_C
  dsimp only
  sl_unfold_run_names
  rw [View.canon_unit_zero hz]
  simp only [View.readAt_eq_ld, harg2.read_unread, harg3.read_unread, harg8.read_unread, View.ld_unit_zero (S := S512x256) hz, View.ld_unit_zero (S := S512x2048) hz]

/-- The epilogue's case, the result block: the epilogue of the accumulator just stored and of the three resident inputs. -/
theorem piecesCO (c : Dev nD) (i : grid1.Coords) (arg2 : Memref sig .tc .vmem S512x2048 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S512x256 .bf16) (harg7 : arg7.IsWhole) (arg8 : Memref sig .tc .vmem S512x256 .f32) (harg8 : arg8.IsWhole) (hc0 : ¬cond0 i) (hc1 : cond1 i) (x0 : Vec F S512x2048 .bf16) (x1 : Vec F S8192x256 .bf16) (x2 : Vec F S1x256 .f32) (x3 : Vec F S256x256 .bf16) (x4 : Vec F S1x256 .f32) (xs : Vec F S512x256 .f32) :
    View.canon (kernelRun_C c i arg2 harg2 arg3 harg3 arg4 harg4 arg5 harg5 arg6 harg6 arg7 harg7 arg8 harg8 hc0 hc1 x0 x1 x2 x3 x4 xs).1
      = k1_pay3 (k1_pay2 (View.ld x1 (zrect i)) xs x0) x2 x3 x4 := by
  unfold kernelRun_C
  dsimp only
  sl_unfold_run_names
  rw [View.canon_unit_zero hz, View.readCov_unit_zero (S := S512x256) _ hz]
  simp only [View.readAt_eq_ld, harg2.read_unread, harg3.read_unread, harg4.read_unread, harg5.read_unread, harg6.read_unread, harg8.read_unread, View.ld_unit_zero (S := S512x256) hz, View.ld_unit_zero (S := S512x2048) hz, View.ld_unit_zero (S := S1x256) hz, View.ld_unit_zero (S := S256x256) hz, View.ld_unit_zero (S := S1x256) hz]

/-- One accumulation step at point `t`: the accumulator `xs` plus the product of the point's A tile and Z slice. -/
def stepAt (c : Dev nD) (t : Fin cfg1.N) (xs : Vec F S512x256 .f32) : Vec F S512x256 .f32 :=
  k1_pay2 (View.ld (iblk V c 1 t) (zrect (grid1.coords t))) xs (iblk V c 0 t)

theorem soutA_eq (c : Dev nD) (t : Fin cfg1.N) (hc0 : cond0 (grid1.coords t)) (hc1 : ¬cond1 (grid1.coords t)) :
    soutA V c t hc0 hc1 = stepAt V c t (k1_pay1 (F := F)) := by
  unfold soutA
  rw [View.read_writes_eq_canon _ _ _ (scoverA V c t hc0 hc1)]
  exact piecesA c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t)

theorem soutB_eq (c : Dev nD) (t : Fin cfg1.N) (hc0 : ¬cond0 (grid1.coords t)) (hc1 : ¬cond1 (grid1.coords t)) (xs : Vec F S512x256 .f32) :
    soutB V c t hc0 hc1 xs = stepAt V c t xs := by
  unfold soutB
  rw [View.read_writes_eq_canon _ _ _ (scoverB V c t hc0 hc1 xs)]
  exact piecesB c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs

theorem soutC_eq (c : Dev nD) (t : Fin cfg1.N) (hc0 : ¬cond0 (grid1.coords t)) (hc1 : cond1 (grid1.coords t)) (xs : Vec F S512x256 .f32) :
    soutC V c t hc0 hc1 xs = stepAt V c t xs := by
  unfold soutC
  rw [View.read_writes_eq_canon _ _ _ (scoverC V c t hc0 hc1 xs)]
  exact piecesCS c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs

theorem outC_eq (c : Dev nD) (t : Fin cfg1.N) (hc0 : ¬cond0 (grid1.coords t)) (hc1 : cond1 (grid1.coords t)) (xs : Vec F S512x256 .f32) :
    outC V c t hc0 hc1 xs = k1_pay3 (stepAt V c t xs) (iblk V c 2 t) (iblk V c 3 t) (iblk V c 4 t) := by
  unfold outC
  rw [View.read_writes_eq_canon _ _ _ (coverC V c t hc0 hc1 xs)]
  exact piecesCO c (grid1.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs

end Pieces

/-! ## The payloads at an index, at the ideal instance -/

section AtIdeal

/-- A product of an m×k by a k×n matrix into the zero accumulator, read at (a, b): the sum over the contracted
    coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) none A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The reset's block is zero everywhere. -/
theorem pay1_apply (p : Fin 512) (k' : Fin 256) : k1_pay1 (F := Ideal) (ix2 p k') = 0 := by
  unfold k1_pay1
  simp only [shapeCast_self]
  exact Ideal.ofBits_zero_f32

/-- The accumulation step at (p, k'): the accumulator there plus the sum over the tile's 2048 columns. -/
theorem pay2_apply (zs : FVec Ideal S2048x256 .bf16) (xs : FVec Ideal S512x256 .f32) (at_ : FVec Ideal S512x2048 .bf16) (p : Fin 512) (k' : Fin 256) :
    k1_pay2 (F := Ideal) zs xs at_ (ix2 p k') = xs (ix2 p k') + ∑ l : Fin 2048, at_ (ix2 p l) * zs (ix2 l k') := by
  unfold k1_pay2
  simp only [shapeCast_self]
  exact congrArg (xs (ix2 p k') + ·) (matmul_zero_apply dot_S512x2048_S2048x256_S512x256_1_0_0_1_n_n.wf at_ zs p k')

/-- The epilogue at (p, j). -/
theorem pay3_apply (s : FVec Ideal S512x256 .f32) (b : FVec Ideal S1x256 .f32) (w : FVec Ideal S256x256 .bf16) (bn : FVec Ideal S1x256 .f32) (p : Fin 512) (j : Fin 256) :
    k1_pay3 (F := Ideal) s b w bn (ix2 p j)
      = (∑ k' : Fin 256, max (s (ix2 p k') + b (ix2 0 k')) 0 * w (ix2 k' j)) + bn (ix2 0 j) := by
  unfold k1_pay3
  simp only [shapeCast_self]
  refine (congrArg₂ (· + ·) (matmul_zero_apply dot_S512x256_S256x256_S512x256_1_0_0_1_n_n.wf _ w p j) (broadcastTo_1b_ab_apply bn _ p j)).trans ?_
  refine congrArg (· + bn (ix2 0 j)) (Finset.sum_congr rfl fun k' _ => ?_)
  refine congrArg (· * w (ix2 k' j)) ?_
  show max (s (ix2 p k') + broadcastTo S512x256 b _ (ix2 p k')) (Ideal.ofBits .f32 0x00000000#32) = _
  rw [broadcastTo_1b_ab_apply b _ p k', Ideal.ofBits_zero_f32]

end AtIdeal

/-! ## The result array as one function of the input arrays -/

/-- The product of contraction tile q at row i and column k': the sum over the tile's 2048 columns
    2048 q + l of a(i, ·) z(·, k'). -/
def T (a : Vec Ideal S8192x8192 .bf16) (z : Vec Ideal S8192x256 .bf16) (q : Fin 4) (i : Fin 8192) (k' : Fin 256) : EReal :=
  ∑ l : Fin 2048, a (ix2 i (⟨2048 * q.val + l.val, by have := q.isLt; have := l.isLt; omega⟩ : Fin 8192))
    * z (ix2 (⟨2048 * q.val + l.val, by have := q.isLt; have := l.isLt; omega⟩ : Fin 8192) k')

def G (a : Vec Ideal S8192x8192 .bf16) (z : Vec Ideal S8192x256 .bf16) (b : Vec Ideal S1x256 .f32)
    (w : Vec Ideal S256x256 .bf16) (bn : Vec Ideal S1x256 .f32) : Vec Ideal S8192x256 .bf16 := fun idx =>
  (∑ k' : Fin 256, max (((((0 + T a z 0 (idx 0) k') + T a z 1 (idx 0) k') + T a z 2 (idx 0) k') + T a z 3 (idx 0) k') + b (ix2 0 k')) 0 * w (ix2 k' (idx 1))) + bn (ix2 0 (idx 1))

theorem G_apply (a : Vec Ideal S8192x8192 .bf16) (z : Vec Ideal S8192x256 .bf16) (b : Vec Ideal S1x256 .f32)
    (w : Vec Ideal S256x256 .bf16) (bn : Vec Ideal S1x256 .f32) (i : Fin 8192) (j : Fin 256) :
    G a z b w bn (ix2 i j)
      = (∑ k' : Fin 256, max (((((0 + T a z 0 i k') + T a z 1 i k') + T a z 2 i k') + T a z 3 i k') + b (ix2 0 k')) 0 * w (ix2 k' j)) + bn (ix2 0 j) := rfl

/-! ## The blocks the body reads, at an index of the arrays -/

section Blocks

variable (V : (c : Dev nD) → (b : Ref sig .tc) → Buf (Elt Ideal) ((c : Thread nD τ).loc b))

/-- The printed index maps over the grid: the A tile's block index is (row tile, contraction tile), the result's
    (row tile, 0), the resident inputs' (0, 0); the body's second grid coordinate is the contraction tile. -/
theorem idx_facts : ∀ t : Fin cfg1.N,
    win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 4 ∧ win1_5.index t (1 : Fin 2) = 0
    ∧ ((grid1.coords t) 1).val = t.val % 4 :=
  (by decide +kernel : ∀ t : Fin grid1.N, _)

/-- The tile product as the blocks give it: row tile r, contraction tile q (both as naturals), row p of the tile. -/
def tileSum (a : Vec Ideal S8192x8192 .bf16) (z : Vec Ideal S8192x256 .bf16) (r q : ℕ) (p : Fin 512) (k' : Fin 256) : EReal :=
  ∑ l : Fin 2048, a (ix2 (⟨(512 * r + p.val) % 8192, Nat.mod_lt _ (by decide)⟩ : Fin 8192) (⟨(2048 * q + l.val) % 8192, Nat.mod_lt _ (by decide)⟩ : Fin 8192))
    * z (ix2 (⟨(2048 * q + l.val) % 8192, Nat.mod_lt _ (by decide)⟩ : Fin 8192) k')

theorem tileSum_eq_T (a : Vec Ideal S8192x8192 .bf16) (z : Vec Ideal S8192x256 .bf16) (r : ℕ) (hr : r < 16) (q : Fin 4) (p : Fin 512) (k' : Fin 256) :
    tileSum a z r q.val p k' = T a z q (⟨512 * r + p.val, by have := p.isLt; omega⟩ : Fin 8192) k' := by
  unfold tileSum T
  refine Finset.sum_congr rfl fun l _ => ?_
  have hp := p.isLt; have hq := q.isLt; have hl := l.isLt
  have e1 : (⟨(512 * r + p.val) % 8192, Nat.mod_lt _ (by decide)⟩ : Fin 8192) = ⟨512 * r + p.val, by omega⟩ := Fin.ext (Nat.mod_eq_of_lt (by omega))
  have e2 : (⟨(2048 * q.val + l.val) % 8192, Nat.mod_lt _ (by decide)⟩ : Fin 8192) = ⟨2048 * q.val + l.val, by omega⟩ := Fin.ext (Nat.mod_eq_of_lt (by omega))
  rw [e1, e2]

/-- The A tile at point `t`, at (p, l): row 512 (t / 4) + p, column 2048 (t % 4) + l of the array. -/
theorem iblk0_apply (c : Dev nD) (t : Fin cfg1.N) (p : Fin 512) (l : Fin 2048) :
    (iblk V c 0 t : FVec Ideal S512x2048 .bf16) (ix2 p l)
      = V c main_arg0 (ix2 (⟨(512 * (t.val / 4) + p.val) % 8192, Nat.mod_lt _ (by decide)⟩ : Fin 8192) (⟨(2048 * (t.val % 4) + l.val) % 8192, Nat.mod_lt _ (by decide)⟩ : Fin 8192)) := by
  obtain ⟨e0, e1, -⟩ := idx_facts t
  have hN : t.val < 64 := lt_of_lt_of_eq t.isLt (show cfg1.N = 64 from N_1)
  have hp := p.isLt; have hl := l.isLt
  unfold iblk
  rw [View.read_apply]
  show V c main_arg0 _ = V c main_arg0 _
  refine congrArg (V c main_arg0) (funext fun ax => Fin.ext ?_)
  match ax with
  | ⟨0, _⟩ =>
    show win1_0.index t (0 : Fin 2) * 512 + 1 * p.val = (512 * (t.val / 4) + p.val) % 8192
    rw [e0]; omega
  | ⟨1, _⟩ =>
    show win1_0.index t (1 : Fin 2) * 2048 + 1 * l.val = (2048 * (t.val % 4) + l.val) % 8192
    rw [e1]; omega

/-- The Z slice the body loads at point `t`, at (l, k'): row 2048 (t % 4) + l of the array. -/
theorem zslice_apply (c : Dev nD) (t : Fin cfg1.N) (l : Fin 2048) (k' : Fin 256) :
    (View.ld (iblk V c 1 t) (zrect (grid1.coords t)) : FVec Ideal S2048x256 .bf16) (ix2 l k')
      = V c main_call0_v11 (ix2 (⟨(2048 * (t.val % 4) + l.val) % 8192, Nat.mod_lt _ (by decide)⟩ : Fin 8192) k') := by
  obtain ⟨-, -, e0, e1, -, -, -, -, -, -, -, -, eq⟩ := idx_facts t
  have hN : t.val < 64 := lt_of_lt_of_eq t.isLt (show cfg1.N = 64 from N_1)
  have hl := l.isLt
  show iblk V c 1 t ((zrect (grid1.coords t)).idx (ix2 l k')) = _
  unfold iblk
  rw [View.read_apply]
  show V c main_call0_v11 _ = V c main_call0_v11 _
  refine congrArg (V c main_call0_v11) (funext fun ax => Fin.ext ?_)
  match ax with
  | ⟨0, _⟩ =>
    show win1_1.index t (0 : Fin 2) * 8192 + 1 * ((zrect (grid1.coords t)).idx (ix2 l k') 0).val = (2048 * (t.val % 4) + l.val) % 8192
    rw [e0]
    show 0 * 8192 + 1 * ((k1_off1 (grid1.coords t)) 0 + 1 * l.val) = _
    rw [k1_off1_eq]
    show 0 * 8192 + 1 * (2048 * ((grid1.coords t) 1).val + 1 * l.val) = _
    rw [eq]; omega
  | ⟨1, _⟩ =>
    show win1_1.index t (1 : Fin 2) * 256 + 1 * ((zrect (grid1.coords t)).idx (ix2 l k') 1).val = k'.val
    rw [e1]
    show 0 * 256 + 1 * ((k1_off1 (grid1.coords t)) 1 + 1 * k'.val) = _
    rw [k1_off1_eq]
    show 0 * 256 + 1 * (0 + 1 * k'.val) = _
    omega

/-- The resident inputs' blocks are their whole arrays. -/
theorem iblk2_apply (c : Dev nD) (t : Fin cfg1.N) (k' : Fin 256) :
    (iblk V c 2 t : FVec Ideal S1x256 .f32) (ix2 (0 : Fin 1) k') = V c main_call0_v4 (ix2 (0 : Fin 1) k') := by
  obtain ⟨-, -, -, -, e0, e1, -⟩ := idx_facts t
  unfold iblk
  rw [View.read_apply]
  show V c main_call0_v4 _ = V c main_call0_v4 _
  refine congrArg (V c main_call0_v4) (funext fun ax => Fin.ext ?_)
  match ax with
  | ⟨0, _⟩ => show win1_2.index t (0 : Fin 2) * 1 + 1 * 0 = 0; rw [e0]
  | ⟨1, _⟩ => show win1_2.index t (1 : Fin 2) * 256 + 1 * k'.val = k'.val; rw [e1]; omega

theorem iblk3_apply (c : Dev nD) (t : Fin cfg1.N) (k' : Fin 256) (j : Fin 256) :
    (iblk V c 3 t : FVec Ideal S256x256 .bf16) (ix2 k' j) = V c main_call0_v6 (ix2 k' j) := by
  obtain ⟨-, -, -, -, -, -, e0, e1, -⟩ := idx_facts t
  unfold iblk
  rw [View.read_apply]
  show V c main_call0_v6 _ = V c main_call0_v6 _
  refine congrArg (V c main_call0_v6) (funext fun ax => Fin.ext ?_)
  match ax with
  | ⟨0, _⟩ => show win1_3.index t (0 : Fin 2) * 256 + 1 * k'.val = k'.val; rw [e0]; omega
  | ⟨1, _⟩ => show win1_3.index t (1 : Fin 2) * 256 + 1 * j.val = j.val; rw [e1]; omega

theorem iblk4_apply (c : Dev nD) (t : Fin cfg1.N) (j : Fin 256) :
    (iblk V c 4 t : FVec Ideal S1x256 .f32) (ix2 (0 : Fin 1) j) = V c main_call0_v12 (ix2 (0 : Fin 1) j) := by
  obtain ⟨-, -, -, -, -, -, -, -, e0, e1, -⟩ := idx_facts t
  unfold iblk
  rw [View.read_apply]
  show V c main_call0_v12 _ = V c main_call0_v12 _
  refine congrArg (V c main_call0_v12) (funext fun ax => Fin.ext ?_)
  match ax with
  | ⟨0, _⟩ => show win1_4.index t (0 : Fin 2) * 1 + 1 * 0 = 0; rw [e0]
  | ⟨1, _⟩ => show win1_4.index t (1 : Fin 2) * 256 + 1 * j.val = j.val; rw [e1]; omega

/-! ## The accumulator after each point, at an index -/

/-- One step at (p, k'): the accumulator there plus the point's tile product. -/
theorem stepAt_apply (c : Dev nD) (t : Fin cfg1.N) (xs : FVec Ideal S512x256 .f32) (p : Fin 512) (k' : Fin 256) :
    stepAt V c t xs (ix2 p k') = xs (ix2 p k') + tileSum (V c main_arg0) (V c main_call0_v11) (t.val / 4) (t.val % 4) p k' := by
  unfold stepAt
  refine (pay2_apply (View.ld (iblk V c 1 t) (zrect (grid1.coords t))) xs (iblk V c 0 t) p k').trans ?_
  refine congrArg (xs (ix2 p k') + ·) ?_
  unfold tileSum
  refine Finset.sum_congr rfl fun l _ => ?_
  rw [iblk0_apply V c t p l, zslice_apply V c t l k']

/-- The accumulator at a reset's point. -/
theorem acc_reset (c : Dev nD) (t : Fin cfg1.N) (h0 : t.val % 4 = 0) :
    acc V c t.val t.isLt = stepAt V c t (k1_pay1 (F := Ideal)) :=
  (acc_A V c t h0).trans (soutA_eq V c t _ _)

/-- The accumulator at any other point: one step from what the point before left. -/
theorem acc_step (c : Dev nD) (t : Fin cfg1.N) (h0 : ¬t.val % 4 = 0) :
    acc V c t.val t.isLt = stepAt V c t (acc V c (t.val - 1) (Nat.lt_of_le_of_lt (Nat.sub_le _ _) t.isLt)) := by
  by_cases h1 : t.val % 4 = 3
  · exact (acc_C V c t h0 h1).trans (soutC_eq V c t _ _ _)
  · exact (acc_B V c t h0 h1).trans (soutB_eq V c t _ _ _)

/-- The zero of the reset followed by the tile products of contraction tiles 0 … q, in order. -/
def chainTo (a : Vec Ideal S8192x8192 .bf16) (z : Vec Ideal S8192x256 .bf16) (r : ℕ) (p : Fin 512) (k' : Fin 256) : ℕ → EReal
  | 0 => 0 + tileSum a z r 0 p k'
  | q + 1 => chainTo a z r p k' q + tileSum a z r (q + 1) p k'

/-- The accumulator after point n, at (p, k'): the chain of its row tile up to its contraction tile. -/
theorem acc_apply (c : Dev nD) (p : Fin 512) (k' : Fin 256) : ∀ (n : ℕ) (hn : n < cfg1.N),
    acc V c n hn (ix2 p k') = chainTo (V c main_arg0) (V c main_call0_v11) (n / 4) p k' (n % 4)
  | 0, hn => by
    rw [show acc V c 0 hn = stepAt V c ⟨0, hn⟩ (k1_pay1 (F := Ideal)) from acc_reset V c ⟨0, hn⟩ rfl, stepAt_apply, pay1_apply]
    rfl
  | n + 1, hn => by
    by_cases h0 : (n + 1) % 4 = 0
    · rw [show acc V c (n + 1) hn = stepAt V c ⟨n + 1, hn⟩ (k1_pay1 (F := Ideal)) from acc_reset V c ⟨n + 1, hn⟩ h0, stepAt_apply, pay1_apply]
      show 0 + tileSum _ _ ((n + 1) / 4) ((n + 1) % 4) p k' = chainTo _ _ ((n + 1) / 4) p k' ((n + 1) % 4)
      rw [h0]; rfl
    · rw [show acc V c (n + 1) hn = stepAt V c ⟨n + 1, hn⟩ (acc V c n (Nat.lt_of_succ_lt hn)) from acc_step V c ⟨n + 1, hn⟩ h0, stepAt_apply,
        acc_apply c p k' n (Nat.lt_of_succ_lt hn)]
      show chainTo _ _ (n / 4) p k' (n % 4) + tileSum _ _ ((n + 1) / 4) ((n + 1) % 4) p k' = chainTo _ _ ((n + 1) / 4) p k' ((n + 1) % 4)
      have e1 : (n + 1) / 4 = n / 4 := by omega
      have e2 : (n + 1) % 4 = n % 4 + 1 := by omega
      rw [e1, e2]; rfl

/-! ## What an epilogue's point writes back, and the array after the region -/

/-- The result window's buffer after an epilogue's point is the epilogue of the accumulator after that point. -/
theorem outAt_eq (c : Dev nD) (t : Fin cfg1.N) (h3 : t.val % 4 = 3) :
    outAt V c t = k1_pay3 (F := Ideal) (acc V c t.val t.isLt) (iblk V c 2 t) (iblk V c 3 t) (iblk V c 4 t) := by
  have h0 : ¬t.val % 4 = 0 := by omega
  rw [outAt_C V c t h0 h3, outC_eq, acc_step V c t h0]

/-- The chain of a row tile up to its last contraction tile, over the array's rows. -/
theorem chain3_eq (a : Vec Ideal S8192x8192 .bf16) (z : Vec Ideal S8192x256 .bf16) (r : ℕ) (hr : r < 16) (p : Fin 512) (k' : Fin 256) :
    chainTo a z r p k' 3
      = (((0 + T a z 0 (⟨512 * r + p.val, by have := p.isLt; omega⟩ : Fin 8192) k') + T a z 1 (⟨512 * r + p.val, by have := p.isLt; omega⟩ : Fin 8192) k')
          + T a z 2 (⟨512 * r + p.val, by have := p.isLt; omega⟩ : Fin 8192) k') + T a z 3 (⟨512 * r + p.val, by have := p.isLt; omega⟩ : Fin 8192) k' :=
  congrArg₂ (· + ·) (congrArg₂ (· + ·) (congrArg₂ (· + ·) (congrArg (0 + ·) (tileSum_eq_T a z r hr 0 p k')) (tileSum_eq_T a z r hr 1 p k'))
    (tileSum_eq_T a z r hr 2 p k')) (tileSum_eq_T a z r hr 3 p k')

set_option maxHeartbeats 1000000 in
theorem flushed_eq (c : Dev nD) (t : Fin cfg1.N) (hf : (cfg1.win 5).flush t = true) :
    (dat V c).flushed 5 t = ((cfg1.win 5).blk t).view.read (Elt Ideal)
      (G (V c main_arg0) (V c main_call0_v11) (V c main_call0_v4) (V c main_call0_v6) (V c main_call0_v12)) := by
  have h3 : t.val % 4 = 3 := (flush1_5 t).mp hf
  have hN : t.val < 64 := lt_of_lt_of_eq t.isLt (show cfg1.N = 64 from N_1)
  have hr : t.val / 4 < 16 := by omega
  obtain ⟨-, -, -, -, -, -, -, -, -, -, e0, e1, -⟩ := idx_facts t
  show (cfg1.win 5).cut (grid1.coords t) ((dat V c).after 5 t) = _
  rw [after_5, outAt_eq V c t h3]
  funext y
  obtain ⟨p, j, rfl⟩ : ∃ (p : Fin 512) (j : Fin 256), y = ix2 p j := ⟨y 0, y 1, eq_ix2 y⟩
  have hp := p.isLt
  have hrow : 512 * (t.val / 4) + p.val < 8192 := by omega
  have hemb : ((cfg1.win 5).blk t).view.emb (ix2 p j) = ix2 (⟨512 * (t.val / 4) + p.val, hrow⟩ : Fin 8192) j := by
    funext ax; apply Fin.ext
    match ax with
    | ⟨0, _⟩ => show win1_5.index t (0 : Fin 2) * 512 + 1 * p.val = 512 * (t.val / 4) + p.val; rw [e0]; omega
    | ⟨1, _⟩ => show win1_5.index t (1 : Fin 2) * 256 + 1 * j.val = j.val; rw [e1]; omega
  show k1_pay3 (F := Ideal) (acc V c t.val t.isLt) (iblk V c 2 t) (iblk V c 3 t) (iblk V c 4 t) (ix2 p j)
      = G (V c main_arg0) (V c main_call0_v11) (V c main_call0_v4) (V c main_call0_v6) (V c main_call0_v12) (((cfg1.win 5).blk t).view.emb (ix2 p j))
  rw [hemb, G_apply]
  refine (pay3_apply (acc V c t.val t.isLt) (iblk V c 2 t) (iblk V c 3 t) (iblk V c 4 t) p j).trans ?_
  refine congrArg₂ (· + ·) (Finset.sum_congr rfl fun k' _ => ?_) (iblk4_apply V c t j)
  refine congrArg₂ (· * ·) ?_ (iblk3_apply V c t k' j)
  refine congrArg (fun s => max s 0) ?_
  refine congrArg₂ (· + ·) ?_ (iblk2_apply V c t k')
  refine (acc_apply V c p k' t.val t.isLt).trans ?_
  rw [h3]
  exact chain3_eq (V c main_arg0) (V c main_call0_v11) (t.val / 4) hr p k'

/-- An index of the array is in point `t`'s block iff each coordinate is in the block's range on its axis. -/
theorem mem_blk (t : Fin cfg1.N) (i : S8192x256.Idx) :
    i ∈ ((cfg1.win 5).blk t).view.set ↔ ∀ a : Fin 2, win1_5.index t a * S512x256.size a ≤ (i a).val ∧ (i a).val < win1_5.index t a * S512x256.size a + S512x256.size a := by
  show i ∈ ((View.whole main_call0_v13).slice (win1_5.rect t)).set ↔ _
  rw [View.set_slice_whole, Rect.mem_set_unit]
  exact Iff.rfl

/-- Row i is written back at the last point of its row tile. -/
theorem covered (i : S8192x256.Idx) : ∃ t : Fin cfg1.N, (cfg1.win 5).flush t = true ∧ i ∈ ((cfg1.win 5).blk t).view.set := by
  have hi0 : (i 0).val < 8192 := (i 0).isLt
  have hi1 : (i 1).val < 256 := (i 1).isLt
  have hN : cfg1.N = 64 := N_1
  let t : Fin cfg1.N := ⟨4 * ((i 0).val / 512) + 3, by rw [hN]; omega⟩
  have ht : t.val = 4 * ((i 0).val / 512) + 3 := rfl
  obtain ⟨-, -, -, -, -, -, -, -, -, -, e0, e1, -⟩ := idx_facts t
  refine ⟨t, (flush1_5 t).mpr (by rw [ht]; omega), ?_⟩
  rw [mem_blk]
  intro a
  match a with
  | ⟨0, _⟩ =>
    show win1_5.index t (0 : Fin 2) * 512 ≤ (i 0).val ∧ (i 0).val < win1_5.index t (0 : Fin 2) * 512 + 512
    rw [e0, ht]; omega
  | ⟨1, _⟩ =>
    show win1_5.index t (1 : Fin 2) * 256 ≤ (i 1).val ∧ (i 1).val < win1_5.index t (1 : Fin 2) * 256 + 256
    rw [e1]; omega

theorem out_eq (c : Dev nD) :
    (RAggregate1.dat (F := Ideal) V c).arrAt 5 cfg1.N
      = G (V c main_arg0) (V c main_call0_v11) (V c main_call0_v4) (V c main_call0_v6) (V c main_call0_v12) :=
  (dat V c).arrAt_eq_of_cover 5 _ (flushed_eq V c) covered

end Blocks

end Cert.ReferenceIdeal.RAggregate1Value

end
-- ==== Proof.RAggregate2Value.lean ====
/-
  The value of region 2 of the reference program at the ideal instance: the result array after the region as one
  whole-array function of the region's input arrays. Row i lies in row tile i / 512; its accumulator is the zero of
  the reset followed by the four tile products in contraction-tile order, each a sum over the 2048 columns of the tile;
  the epilogue at the row tile's last point maps the accumulator to the result block.
-/
import proofs.«171818_g2000203955041256_pallasbulk_1331_5_alg».proof.Proof.RAggregate2
import Idealize.ShloMosaic.Lib.Pipeline.Value
import Idealize.ShloMosaic.Lib.ValueIdx
import Idealize.ShloMosaic.Lib.ValueIdxCoords
import Idealize.ShloMosaic.Lib.ValueLayout
import Idealize.ShloMosaic.Lib.Tactic
import Idealize.ShloMosaic.PureOps.Ideal.Laws

set_option maxRecDepth 16384

noncomputable section

namespace Cert.ReferenceIdeal.RAggregate2Value

open Cert.ReferenceIdeal.Gen Cert.ReferenceIdeal.RAggregate2
open Idealize.ShloMosaic Idealize.ShloMosaic.TcCoe Idealize.ShloMosaic.Tactic Idealize.SL.Sem
open Idealize.ShloMosaic.Pipeline (Dat)
open Idealize.ShloMosaic.ValueIdx

/-! ## What each case's stores leave, as the payloads of the blocks -/

section Pieces

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The rows of Z the body loads at grid coordinates `i`: 2048 rows from row 2048 · (contraction tile). -/
abbrev zrect (i : grid2.Coords) : Rect S8192x256 := Rect.unit (s := S8192x256) (k2_off1 i) S2048x256.size (k2_off1_inb i)

/-- The middle case's one store into the accumulator: the accumulator found plus the tile product. -/
theorem piecesB (c : Dev nD) (i : grid2.Coords) (arg2 : Memref sig .tc .vmem S512x2048 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S512x128 .f32) (harg7 : arg7.IsWhole) (arg8 : Memref sig .tc .vmem S512x256 .f32) (harg8 : arg8.IsWhole) (hc0 : ¬cond0 i) (hc1 : ¬cond1 i) (x0 : Vec F S512x2048 .bf16) (x1 : Vec F S8192x256 .bf16) (x2 : Vec F S1x256 .f32) (x3 : Vec F S256x128 .bf16) (x4 : Vec F S1x128 .f32) (xs : Vec F S512x256 .f32) :
    View.canon (kernelRun_B c i arg2 harg2 arg3 harg3 arg4 harg4 arg5 harg5 arg6 harg6 arg7 harg7 arg8 harg8 hc0 hc1 x0 x1 x2 x3 x4 xs).2.1 = k2_pay2 (View.ld x1 (zrect i)) xs x0 := by
  unfold kernelRun_B
  dsimp only
  rw [View.canon_unit_zero hz]
  simp only [View.readAt_eq_ld, harg2.read_unread, harg3.read_unread, harg8.read_unread, View.ld_unit_zero (S := S512x256) hz, View.ld_unit_zero (S := S512x2048) hz]

/-- The reset's case: the zero block stored, read back, and the tile product added. -/
theorem piecesA (c : Dev nD) (i : grid2.Coords) (arg2 : Memref sig .tc .vmem S512x2048 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S512x128 .f32) (harg7 : arg7.IsWhole) (arg8 : Memref sig .tc .vmem S512x256 .f32) (harg8 : arg8.IsWhole) (hc0 : cond0 i) (hc1 : ¬cond1 i) (x0 : Vec F S512x2048 .bf16) (x1 : Vec F S8192x256 .bf16) (x2 : Vec F S1x256 .f32) (x3 : Vec F S256x128 .bf16) (x4 : Vec F S1x128 .f32) :
    View.canon (kernelRun_A c i arg2 harg2 arg3 harg3 arg4 harg4 arg5 harg5 arg6 harg6 arg7 harg7 arg8 harg8 hc0 hc1 x0 x1 x2 x3 x4).2.1 = k2_pay2 (View.ld x1 (zrect i)) (k2_pay1 (F := F)) x0 := by
  unfold kernelRun_A
  dsimp only
  sl_unfold_run_names
  rw [View.canon_cons_unit_zero (S := S512x256) hz, View.readCov_unit_zero (S := S512x256) _ hz]
  simp only [View.readAt_eq_ld, harg2.read_unread, harg3.read_unread, View.ld_unit_zero (S := S512x2048) hz]

/-- The epilogue's case, the accumulator: as the middle case. -/
theorem piecesCS (c : Dev nD) (i : grid2.Coords) (arg2 : Memref sig .tc .vmem S512x2048 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S512x128 .f32) (harg7 : arg7.IsWhole) (arg8 : Memref sig .tc .vmem S512x256 .f32) (harg8 : arg8.IsWhole) (hc0 : ¬cond0 i) (hc1 : cond1 i) (x0 : Vec F S512x2048 .bf16) (x1 : Vec F S8192x256 .bf16) (x2 : Vec F S1x256 .f32) (x3 : Vec F S256x128 .bf16) (x4 : Vec F S1x128 .f32) (xs : Vec F S512x256 .f32) :
    View.canon (kernelRun_C c i arg2 harg2 arg3 harg3 arg4 harg4 arg5 harg5 arg6 harg6 arg7 harg7 arg8 harg8 hc0 hc1 x0 x1 x2 x3 x4 xs).2.1 = k2_pay2 (View.ld x1 (zrect i)) xs x0 := by
  unfold kernelRun_C
  dsimp only
  sl_unfold_run_names
  rw [View.canon_unit_zero hz]
  simp only [View.readAt_eq_ld, harg2.read_unread, harg3.read_unread, harg8.read_unread, View.ld_unit_zero (S := S512x256) hz, View.ld_unit_zero (S := S512x2048) hz]

/-- The epilogue's case, the result block: the epilogue of the accumulator just stored and of the three resident inputs. -/
theorem piecesCO (c : Dev nD) (i : grid2.Coords) (arg2 : Memref sig .tc .vmem S512x2048 .bf16) (harg2 : arg2.IsWhole) (arg3 : Memref sig .tc .vmem S8192x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S512x128 .f32) (harg7 : arg7.IsWhole) (arg8 : Memref sig .tc .vmem S512x256 .f32) (harg8 : arg8.IsWhole) (hc0 : ¬cond0 i) (hc1 : cond1 i) (x0 : Vec F S512x2048 .bf16) (x1 : Vec F S8192x256 .bf16) (x2 : Vec F S1x256 .f32) (x3 : Vec F S256x128 .bf16) (x4 : Vec F S1x128 .f32) (xs : Vec F S512x256 .f32) :
    View.canon (kernelRun_C c i arg2 harg2 arg3 harg3 arg4 harg4 arg5 harg5 arg6 harg6 arg7 harg7 arg8 harg8 hc0 hc1 x0 x1 x2 x3 x4 xs).1
      = k2_pay3 (k2_pay2 (View.ld x1 (zrect i)) xs x0) x2 x3 x4 := by
  unfold kernelRun_C
  dsimp only
  sl_unfold_run_names
  rw [View.canon_unit_zero hz, View.readCov_unit_zero (S := S512x256) _ hz]
  simp only [View.readAt_eq_ld, harg2.read_unread, harg3.read_unread, harg4.read_unread, harg5.read_unread, harg6.read_unread, harg8.read_unread, View.ld_unit_zero (S := S512x256) hz, View.ld_unit_zero (S := S512x2048) hz, View.ld_unit_zero (S := S1x256) hz, View.ld_unit_zero (S := S256x128) hz, View.ld_unit_zero (S := S1x128) hz]

/-- One accumulation step at point `t`: the accumulator `xs` plus the product of the point's A tile and Z slice. -/
def stepAt (c : Dev nD) (t : Fin cfg2.N) (xs : Vec F S512x256 .f32) : Vec F S512x256 .f32 :=
  k2_pay2 (View.ld (iblk V c 1 t) (zrect (grid2.coords t))) xs (iblk V c 0 t)

theorem soutA_eq (c : Dev nD) (t : Fin cfg2.N) (hc0 : cond0 (grid2.coords t)) (hc1 : ¬cond1 (grid2.coords t)) :
    soutA V c t hc0 hc1 = stepAt V c t (k2_pay1 (F := F)) := by
  unfold soutA
  rw [View.read_writes_eq_canon _ _ _ (scoverA V c t hc0 hc1)]
  exact piecesA c (grid2.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t)

theorem soutB_eq (c : Dev nD) (t : Fin cfg2.N) (hc0 : ¬cond0 (grid2.coords t)) (hc1 : ¬cond1 (grid2.coords t)) (xs : Vec F S512x256 .f32) :
    soutB V c t hc0 hc1 xs = stepAt V c t xs := by
  unfold soutB
  rw [View.read_writes_eq_canon _ _ _ (scoverB V c t hc0 hc1 xs)]
  exact piecesB c (grid2.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs

theorem soutC_eq (c : Dev nD) (t : Fin cfg2.N) (hc0 : ¬cond0 (grid2.coords t)) (hc1 : cond1 (grid2.coords t)) (xs : Vec F S512x256 .f32) :
    soutC V c t hc0 hc1 xs = stepAt V c t xs := by
  unfold soutC
  rw [View.read_writes_eq_canon _ _ _ (scoverC V c t hc0 hc1 xs)]
  exact piecesCS c (grid2.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs

theorem outC_eq (c : Dev nD) (t : Fin cfg2.N) (hc0 : ¬cond0 (grid2.coords t)) (hc1 : cond1 (grid2.coords t)) (xs : Vec F S512x256 .f32) :
    outC V c t hc0 hc1 xs = k2_pay3 (stepAt V c t xs) (iblk V c 2 t) (iblk V c 3 t) (iblk V c 4 t) := by
  unfold outC
  rw [View.read_writes_eq_canon _ _ _ (coverC V c t hc0 hc1 xs)]
  exact piecesCO c (grid2.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (iblk V c 0 t) (iblk V c 1 t) (iblk V c 2 t) (iblk V c 3 t) (iblk V c 4 t) xs

end Pieces

/-! ## The payloads at an index, at the ideal instance -/

section AtIdeal

/-- A product of an m×k by a k×n matrix into the zero accumulator, read at (a, b): the sum over the contracted
    coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) none A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The reset's block is zero everywhere. -/
theorem pay1_apply (p : Fin 512) (k' : Fin 256) : k2_pay1 (F := Ideal) (ix2 p k') = 0 := by
  unfold k2_pay1
  simp only [shapeCast_self]
  exact Ideal.ofBits_zero_f32

/-- The accumulation step at (p, k'): the accumulator there plus the sum over the tile's 2048 columns. -/
theorem pay2_apply (zs : FVec Ideal S2048x256 .bf16) (xs : FVec Ideal S512x256 .f32) (at_ : FVec Ideal S512x2048 .bf16) (p : Fin 512) (k' : Fin 256) :
    k2_pay2 (F := Ideal) zs xs at_ (ix2 p k') = xs (ix2 p k') + ∑ l : Fin 2048, at_ (ix2 p l) * zs (ix2 l k') := by
  unfold k2_pay2
  simp only [shapeCast_self]
  exact congrArg (xs (ix2 p k') + ·) (matmul_zero_apply dot_S512x2048_S2048x256_S512x256_1_0_0_1_n_n.wf at_ zs p k')

/-- The epilogue at (p, j). -/
theorem pay3_apply (s : FVec Ideal S512x256 .f32) (b : FVec Ideal S1x256 .f32) (w : FVec Ideal S256x128 .bf16) (bn : FVec Ideal S1x128 .f32) (p : Fin 512) (j : Fin 128) :
    k2_pay3 (F := Ideal) s b w bn (ix2 p j)
      = (∑ k' : Fin 256, (s (ix2 p k') + b (ix2 0 k')) * w (ix2 k' j)) + bn (ix2 0 j) := by
  unfold k2_pay3
  simp only [shapeCast_self]
  refine (congrArg₂ (· + ·) (matmul_zero_apply dot_S512x256_S256x128_S512x128_1_0_0_1_n_n.wf _ w p j) (broadcastTo_1b_ab_apply bn _ p j)).trans ?_
  refine congrArg (· + bn (ix2 0 j)) (Finset.sum_congr rfl fun k' _ => ?_)
  refine congrArg (· * w (ix2 k' j)) ?_
  show s (ix2 p k') + broadcastTo S512x256 b _ (ix2 p k') = _
  rw [broadcastTo_1b_ab_apply b _ p k']

end AtIdeal

/-! ## The result array as one function of the input arrays -/

/-- The product of contraction tile q at row i and column k': the sum over the tile's 2048 columns
    2048 q + l of a(i, ·) z(·, k'). -/
def T (a : Vec Ideal S8192x8192 .bf16) (z : Vec Ideal S8192x256 .bf16) (q : Fin 4) (i : Fin 8192) (k' : Fin 256) : EReal :=
  ∑ l : Fin 2048, a (ix2 i (⟨2048 * q.val + l.val, by have := q.isLt; have := l.isLt; omega⟩ : Fin 8192))
    * z (ix2 (⟨2048 * q.val + l.val, by have := q.isLt; have := l.isLt; omega⟩ : Fin 8192) k')

def G (a : Vec Ideal S8192x8192 .bf16) (z : Vec Ideal S8192x256 .bf16) (b : Vec Ideal S1x256 .f32)
    (w : Vec Ideal S256x128 .bf16) (bn : Vec Ideal S1x128 .f32) : Vec Ideal S8192x128 .f32 := fun idx =>
  (∑ k' : Fin 256, (((((0 + T a z 0 (idx 0) k') + T a z 1 (idx 0) k') + T a z 2 (idx 0) k') + T a z 3 (idx 0) k') + b (ix2 0 k')) * w (ix2 k' (idx 1))) + bn (ix2 0 (idx 1))

theorem G_apply (a : Vec Ideal S8192x8192 .bf16) (z : Vec Ideal S8192x256 .bf16) (b : Vec Ideal S1x256 .f32)
    (w : Vec Ideal S256x128 .bf16) (bn : Vec Ideal S1x128 .f32) (i : Fin 8192) (j : Fin 128) :
    G a z b w bn (ix2 i j)
      = (∑ k' : Fin 256, (((((0 + T a z 0 i k') + T a z 1 i k') + T a z 2 i k') + T a z 3 i k') + b (ix2 0 k')) * w (ix2 k' j)) + bn (ix2 0 j) := rfl

/-! ## The blocks the body reads, at an index of the arrays -/

section Blocks

variable (V : (c : Dev nD) → (b : Ref sig .tc) → Buf (Elt Ideal) ((c : Thread nD τ).loc b))

/-- The printed index maps over the grid: the A tile's block index is (row tile, contraction tile), the result's
    (row tile, 0), the resident inputs' (0, 0); the body's second grid coordinate is the contraction tile. -/
theorem idx_facts : ∀ t : Fin cfg2.N,
    win2_0.index t (0 : Fin 2) = t.val / 4 ∧ win2_0.index t (1 : Fin 2) = t.val % 4
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 4 ∧ win2_5.index t (1 : Fin 2) = 0
    ∧ ((grid2.coords t) 1).val = t.val % 4 :=
  (by decide +kernel : ∀ t : Fin grid2.N, _)

/-- The tile product as the blocks give it: row tile r, contraction tile q (both as naturals), row p of the tile. -/
def tileSum (a : Vec Ideal S8192x8192 .bf16) (z : Vec Ideal S8192x256 .bf16) (r q : ℕ) (p : Fin 512) (k' : Fin 256) : EReal :=
  ∑ l : Fin 2048, a (ix2 (⟨(512 * r + p.val) % 8192, Nat.mod_lt _ (by decide)⟩ : Fin 8192) (⟨(2048 * q + l.val) % 8192, Nat.mod_lt _ (by decide)⟩ : Fin 8192))
    * z (ix2 (⟨(2048 * q + l.val) % 8192, Nat.mod_lt _ (by decide)⟩ : Fin 8192) k')

theorem tileSum_eq_T (a : Vec Ideal S8192x8192 .bf16) (z : Vec Ideal S8192x256 .bf16) (r : ℕ) (hr : r < 16) (q : Fin 4) (p : Fin 512) (k' : Fin 256) :
    tileSum a z r q.val p k' = T a z q (⟨512 * r + p.val, by have := p.isLt; omega⟩ : Fin 8192) k' := by
  unfold tileSum T
  refine Finset.sum_congr rfl fun l _ => ?_
  have hp := p.isLt; have hq := q.isLt; have hl := l.isLt
  have e1 : (⟨(512 * r + p.val) % 8192, Nat.mod_lt _ (by decide)⟩ : Fin 8192) = ⟨512 * r + p.val, by omega⟩ := Fin.ext (Nat.mod_eq_of_lt (by omega))
  have e2 : (⟨(2048 * q.val + l.val) % 8192, Nat.mod_lt _ (by decide)⟩ : Fin 8192) = ⟨2048 * q.val + l.val, by omega⟩ := Fin.ext (Nat.mod_eq_of_lt (by omega))
  rw [e1, e2]

/-- The A tile at point `t`, at (p, l): row 512 (t / 4) + p, column 2048 (t % 4) + l of the array. -/
theorem iblk0_apply (c : Dev nD) (t : Fin cfg2.N) (p : Fin 512) (l : Fin 2048) :
    (iblk V c 0 t : FVec Ideal S512x2048 .bf16) (ix2 p l)
      = V c main_arg0 (ix2 (⟨(512 * (t.val / 4) + p.val) % 8192, Nat.mod_lt _ (by decide)⟩ : Fin 8192) (⟨(2048 * (t.val % 4) + l.val) % 8192, Nat.mod_lt _ (by decide)⟩ : Fin 8192)) := by
  obtain ⟨e0, e1, -⟩ := idx_facts t
  have hN : t.val < 64 := lt_of_lt_of_eq t.isLt (show cfg2.N = 64 from N_2)
  have hp := p.isLt; have hl := l.isLt
  unfold iblk
  rw [View.read_apply]
  show V c main_arg0 _ = V c main_arg0 _
  refine congrArg (V c main_arg0) (funext fun ax => Fin.ext ?_)
  match ax with
  | ⟨0, _⟩ =>
    show win2_0.index t (0 : Fin 2) * 512 + 1 * p.val = (512 * (t.val / 4) + p.val) % 8192
    rw [e0]; omega
  | ⟨1, _⟩ =>
    show win2_0.index t (1 : Fin 2) * 2048 + 1 * l.val = (2048 * (t.val % 4) + l.val) % 8192
    rw [e1]; omega

/-- The Z slice the body loads at point `t`, at (l, k'): row 2048 (t % 4) + l of the array. -/
theorem zslice_apply (c : Dev nD) (t : Fin cfg2.N) (l : Fin 2048) (k' : Fin 256) :
    (View.ld (iblk V c 1 t) (zrect (grid2.coords t)) : FVec Ideal S2048x256 .bf16) (ix2 l k')
      = V c main_call0_v13 (ix2 (⟨(2048 * (t.val % 4) + l.val) % 8192, Nat.mod_lt _ (by decide)⟩ : Fin 8192) k') := by
  obtain ⟨-, -, e0, e1, -, -, -, -, -, -, -, -, eq⟩ := idx_facts t
  have hN : t.val < 64 := lt_of_lt_of_eq t.isLt (show cfg2.N = 64 from N_2)
  have hl := l.isLt
  show iblk V c 1 t ((zrect (grid2.coords t)).idx (ix2 l k')) = _
  unfold iblk
  rw [View.read_apply]
  show V c main_call0_v13 _ = V c main_call0_v13 _
  refine congrArg (V c main_call0_v13) (funext fun ax => Fin.ext ?_)
  match ax with
  | ⟨0, _⟩ =>
    show win2_1.index t (0 : Fin 2) * 8192 + 1 * ((zrect (grid2.coords t)).idx (ix2 l k') 0).val = (2048 * (t.val % 4) + l.val) % 8192
    rw [e0]
    show 0 * 8192 + 1 * ((k2_off1 (grid2.coords t)) 0 + 1 * l.val) = _
    rw [k2_off1_eq]
    show 0 * 8192 + 1 * (2048 * ((grid2.coords t) 1).val + 1 * l.val) = _
    rw [eq]; omega
  | ⟨1, _⟩ =>
    show win2_1.index t (1 : Fin 2) * 256 + 1 * ((zrect (grid2.coords t)).idx (ix2 l k') 1).val = k'.val
    rw [e1]
    show 0 * 256 + 1 * ((k2_off1 (grid2.coords t)) 1 + 1 * k'.val) = _
    rw [k2_off1_eq]
    show 0 * 256 + 1 * (0 + 1 * k'.val) = _
    omega

/-- The resident inputs' blocks are their whole arrays. -/
theorem iblk2_apply (c : Dev nD) (t : Fin cfg2.N) (k' : Fin 256) :
    (iblk V c 2 t : FVec Ideal S1x256 .f32) (ix2 (0 : Fin 1) k') = V c main_call0_v7 (ix2 (0 : Fin 1) k') := by
  obtain ⟨-, -, -, -, e0, e1, -⟩ := idx_facts t
  unfold iblk
  rw [View.read_apply]
  show V c main_call0_v7 _ = V c main_call0_v7 _
  refine congrArg (V c main_call0_v7) (funext fun ax => Fin.ext ?_)
  match ax with
  | ⟨0, _⟩ => show win2_2.index t (0 : Fin 2) * 1 + 1 * 0 = 0; rw [e0]
  | ⟨1, _⟩ => show win2_2.index t (1 : Fin 2) * 256 + 1 * k'.val = k'.val; rw [e1]; omega

theorem iblk3_apply (c : Dev nD) (t : Fin cfg2.N) (k' : Fin 256) (j : Fin 128) :
    (iblk V c 3 t : FVec Ideal S256x128 .bf16) (ix2 k' j) = V c main_call0_v9 (ix2 k' j) := by
  obtain ⟨-, -, -, -, -, -, e0, e1, -⟩ := idx_facts t
  unfold iblk
  rw [View.read_apply]
  show V c main_call0_v9 _ = V c main_call0_v9 _
  refine congrArg (V c main_call0_v9) (funext fun ax => Fin.ext ?_)
  match ax with
  | ⟨0, _⟩ => show win2_3.index t (0 : Fin 2) * 256 + 1 * k'.val = k'.val; rw [e0]; omega
  | ⟨1, _⟩ => show win2_3.index t (1 : Fin 2) * 128 + 1 * j.val = j.val; rw [e1]; omega

theorem iblk4_apply (c : Dev nD) (t : Fin cfg2.N) (j : Fin 128) :
    (iblk V c 4 t : FVec Ideal S1x128 .f32) (ix2 (0 : Fin 1) j) = V c main_call0_v10 (ix2 (0 : Fin 1) j) := by
  obtain ⟨-, -, -, -, -, -, -, -, e0, e1, -⟩ := idx_facts t
  unfold iblk
  rw [View.read_apply]
  show V c main_call0_v10 _ = V c main_call0_v10 _
  refine congrArg (V c main_call0_v10) (funext fun ax => Fin.ext ?_)
  match ax with
  | ⟨0, _⟩ => show win2_4.index t (0 : Fin 2) * 1 + 1 * 0 = 0; rw [e0]
  | ⟨1, _⟩ => show win2_4.index t (1 : Fin 2) * 128 + 1 * j.val = j.val; rw [e1]; omega

/-! ## The accumulator after each point, at an index -/

/-- One step at (p, k'): the accumulator there plus the point's tile product. -/
theorem stepAt_apply (c : Dev nD) (t : Fin cfg2.N) (xs : FVec Ideal S512x256 .f32) (p : Fin 512) (k' : Fin 256) :
    stepAt V c t xs (ix2 p k') = xs (ix2 p k') + tileSum (V c main_arg0) (V c main_call0_v13) (t.val / 4) (t.val % 4) p k' := by
  unfold stepAt
  refine (pay2_apply (View.ld (iblk V c 1 t) (zrect (grid2.coords t))) xs (iblk V c 0 t) p k').trans ?_
  refine congrArg (xs (ix2 p k') + ·) ?_
  unfold tileSum
  refine Finset.sum_congr rfl fun l _ => ?_
  rw [iblk0_apply V c t p l, zslice_apply V c t l k']

/-- The accumulator at a reset's point. -/
theorem acc_reset (c : Dev nD) (t : Fin cfg2.N) (h0 : t.val % 4 = 0) :
    acc V c t.val t.isLt = stepAt V c t (k2_pay1 (F := Ideal)) :=
  (acc_A V c t h0).trans (soutA_eq V c t _ _)

/-- The accumulator at any other point: one step from what the point before left. -/
theorem acc_step (c : Dev nD) (t : Fin cfg2.N) (h0 : ¬t.val % 4 = 0) :
    acc V c t.val t.isLt = stepAt V c t (acc V c (t.val - 1) (Nat.lt_of_le_of_lt (Nat.sub_le _ _) t.isLt)) := by
  by_cases h1 : t.val % 4 = 3
  · exact (acc_C V c t h0 h1).trans (soutC_eq V c t _ _ _)
  · exact (acc_B V c t h0 h1).trans (soutB_eq V c t _ _ _)

/-- The zero of the reset followed by the tile products of contraction tiles 0 … q, in order. -/
def chainTo (a : Vec Ideal S8192x8192 .bf16) (z : Vec Ideal S8192x256 .bf16) (r : ℕ) (p : Fin 512) (k' : Fin 256) : ℕ → EReal
  | 0 => 0 + tileSum a z r 0 p k'
  | q + 1 => chainTo a z r p k' q + tileSum a z r (q + 1) p k'

/-- The accumulator after point n, at (p, k'): the chain of its row tile up to its contraction tile. -/
theorem acc_apply (c : Dev nD) (p : Fin 512) (k' : Fin 256) : ∀ (n : ℕ) (hn : n < cfg2.N),
    acc V c n hn (ix2 p k') = chainTo (V c main_arg0) (V c main_call0_v13) (n / 4) p k' (n % 4)
  | 0, hn => by
    rw [show acc V c 0 hn = stepAt V c ⟨0, hn⟩ (k2_pay1 (F := Ideal)) from acc_reset V c ⟨0, hn⟩ rfl, stepAt_apply, pay1_apply]
    rfl
  | n + 1, hn => by
    by_cases h0 : (n + 1) % 4 = 0
    · rw [show acc V c (n + 1) hn = stepAt V c ⟨n + 1, hn⟩ (k2_pay1 (F := Ideal)) from acc_reset V c ⟨n + 1, hn⟩ h0, stepAt_apply, pay1_apply]
      show 0 + tileSum _ _ ((n + 1) / 4) ((n + 1) % 4) p k' = chainTo _ _ ((n + 1) / 4) p k' ((n + 1) % 4)
      rw [h0]; rfl
    · rw [show acc V c (n + 1) hn = stepAt V c ⟨n + 1, hn⟩ (acc V c n (Nat.lt_of_succ_lt hn)) from acc_step V c ⟨n + 1, hn⟩ h0, stepAt_apply,
        acc_apply c p k' n (Nat.lt_of_succ_lt hn)]
      show chainTo _ _ (n / 4) p k' (n % 4) + tileSum _ _ ((n + 1) / 4) ((n + 1) % 4) p k' = chainTo _ _ ((n + 1) / 4) p k' ((n + 1) % 4)
      have e1 : (n + 1) / 4 = n / 4 := by omega
      have e2 : (n + 1) % 4 = n % 4 + 1 := by omega
      rw [e1, e2]; rfl

/-! ## What an epilogue's point writes back, and the array after the region -/

/-- The result window's buffer after an epilogue's point is the epilogue of the accumulator after that point. -/
theorem outAt_eq (c : Dev nD) (t : Fin cfg2.N) (h3 : t.val % 4 = 3) :
    outAt V c t = k2_pay3 (F := Ideal) (acc V c t.val t.isLt) (iblk V c 2 t) (iblk V c 3 t) (iblk V c 4 t) := by
  have h0 : ¬t.val % 4 = 0 := by omega
  rw [outAt_C V c t h0 h3, outC_eq, acc_step V c t h0]

/-- The chain of a row tile up to its last contraction tile, over the array's rows. -/
theorem chain3_eq (a : Vec Ideal S8192x8192 .bf16) (z : Vec Ideal S8192x256 .bf16) (r : ℕ) (hr : r < 16) (p : Fin 512) (k' : Fin 256) :
    chainTo a z r p k' 3
      = (((0 + T a z 0 (⟨512 * r + p.val, by have := p.isLt; omega⟩ : Fin 8192) k') + T a z 1 (⟨512 * r + p.val, by have := p.isLt; omega⟩ : Fin 8192) k')
          + T a z 2 (⟨512 * r + p.val, by have := p.isLt; omega⟩ : Fin 8192) k') + T a z 3 (⟨512 * r + p.val, by have := p.isLt; omega⟩ : Fin 8192) k' :=
  congrArg₂ (· + ·) (congrArg₂ (· + ·) (congrArg₂ (· + ·) (congrArg (0 + ·) (tileSum_eq_T a z r hr 0 p k')) (tileSum_eq_T a z r hr 1 p k'))
    (tileSum_eq_T a z r hr 2 p k')) (tileSum_eq_T a z r hr 3 p k')

set_option maxHeartbeats 1000000 in
theorem flushed_eq (c : Dev nD) (t : Fin cfg2.N) (hf : (cfg2.win 5).flush t = true) :
    (dat V c).flushed 5 t = ((cfg2.win 5).blk t).view.read (Elt Ideal)
      (G (V c main_arg0) (V c main_call0_v13) (V c main_call0_v7) (V c main_call0_v9) (V c main_call0_v10)) := by
  have h3 : t.val % 4 = 3 := (flush2_5 t).mp hf
  have hN : t.val < 64 := lt_of_lt_of_eq t.isLt (show cfg2.N = 64 from N_2)
  have hr : t.val / 4 < 16 := by omega
  obtain ⟨-, -, -, -, -, -, -, -, -, -, e0, e1, -⟩ := idx_facts t
  show (cfg2.win 5).cut (grid2.coords t) ((dat V c).after 5 t) = _
  rw [after_5, outAt_eq V c t h3]
  funext y
  obtain ⟨p, j, rfl⟩ : ∃ (p : Fin 512) (j : Fin 128), y = ix2 p j := ⟨y 0, y 1, eq_ix2 y⟩
  have hp := p.isLt
  have hrow : 512 * (t.val / 4) + p.val < 8192 := by omega
  have hemb : ((cfg2.win 5).blk t).view.emb (ix2 p j) = ix2 (⟨512 * (t.val / 4) + p.val, hrow⟩ : Fin 8192) j := by
    funext ax; apply Fin.ext
    match ax with
    | ⟨0, _⟩ => show win2_5.index t (0 : Fin 2) * 512 + 1 * p.val = 512 * (t.val / 4) + p.val; rw [e0]; omega
    | ⟨1, _⟩ => show win2_5.index t (1 : Fin 2) * 128 + 1 * j.val = j.val; rw [e1]; omega
  show k2_pay3 (F := Ideal) (acc V c t.val t.isLt) (iblk V c 2 t) (iblk V c 3 t) (iblk V c 4 t) (ix2 p j)
      = G (V c main_arg0) (V c main_call0_v13) (V c main_call0_v7) (V c main_call0_v9) (V c main_call0_v10) (((cfg2.win 5).blk t).view.emb (ix2 p j))
  rw [hemb, G_apply]
  refine (pay3_apply (acc V c t.val t.isLt) (iblk V c 2 t) (iblk V c 3 t) (iblk V c 4 t) p j).trans ?_
  refine congrArg₂ (· + ·) (Finset.sum_congr rfl fun k' _ => ?_) (iblk4_apply V c t j)
  refine congrArg₂ (· * ·) ?_ (iblk3_apply V c t k' j)
  refine congrArg₂ (· + ·) ?_ (iblk2_apply V c t k')
  refine (acc_apply V c p k' t.val t.isLt).trans ?_
  rw [h3]
  exact chain3_eq (V c main_arg0) (V c main_call0_v13) (t.val / 4) hr p k'

/-- An index of the array is in point `t`'s block iff each coordinate is in the block's range on its axis. -/
theorem mem_blk (t : Fin cfg2.N) (i : S8192x128.Idx) :
    i ∈ ((cfg2.win 5).blk t).view.set ↔ ∀ a : Fin 2, win2_5.index t a * S512x128.size a ≤ (i a).val ∧ (i a).val < win2_5.index t a * S512x128.size a + S512x128.size a := by
  show i ∈ ((View.whole main_v0).slice (win2_5.rect t)).set ↔ _
  rw [View.set_slice_whole, Rect.mem_set_unit]
  exact Iff.rfl

/-- Row i is written back at the last point of its row tile. -/
theorem covered (i : S8192x128.Idx) : ∃ t : Fin cfg2.N, (cfg2.win 5).flush t = true ∧ i ∈ ((cfg2.win 5).blk t).view.set := by
  have hi0 : (i 0).val < 8192 := (i 0).isLt
  have hi1 : (i 1).val < 128 := (i 1).isLt
  have hN : cfg2.N = 64 := N_2
  let t : Fin cfg2.N := ⟨4 * ((i 0).val / 512) + 3, by rw [hN]; omega⟩
  have ht : t.val = 4 * ((i 0).val / 512) + 3 := rfl
  obtain ⟨-, -, -, -, -, -, -, -, -, -, e0, e1, -⟩ := idx_facts t
  refine ⟨t, (flush2_5 t).mpr (by rw [ht]; omega), ?_⟩
  rw [mem_blk]
  intro a
  match a with
  | ⟨0, _⟩ =>
    show win2_5.index t (0 : Fin 2) * 512 ≤ (i 0).val ∧ (i 0).val < win2_5.index t (0 : Fin 2) * 512 + 512
    rw [e0, ht]; omega
  | ⟨1, _⟩ =>
    show win2_5.index t (1 : Fin 2) * 128 ≤ (i 1).val ∧ (i 1).val < win2_5.index t (1 : Fin 2) * 128 + 128
    rw [e1]; omega

theorem out_eq (c : Dev nD) :
    (RAggregate2.dat (F := Ideal) V c).arrAt 5 cfg2.N
      = G (V c main_arg0) (V c main_call0_v13) (V c main_call0_v7) (V c main_call0_v9) (V c main_call0_v10) :=
  (dat V c).arrAt_eq_of_cover 5 _ (flushed_eq V c) covered

end Blocks

end Cert.ReferenceIdeal.RAggregate2Value

end
-- ==== Proof.HostLayout.lean ====
/-
  Host layout operations that change nothing.

  A pad of zero width on every side with no interior padding reads the operand at every index: the padded shape is
  the operand's own, and each coordinate j is the low padding 0 plus j whole steps of 1.
-/
import Idealize.ShloMosaic.Lib.KernelVsHost

namespace Cert.Gcn

open Idealize.ShloMosaic

/-- A pad with no low, no high and no interior padding is the operand. -/
theorem pad_none {s : Shape} {α : Type} (lo hi interior : Fin s.rank → Nat) (hlo : ∀ a, lo a = 0)
    (hint : ∀ a, interior a = 0) (x : s.Idx → α) {u : Shape} (v : u.Idx → α)
    (h : s.Pads lo hi interior s) (hu : 0 < u.numel) : pad s lo hi interior x v h hu = x := by
  funext j
  refine pad_apply_of_inside lo hi interior x v h hu j j (fun a => ?_)
  rw [hlo a, hint a]
  simp

end Cert.Gcn
-- ==== Proof.RValue.lean ====
/-
  What the reference program computes, as one function of its eight argument arrays.

  Region 2's result block comes from the adjacency matrix, Z2, the second bias row, the cast Wfc and the output bias; Z2 is
  region 1's result over the adjacency matrix, Z1, the first bias row, the cast W2 and a row of zeros the host writes; Z1
  is region 0's result over the cast X and the cast W1. The first host stretch pads every argument by zero on every side
  (the identity) and casts the matrices to a narrower float format (the identity on the extended reals); the second
  writes the zero row. No host operation writes an argument.
-/
import proofs.«171818_g2000203955041256_pallasbulk_1331_5_alg».proof.Proof.RRun
import proofs.«171818_g2000203955041256_pallasbulk_1331_5_alg».proof.Proof.RFeatureValue
import proofs.«171818_g2000203955041256_pallasbulk_1331_5_alg».proof.Proof.RAggregate1Value
import proofs.«171818_g2000203955041256_pallasbulk_1331_5_alg».proof.Proof.RAggregate2Value
import proofs.«171818_g2000203955041256_pallasbulk_1331_5_alg».proof.Proof.HostLayout
import Idealize.ShloMosaic.Lib.StableHlo.Run

noncomputable section

namespace Cert.ReferenceIdeal.RValue

open Idealize.ShloMosaic Idealize.ShloMosaic.TcCoe Idealize.SL.Sem
open Cert.ReferenceIdeal Cert.ReferenceIdeal.Gen Cert.ReferenceIdeal.RRun

/-- The row of zeros the host hands region 1 as its next-layer bias. -/
def zeroRow : S1x256.Idx → EReal :=
  broadcastInDim S1x256 ![] bcast_S_S1x256 (constant (F := Ideal) S_ .f32 0x00000000#32)

/-- The reference's result from the adjacency matrix `a0`, the features `a1`, and the parameters W1, b1, W2, b2, Wfc, bfc:
    the second aggregation over Z2, the first aggregation (with a zero next-layer bias) over Z1 = X·W1. -/
def result (a0 : S8192x8192.Idx → EReal) (a1 : S8192x512.Idx → EReal) (a2 : S512x256.Idx → EReal) (a3 : S1x256.Idx → EReal)
    (a4 : S256x256.Idx → EReal) (a5 : S1x256.Idx → EReal) (a6 : S256x128.Idx → EReal) (a7 : S1x128.Idx → EReal) :
    S8192x128.Idx → EReal :=
  RAggregate2Value.G a0 (RAggregate1Value.G a0 (RFeatureValue.G a1 a2) a3 a4 zeroRow) a5 a6 a7

variable (m : (ℓ : Loc nD τ sig) → Buf (Elt Ideal) ℓ)

/-! ## The first host stretch, read back: each padded (and cast) array is its argument -/

theorem host_x (c : Dev nD) : (V1 (F := Ideal) m c main_call0_v1 : S8192x512.Idx → EReal) = m ((c : Thread nD τ).loc main_arg1) := by
  have e : (V1 (F := Ideal) m c main_call0_v1 : S8192x512.Idx → EReal)
      = pad S8192x512 ![0, 0] ![0, 0] ![0, 0] (m ((c : Thread nD τ).loc main_arg1)) (sitofp (F := Ideal) .f32 (constantI S_ 32 0#32))
          pads_S8192x512_S8192x512_000_000 h_S_ := by
    dsimp only [V1, V0, hostOps0]; after_results; rfl
  exact e.trans (Cert.Gcn.pad_none (s := S8192x512) ![0, 0] ![0, 0] ![0, 0] (by decide) (by decide) _ _ _ _)
theorem host_w1 (c : Dev nD) : (V1 (F := Ideal) m c main_call0_v3 : S512x256.Idx → EReal) = m ((c : Thread nD τ).loc main_arg2) := by
  have e : (V1 (F := Ideal) m c main_call0_v3 : S512x256.Idx → EReal)
      = pad S512x256 ![0, 0] ![0, 0] ![0, 0] (m ((c : Thread nD τ).loc main_arg2)) (sitofp (F := Ideal) .f32 (constantI S_ 32 0#32))
          pads_S512x256_S512x256_000_000 h_S_ := by
    dsimp only [V1, V0, hostOps0]; after_results; rfl
  exact e.trans (Cert.Gcn.pad_none (s := S512x256) ![0, 0] ![0, 0] ![0, 0] (by decide) (by decide) _ _ _ _)
theorem host_b1 (c : Dev nD) : (V1 (F := Ideal) m c main_call0_v4 : S1x256.Idx → EReal) = m ((c : Thread nD τ).loc main_arg3) := by
  have e : (V1 (F := Ideal) m c main_call0_v4 : S1x256.Idx → EReal)
      = pad S1x256 ![0, 0] ![0, 0] ![0, 0] (m ((c : Thread nD τ).loc main_arg3)) (sitofp (F := Ideal) .f32 (constantI S_ 32 0#32))
          pads_S1x256_S1x256_000_000 h_S_ := by
    dsimp only [V1, V0, hostOps0]; after_results; rfl
  exact e.trans (Cert.Gcn.pad_none (s := S1x256) ![0, 0] ![0, 0] ![0, 0] (by decide) (by decide) _ _ _ _)
theorem host_w2 (c : Dev nD) : (V1 (F := Ideal) m c main_call0_v6 : S256x256.Idx → EReal) = m ((c : Thread nD τ).loc main_arg4) := by
  have e : (V1 (F := Ideal) m c main_call0_v6 : S256x256.Idx → EReal)
      = pad S256x256 ![0, 0] ![0, 0] ![0, 0] (m ((c : Thread nD τ).loc main_arg4)) (sitofp (F := Ideal) .f32 (constantI S_ 32 0#32))
          pads_S256x256_S256x256_000_000 h_S_ := by
    dsimp only [V1, V0, hostOps0]; after_results; rfl
  exact e.trans (Cert.Gcn.pad_none (s := S256x256) ![0, 0] ![0, 0] ![0, 0] (by decide) (by decide) _ _ _ _)
theorem host_b2 (c : Dev nD) : (V1 (F := Ideal) m c main_call0_v7 : S1x256.Idx → EReal) = m ((c : Thread nD τ).loc main_arg5) := by
  have e : (V1 (F := Ideal) m c main_call0_v7 : S1x256.Idx → EReal)
      = pad S1x256 ![0, 0] ![0, 0] ![0, 0] (m ((c : Thread nD τ).loc main_arg5)) (sitofp (F := Ideal) .f32 (constantI S_ 32 0#32))
          pads_S1x256_S1x256_000_000 h_S_ := by
    dsimp only [V1, V0, hostOps0]; after_results; rfl
  exact e.trans (Cert.Gcn.pad_none (s := S1x256) ![0, 0] ![0, 0] ![0, 0] (by decide) (by decide) _ _ _ _)
theorem host_wfc (c : Dev nD) : (V1 (F := Ideal) m c main_call0_v9 : S256x128.Idx → EReal) = m ((c : Thread nD τ).loc main_arg6) := by
  have e : (V1 (F := Ideal) m c main_call0_v9 : S256x128.Idx → EReal)
      = pad S256x128 ![0, 0] ![0, 0] ![0, 0] (m ((c : Thread nD τ).loc main_arg6)) (sitofp (F := Ideal) .f32 (constantI S_ 32 0#32))
          pads_S256x128_S256x128_000_000 h_S_ := by
    dsimp only [V1, V0, hostOps0]; after_results; rfl
  exact e.trans (Cert.Gcn.pad_none (s := S256x128) ![0, 0] ![0, 0] ![0, 0] (by decide) (by decide) _ _ _ _)
theorem host_bfc (c : Dev nD) : (V1 (F := Ideal) m c main_call0_v10 : S1x128.Idx → EReal) = m ((c : Thread nD τ).loc main_arg7) := by
  have e : (V1 (F := Ideal) m c main_call0_v10 : S1x128.Idx → EReal)
      = pad S1x128 ![0, 0] ![0, 0] ![0, 0] (m ((c : Thread nD τ).loc main_arg7)) (sitofp (F := Ideal) .f32 (constantI S_ 32 0#32))
          pads_S1x128_S1x128_000_000 h_S_ := by
    dsimp only [V1, V0, hostOps0]; after_results; rfl
  exact e.trans (Cert.Gcn.pad_none (s := S1x128) ![0, 0] ![0, 0] ![0, 0] (by decide) (by decide) _ _ _ _)

/-- The second host stretch writes the row of zeros. -/
theorem host_zero (c : Dev nD) : (W3 (F := Ideal) m c main_call0_v12 : S1x256.Idx → EReal) = zeroRow := by
  dsimp only [W3, hostOps1]; after_results; rfl

/-! ## Each region's inputs, read back -/

/-- A buffer that neither region 0 nor the second host stretch writes reaches region 1 as the first stretch left it. -/
theorem E3_of (c : Dev nD) (r : Ref sig .tc) (h1 : r ∉ hostOps1_W) (h0 : ∀ w, Pipeline.arrRef spec0 w ≠ r) :
    E3 (F := Ideal) m c r = V1 m c r :=
  (W3_of m c r h1).trans (W2_of_ne m c r h0)
/-- A buffer that regions 0 and 1 and the second host stretch do not write reaches region 2 as the first stretch left it. -/
theorem E4_of (c : Dev nD) (r : Ref sig .tc) (h1 : r ∉ hostOps1_W) (h0 : ∀ w, Pipeline.arrRef spec0 w ≠ r)
    (h2 : ∀ w, Pipeline.arrRef spec1 w ≠ r) : E4 (F := Ideal) m c r = V1 m c r :=
  (W4_of_ne m c r h2).trans (E3_of m c r h1 h0)

theorem r1_a0 (c : Dev nD) : (E3 (F := Ideal) m c main_arg0 : S8192x8192.Idx → EReal) = m ((c : Thread nD τ).loc main_arg0) :=
  (E3_of m c main_arg0 (by decide) (by decide)).trans ((V1_of m c main_arg0 (by decide)).trans rfl)
theorem r1_b1 (c : Dev nD) : (E3 (F := Ideal) m c main_call0_v4 : S1x256.Idx → EReal) = m ((c : Thread nD τ).loc main_arg3) :=
  (E3_of m c main_call0_v4 (by decide) (by decide)).trans (host_b1 m c)
theorem r1_w2 (c : Dev nD) : (E3 (F := Ideal) m c main_call0_v6 : S256x256.Idx → EReal) = m ((c : Thread nD τ).loc main_arg4) :=
  (E3_of m c main_call0_v6 (by decide) (by decide)).trans (host_w2 m c)
/-- Z1 as region 1 finds it: region 0's result over the cast X and the cast W1. -/
theorem r1_z1 (c : Dev nD) : (E3 (F := Ideal) m c main_call0_v11 : S8192x256.Idx → EReal)
    = RFeatureValue.G (m ((c : Thread nD τ).loc main_arg1)) (m ((c : Thread nD τ).loc main_arg2)) := by
  refine (W3_of m c main_call0_v11 (by decide)).trans ((W2_arr m c 2).trans ((RFeatureValue.out_eq (E1 m) c).trans ?_))
  rw [show (E1 (F := Ideal) m c main_call0_v1 : S8192x512.Idx → EReal) = m ((c : Thread nD τ).loc main_arg1) from host_x m c,
    show (E1 (F := Ideal) m c main_call0_v3 : S512x256.Idx → EReal) = m ((c : Thread nD τ).loc main_arg2) from host_w1 m c]

theorem r2_a0 (c : Dev nD) : (E4 (F := Ideal) m c main_arg0 : S8192x8192.Idx → EReal) = m ((c : Thread nD τ).loc main_arg0) :=
  (W4_in m c 0 rfl).trans (r1_a0 m c)
theorem r2_b2 (c : Dev nD) : (E4 (F := Ideal) m c main_call0_v7 : S1x256.Idx → EReal) = m ((c : Thread nD τ).loc main_arg5) :=
  (E4_of m c main_call0_v7 (by decide) (by decide) (by decide)).trans (host_b2 m c)
theorem r2_wfc (c : Dev nD) : (E4 (F := Ideal) m c main_call0_v9 : S256x128.Idx → EReal) = m ((c : Thread nD τ).loc main_arg6) :=
  (E4_of m c main_call0_v9 (by decide) (by decide) (by decide)).trans (host_wfc m c)
theorem r2_bfc (c : Dev nD) : (E4 (F := Ideal) m c main_call0_v10 : S1x128.Idx → EReal) = m ((c : Thread nD τ).loc main_arg7) :=
  (E4_of m c main_call0_v10 (by decide) (by decide) (by decide)).trans (host_bfc m c)
/-- Z2 as region 2 finds it: region 1's result. -/
theorem r2_z2 (c : Dev nD) : (E4 (F := Ideal) m c main_call0_v13 : S8192x256.Idx → EReal)
    = RAggregate1Value.G (m ((c : Thread nD τ).loc main_arg0)) (RFeatureValue.G (m ((c : Thread nD τ).loc main_arg1)) (m ((c : Thread nD τ).loc main_arg2)))
        (m ((c : Thread nD τ).loc main_arg3)) (m ((c : Thread nD τ).loc main_arg4)) zeroRow := by
  refine (W4_arr m c 5).trans ((RAggregate1Value.out_eq (E3 m) c).trans ?_)
  rw [r1_a0 m c, r1_z1 m c, r1_b1 m c, r1_w2 m c,
    show (E3 (F := Ideal) m c main_call0_v12 : S1x256.Idx → EReal) = zeroRow from host_zero m c]

/-- The result array after the run is `result` of the launch memory's argument arrays. -/
theorem final (c : Dev nD) : (W5 (F := Ideal) m c (Proc.devRef .tc main_v0) : S8192x128.Idx → EReal)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W5_arr m c 5).trans ((RAggregate2Value.out_eq (E4 m) c).trans ?_)
  unfold result
  rw [r2_a0 m c, r2_z2 m c, r2_b2 m c, r2_wfc m c, r2_bfc m c]

/-- The run with its result named: every weakly fair execution terminates, nothing faulting, with the result array at
    `result` of the launch memory's arguments and each argument array as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v0)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v0 (by decide))).trans (final m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c)⟩) (run m ρ)

end Cert.ReferenceIdeal.RValue

end
-- ==== Proof.LibRuns.lean ====
/-
  Sums over consecutive runs.

  A sum over the first `m · n` naturals is the sum, over the `m` consecutive runs of length `n`, of each run's sum:
  entry `r` lies in run `r / n` at place `r % n`, that is `r = n · a + b` for exactly one run `a < m` and place `b < n`.
  Addition here is that of any commutative monoid; on the extended reals no finiteness is needed, only that addition is
  commutative and associative.
-/
import Idealize.ShloMosaic.Lib.ValueIdx

open scoped BigOperators

namespace Cert.Lib

/-- Cutting a sum over `Fin (m * n)` into `m` runs of `n`. -/
theorem sum_fin_mul {M : Type*} [AddCommMonoid M] (m n : ℕ) (g : ℕ → M) :
    ∑ r : Fin (m * n), g r.val = ∑ a ∈ Finset.range m, ∑ b : Fin n, g (n * a + b.val) := by
  rw [← Fin.sum_univ_eq_sum_range (fun a => ∑ b : Fin n, g (n * a + b.val)) m,
    ← Equiv.sum_comp finProdFinEquiv, Fintype.sum_prod_type]
  refine Finset.sum_congr rfl fun a _ => Finset.sum_congr rfl fun b _ => ?_
  congr 1
  show b.val + n * a.val = n * a.val + b.val
  omega

/-- The same with the total spelt as one number `N = m * n`, the summand given on `Fin N` and extended by zero. -/
theorem sum_fin_eq_runs {M : Type*} [AddCommMonoid M] (N m n : ℕ) (hN : N = m * n) (f : Fin N → M) :
    ∑ r : Fin N, f r = ∑ a ∈ Finset.range m, ∑ b : Fin n, (if h : n * a + b.val < N then f ⟨n * a + b.val, h⟩ else 0) := by
  subst hN
  rw [← sum_fin_mul m n (fun r => if h : r < m * n then f ⟨r, h⟩ else 0)]
  refine Finset.sum_congr rfl fun r _ => ?_
  rw [dif_pos r.isLt]

end Cert.Lib
-- ==== Proof.GcnAlgebra.lean ====
/-
  The one law that joins the two arrangements of an aggregation.

  The reference accumulates a row of the product A·Z over four consecutive runs of 2048 columns, starting from zero:
  (((0 + T₀) + T₁) + T₂) + T₃ with T_q the sum over run q. The kernel takes the whole row in one sum over 8192 columns.
  On the extended reals addition is commutative and associative with neutral element 0 (no finiteness is needed), so
  the two are equal: the whole sum cut into four runs of 2048.
-/
import proofs.«171818_g2000203955041256_pallasbulk_1331_5_alg».proof.Proof.LibRuns
import Idealize.ShloMosaic.PureOps.Ideal

open scoped BigOperators

namespace Cert.Gcn

/-- Four runs of 2048 accumulated from zero are the whole sum over 8192, for any enumeration `g q l` of run `q`'s
    place `l` as the column `2048 q + l`. -/
theorem tiles4 (f : Fin 8192 → EReal) (g : Fin 4 → Fin 2048 → Fin 8192)
    (hg : ∀ q l, (g q l).val = 2048 * q.val + l.val) :
    ((((0 : EReal) + ∑ l : Fin 2048, f (g 0 l)) + ∑ l : Fin 2048, f (g 1 l)) + ∑ l : Fin 2048, f (g 2 l))
        + ∑ l : Fin 2048, f (g 3 l)
      = ∑ r : Fin 8192, f r := by
  rw [Cert.Lib.sum_fin_eq_runs 8192 4 2048 (by norm_num) f]
  have h : ∀ (q : Fin 4), (∑ b : Fin 2048, (if h : 2048 * q.val + b.val < 8192 then f ⟨2048 * q.val + b.val, h⟩ else 0))
      = ∑ l : Fin 2048, f (g q l) := by
    intro q
    refine Finset.sum_congr rfl fun b _ => ?_
    have hb : 2048 * q.val + b.val < 8192 := by have := q.isLt; have := b.isLt; omega
    rw [dif_pos hb]
    exact congrArg f (Fin.ext (hg q b).symm)
  rw [Finset.sum_range_succ, Finset.sum_range_succ, Finset.sum_range_succ, Finset.sum_range_one]
  have h0 := h 0
  have h1 := h 1
  have h2 := h 2
  have h3 := h 3
  rw [show ((0 : Fin 4) : ℕ) = 0 from rfl] at h0
  rw [show ((1 : Fin 4) : ℕ) = 1 from rfl] at h1
  rw [show ((2 : Fin 4) : ℕ) = 2 from rfl] at h2
  rw [show ((3 : Fin 4) : ℕ) = 3 from rfl] at h3
  rw [h0, h1, h2, h3, zero_add]

end Cert.Gcn
-- ==== Proof.Bridge.lean ====
/-
  The two programs compute one function of the arguments.

  Index by index on the extended reals:
  * Z1. The reference's accumulator starts at 0 and adds the one K tile: 0 + Σₖ x·w = Σₖ x·w.
  * Z2. The reference's row of A·Z1 is accumulated over four runs of 2048 columns from 0, the kernel's is one sum over
    8192 columns: equal, by commutativity and associativity of + alone. The reference then adds a bias row of zeros to the
    product with W2: y + 0 = y.
  * The result. The same regrouping of the row of A·Z2; everything else is the same term.
  No distributivity and no cancellation is used, so no entry needs to be finite.
-/
import proofs.«171818_g2000203955041256_pallasbulk_1331_5_alg».proof.Proof.KValue
import proofs.«171818_g2000203955041256_pallasbulk_1331_5_alg».proof.Proof.RValue
import proofs.«171818_g2000203955041256_pallasbulk_1331_5_alg».proof.Proof.GcnAlgebra
import Idealize.ShloMosaic.PureOps.Ideal.Laws

noncomputable section

namespace Cert.Gcn

open Idealize.ShloMosaic Idealize.ShloMosaic.ValueIdx
open scoped BigOperators

/-- Z1: the accumulator reset to zero plus the single tile's product is the product. -/
theorem z1_eq (a1 : Cert.KernelIdeal.S8192x512.Idx → EReal) (a2 : Cert.KernelIdeal.S512x256.Idx → EReal) :
    Cert.ReferenceIdeal.RFeatureValue.G a1 a2 = Cert.KernelIdeal.KFeatureValue.G a1 a2 := by
  funext j
  obtain ⟨p, q, rfl⟩ : ∃ (p : Fin 8192) (q : Fin 256), j = ix2 p q := ⟨j 0, j 1, eq_ix2 j⟩
  rw [Cert.ReferenceIdeal.RFeatureValue.G_apply, Cert.KernelIdeal.KFeatureValue.G_apply, zero_add]

/-- A row of A·Z accumulated over four runs of 2048 columns from zero is the whole row sum (first aggregation). -/
theorem tiles1 (a : Cert.KernelIdeal.S8192x8192.Idx → EReal) (z : Cert.KernelIdeal.S8192x256.Idx → EReal) (i : Fin 8192) (k : Fin 256) :
    ((((0 + Cert.ReferenceIdeal.RAggregate1Value.T a z 0 i k) + Cert.ReferenceIdeal.RAggregate1Value.T a z 1 i k)
        + Cert.ReferenceIdeal.RAggregate1Value.T a z 2 i k) + Cert.ReferenceIdeal.RAggregate1Value.T a z 3 i k)
      = ∑ l : Fin 8192, a (ix2 i l) * z (ix2 l k) := by
  unfold Cert.ReferenceIdeal.RAggregate1Value.T
  exact tiles4 (fun l => a (ix2 i l) * z (ix2 l k))
    (fun q l => ⟨2048 * q.val + l.val, by have := q.isLt; have := l.isLt; omega⟩) (fun _ _ => rfl)

/-- The same for the second aggregation. -/
theorem tiles2 (a : Cert.KernelIdeal.S8192x8192.Idx → EReal) (z : Cert.KernelIdeal.S8192x256.Idx → EReal) (i : Fin 8192) (k : Fin 256) :
    ((((0 + Cert.ReferenceIdeal.RAggregate2Value.T a z 0 i k) + Cert.ReferenceIdeal.RAggregate2Value.T a z 1 i k)
        + Cert.ReferenceIdeal.RAggregate2Value.T a z 2 i k) + Cert.ReferenceIdeal.RAggregate2Value.T a z 3 i k)
      = ∑ l : Fin 8192, a (ix2 i l) * z (ix2 l k) := by
  unfold Cert.ReferenceIdeal.RAggregate2Value.T
  exact tiles4 (fun l => a (ix2 i l) * z (ix2 l k))
    (fun q l => ⟨2048 * q.val + l.val, by have := q.isLt; have := l.isLt; omega⟩) (fun _ _ => rfl)

/-- Every entry of the host's zero row is 0. -/
theorem zeroRow_apply (j : Cert.KernelIdeal.S1x256.Idx) : Cert.ReferenceIdeal.RValue.zeroRow j = 0 := by
  unfold Cert.ReferenceIdeal.RValue.zeroRow
  simp only [broadcastInDim, constant, Ideal.ofBits_def, Ideal.ofBits_zero_f32]

/-- Z2: the tiled row sum is the whole one, and the zero bias row adds nothing. -/
theorem z2_eq (a0 : Cert.KernelIdeal.S8192x8192.Idx → EReal) (z1 : Cert.KernelIdeal.S8192x256.Idx → EReal) (a3 : Cert.KernelIdeal.S1x256.Idx → EReal) (a4 : Cert.KernelIdeal.S256x256.Idx → EReal) :
    Cert.ReferenceIdeal.RAggregate1Value.G a0 z1 a3 a4 Cert.ReferenceIdeal.RValue.zeroRow
      = Cert.KernelIdeal.KAggregateValue.Z2 a0 z1 a3 a4 := by
  funext j
  obtain ⟨p, q, rfl⟩ : ∃ (p : Fin 8192) (q : Fin 256), j = ix2 p q := ⟨j 0, j 1, eq_ix2 j⟩
  rw [Cert.ReferenceIdeal.RAggregate1Value.G_apply, Cert.KernelIdeal.KAggregateValue.Z2_apply, zeroRow_apply, add_zero]
  exact Finset.sum_congr rfl fun k _ => by rw [tiles1 a0 z1 p k]

/-- The result: the tiled row sum over Z2 is the whole one. -/
theorem out_eq (a0 : Cert.KernelIdeal.S8192x8192.Idx → EReal) (z1 : Cert.KernelIdeal.S8192x256.Idx → EReal) (a3 : Cert.KernelIdeal.S1x256.Idx → EReal) (a4 : Cert.KernelIdeal.S256x256.Idx → EReal)
    (a5 : Cert.KernelIdeal.S1x256.Idx → EReal) (a6 : Cert.KernelIdeal.S256x128.Idx → EReal) (a7 : Cert.KernelIdeal.S1x128.Idx → EReal) :
    Cert.ReferenceIdeal.RAggregate2Value.G a0 (Cert.KernelIdeal.KAggregateValue.Z2 a0 z1 a3 a4) a5 a6 a7
      = Cert.KernelIdeal.KAggregateValue.G a0 z1 a3 a4 a5 a6 a7 := by
  funext j
  obtain ⟨p, q, rfl⟩ : ∃ (p : Fin 8192) (q : Fin 128), j = ix2 p q := ⟨j 0, j 1, eq_ix2 j⟩
  rw [Cert.ReferenceIdeal.RAggregate2Value.G_apply, Cert.KernelIdeal.KAggregateValue.G_apply]
  refine congrArg (· + a7 (ix2 0 q)) (Finset.sum_congr rfl fun k _ => ?_)
  rw [tiles2 a0 _ p k]

/-- The reference's result is the kernel's, as functions of the eight arguments. -/
theorem result_eq (a0 : Cert.KernelIdeal.S8192x8192.Idx → EReal) (a1 : Cert.KernelIdeal.S8192x512.Idx → EReal) (a2 : Cert.KernelIdeal.S512x256.Idx → EReal) (a3 : Cert.KernelIdeal.S1x256.Idx → EReal)
    (a4 : Cert.KernelIdeal.S256x256.Idx → EReal) (a5 : Cert.KernelIdeal.S1x256.Idx → EReal) (a6 : Cert.KernelIdeal.S256x128.Idx → EReal) (a7 : Cert.KernelIdeal.S1x128.Idx → EReal) :
    Cert.ReferenceIdeal.RValue.result a0 a1 a2 a3 a4 a5 a6 a7 = Cert.KernelIdeal.KValue.result a0 a1 a2 a3 a4 a5 a6 a7 := by
  unfold Cert.ReferenceIdeal.RValue.result Cert.KernelIdeal.KValue.result
  rw [z1_eq, z2_eq, out_eq]

end Cert.Gcn

end
-- ==== Proof.lean ====
/-
  The claim: the two-region GCN encoder kernel against its three-region Pallas reference.

  Both programs compute out = (A·relu(A·(X·W1) + b1)·W2 + b2)·Wfc + bfc. The kernel takes each row of A·Z in one sum over
  the 8192 columns; the reference accumulates it over four runs of 2048 columns from zero, adds a zero bias row after the
  product with W2, and starts the feature transform's accumulator at zero. On the extended reals these are the same
  function of the arguments by commutativity and associativity of addition and the neutrality of zero alone, so the
  precondition (finite inputs) is never opened.

  Each program's run is stated once with every unscoped buffer's final contents named (Proof/KRun.lean for the kernel at
  either instance, its copy Proof/BRun.lean for the word-level program, Proof/RRun.lean for the reference); the frames
  read the arguments off it, the value claim reads the result off it (Proof/KValue.lean, Proof/RValue.lean) and joins
  the two results (Proof/Bridge.lean). The ideal pass rewrote nothing, so the idealization claim is trivial.
-/
import proofs.«171818_g2000203955041256_pallasbulk_1331_5_alg».proof.Defs
import proofs.«171818_g2000203955041256_pallasbulk_1331_5_alg».proof.Proof.BRun
import proofs.«171818_g2000203955041256_pallasbulk_1331_5_alg».proof.Proof.KValue
import proofs.«171818_g2000203955041256_pallasbulk_1331_5_alg».proof.Proof.RValue
import proofs.«171818_g2000203955041256_pallasbulk_1331_5_alg».proof.Proof.Bridge
import proofs.«171818_g2000203955041256_pallasbulk_1331_5_alg».proof.Proof.Gen.Kernel
import proofs.«171818_g2000203955041256_pallasbulk_1331_5_alg».proof.Proof.Gen.KernelIdeal
import proofs.«171818_g2000203955041256_pallasbulk_1331_5_alg».proof.Proof.Gen.ReferenceIdeal
import proofs.«171818_g2000203955041256_pallasbulk_1331_5_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.KRun.frame m ρ
theorem frame_ki : Cert.frame_KernelIdeal := fun m ρ _ => Cert.KernelIdeal.KRun.frame m ρ
theorem frame_ri : Cert.frame_ReferenceIdeal := fun m ρ _ => Cert.ReferenceIdeal.RRun.frame m ρ

/-- The ideal pass rewrote no operation. -/
theorem preserves : Cert.preserves_Kernel_KernelIdeal := trivial

/-- From memories agreeing on the arguments both idealized programs end with the result array at one function of the
    arguments: the kernel's `result`, which the reference's equals (`Cert.Gcn.result_eq`). -/
theorem algebraic : Cert.algebraic_KernelIdeal_ReferenceIdeal := by
  intro m ρ m' ρ' _ hagree
  refine ⟨fun c => Cert.KernelIdeal.KValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KValue.run_value m ρ, ?_⟩
  refine (θ_run Cert.ReferenceIdeal.defs _ _).mono (fun r h c => ⟨(h c).1.trans ?_, (h c).2⟩)
    (Cert.ReferenceIdeal.RValue.run_value m' ρ')
  obtain ⟨e0, e1, e2, e3, e4, e5, e6, e7⟩ := hagree c
  rw [e0, e1, e2, e3, e4, e5, e6, e7]
  exact Cert.Gcn.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
